-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x75 : Shape := ⟨2, ![100000, 75]⟩
abbrev S1600000x14 : Shape := ⟨2, ![1600000, 14]⟩
abbrev S1600000 : Shape := ⟨1, ![1600000]⟩
abbrev S1600000x2 : Shape := ⟨2, ![1600000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S_ : Shape := ⟨0, ![]⟩

class Facts : Prop where
  bcast_S_S100000x75 : S_.BroadcastsInDim S100000x75 (![] : Fin 0 → Fin S100000x75.rank)
  reducesTo_S100000x75_S_d0_1 : S100000x75.ReducesTo [0, 1] S_
  h_S_ : 0 < S_.numel
  bcast_S_S1600000x14 : S_.BroadcastsInDim S1600000x14 (![] : Fin 0 → Fin S1600000x14.rank)
  reducesTo_S1600000x14_S_d0_1 : S1600000x14.ReducesTo [0, 1] S_
  bcast_S_S75x50 : S_.BroadcastsInDim S75x50 (![] : Fin 0 → Fin S75x50.rank)
  reducesTo_S75x50_S_d0_1 : S75x50.ReducesTo [0, 1] S_
  bcast_S_S50 : S_.BroadcastsInDim S50 (![] : Fin 0 → Fin S50.rank)
  reducesTo_S50_S_d0 : S50.ReducesTo [0] S_
  bcast_S_S14x50 : S_.BroadcastsInDim S14x50 (![] : Fin 0 → Fin S14x50.rank)
  reducesTo_S14x50_S_d0_1 : S14x50.ReducesTo [0, 1] S_
  bcast_S_S100x50 : S_.BroadcastsInDim S100x50 (![] : Fin 0 → Fin S100x50.rank)
  reducesTo_S100x50_S_d0_1 : S100x50.ReducesTo [0, 1] S_
  bcast_S_S150x50 : S_.BroadcastsInDim S150x50 (![] : Fin 0 → Fin S150x50.rank)
  reducesTo_S150x50_S_d0_1 : S150x50.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S50 .f32) (main_arg14 : FVec F S100x50 .f32) (main_arg15 : FVec F S50 .f32) (main_v48 : IVec S_ 1) (main_v49 : FVec F S14x50 .f32) (main_v50 : FVec F S14x50 .f32) : IVec S_ 1 :=
  let main_v51 : IVec S14x50 1 := cmpf .olt main_v49 main_v50
  let main_c_19 : IVec S_ 1 := constantI S_ 1 1#1
  let main_v52 : IVec S_ 1 := (fun x v => Host.reduce IntOp.andi x v reducesTo_S14x50_S_d0_1 h_S_) main_v51 main_c_19
  let main_v53 : IVec S_ 1 := andi main_v48 main_v52
  let main_v54 : FVec F S50 .f32 := Host.absf main_arg13
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S100x50 .f32 := Host.absf main_arg14
  let main_cst_22 : FVec F S_ .f32 := constant S_ .f32 0x7F800000#32
  let main_v60 : FVec F S100x50 .f32 := broadcastInDim S100x50 ![] bcast_S_S100x50 main_cst_22
  let main_v61 : IVec S100x50 1 := cmpf .olt main_v59 main_v60
  let main_c_23 : IVec S_ 1 := constantI S_ 1 1#1
  let main_v62 : IVec S_ 1 := (fun x v => Host.reduce IntOp.andi x v reducesTo_S100x50_S_d0_1 h_S_) main_v61 main_c_23
  let main_v63 : IVec S_ 1 := andi main_v58 main_v62
  let main_v64 : FVec F S50 .f32 := Host.absf main_arg15
  let main_cst_24 : FVec F S_ .f32 := constant S_ .f32 0x7F800000#32
  let main_v65 : FVec F S50 .f32 := broadcastInDim S50 ![] bcast_S_S50 main_cst_24
  let main_v66 : IVec S50 1 := cmpf .olt main_v64 main_v65
  let main_c_25 : IVec S_ 1 := constantI S_ 1 1#1
  let main_v67 : IVec S_ 1 := (fun x v => Host.reduce IntOp.andi x v reducesTo_S50_S_d0 h_S_) main_v66 main_c_25
  fn_part4 (F := F) main_v63 main_v67

def fn_part2 {F : FTy → Type} [FloatOps F] (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v33 : IVec S_ 1) : IVec S_ 1 :=
  let main_v34 : FVec F S50 .f32 := Host.absf main_arg9
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S150x50 .f32 := Host.absf main_arg10
  let main_cst_14 : FVec F S_ .f32 := constant S_ .f32 0x7F800000#32
  let main_v40 : FVec F S150x50 .f32 := broadcastInDim S150x50 ![] bcast_S_S150x50 main_cst_14
  let main_v41 : IVec S150x50 1 := cmpf .olt main_v39 main_v40
  let main_c_15 : IVec S_ 1 := constantI S_ 1 1#1
  let main_v42 : IVec S_ 1 := (fun x v => Host.reduce IntOp.andi x v reducesTo_S150x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S14x50 .f32 := Host.absf main_arg12
  let main_cst_18 : FVec F S_ .f32 := constant S_ .f32 0x7F800000#32
  let main_v50 : FVec F S14x50 .f32 := broadcastInDim S14x50 ![] bcast_S_S14x50 main_cst_18
  fn_part3 (F := F) main_arg13 main_arg14 main_arg15 main_v48 main_v49 main_v50

def fn_part1 {F : FTy → Type} [FloatOps F] (main_arg6 : FVec F S14x50 .f32) (main_arg7 : FVec F S50 .f32) (main_arg8 : FVec F S100x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S14x50 .f32 := Host.absf main_arg6
  let main_cst_6 : FVec F S_ .f32 := constant S_ .f32 0x7F800000#32
  let main_v20 : FVec F S14x50 .f32 := broadcastInDim S14x50 ![] bcast_S_S14x50 main_cst_6
  let main_v21 : IVec S14x50 1 := cmpf .olt main_v19 main_v20
  let main_c_7 : IVec S_ 1 := constantI S_ 1 1#1
  let main_v22 : IVec S_ 1 := (fun x v => Host.reduce IntOp.andi x v reducesTo_S14x50_S_d0_1 h_S_) main_v21 main_c_7
  let main_v23 : IVec S_ 1 := andi main_v18 main_v22
  let main_v24 : FVec F S50 .f32 := Host.absf main_arg7
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S100x50 .f32 := Host.absf main_arg8
  let main_cst_10 : FVec F S_ .f32 := constant S_ .f32 0x7F800000#32
  let main_v30 : FVec F S100x50 .f32 := broadcastInDim S100x50 ![] bcast_S_S100x50 main_cst_10
  let main_v31 : IVec S100x50 1 := cmpf .olt main_v29 main_v30
  let main_c_11 : IVec S_ 1 := constantI S_ 1 1#1
  let main_v32 : IVec S_ 1 := (fun x v => Host.reduce IntOp.andi x v reducesTo_S100x50_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x75 .f32) (main_arg1 : FVec F S1600000x14 .f32) (main_arg2 : IVec S1600000 32) (main_arg3 : IVec S1600000x2 32) (main_arg4 : FVec F S75x50 .f32) (main_arg5 : FVec F S50 .f32) (main_arg6 : FVec F S14x50 .f32) (main_arg7 : FVec F S50 .f32) (main_arg8 : FVec F S100x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) : IVec S_ 1 :=
  let main_v0 : FVec F S100000x75 .f32 := Host.absf main_arg0
  let main_cst : FVec F S_ .f32 := constant S_ .f32 0x7F800000#32
  let main_v1 : FVec F S100000x75 .f32 := broadcastInDim S100000x75 ![] bcast_S_S100000x75 main_cst
  let main_v2 : IVec S100000x75 1 := cmpf .olt main_v0 main_v1
  let main_c : IVec S_ 1 := constantI S_ 1 1#1
  let main_v3 : IVec S_ 1 := (fun x v => Host.reduce IntOp.andi x v reducesTo_S100000x75_S_d0_1 h_S_) main_v2 main_c
  let main_v4 : FVec F S1600000x14 .f32 := Host.absf main_arg1
  let main_cst_0 : FVec F S_ .f32 := constant S_ .f32 0x7F800000#32
  let main_v5 : FVec F S1600000x14 .f32 := broadcastInDim S1600000x14 ![] bcast_S_S1600000x14 main_cst_0
  let main_v6 : IVec S1600000x14 1 := cmpf .olt main_v4 main_v5
  let main_c_1 : IVec S_ 1 := constantI S_ 1 1#1
  let main_v7 : IVec S_ 1 := (fun x v => Host.reduce IntOp.andi x v reducesTo_S1600000x14_S_d0_1 h_S_) main_v6 main_c_1
  let main_v8 : IVec S_ 1 := andi main_v3 main_v7
  let main_v9 : FVec F S75x50 .f32 := Host.absf main_arg4
  let main_cst_2 : FVec F S_ .f32 := constant S_ .f32 0x7F800000#32
  let main_v10 : FVec F S75x50 .f32 := broadcastInDim S75x50 ![] bcast_S_S75x50 main_cst_2
  let main_v11 : IVec S75x50 1 := cmpf .olt main_v9 main_v10
  let main_c_3 : IVec S_ 1 := constantI S_ 1 1#1
  let main_v12 : IVec S_ 1 := (fun x v => Host.reduce IntOp.andi x v reducesTo_S75x50_S_d0_1 h_S_) main_v11 main_c_3
  let main_v13 : IVec S_ 1 := andi main_v8 main_v12
  let main_v14 : FVec F S50 .f32 := Host.absf main_arg5
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x75 : Shape := ⟨2, ![100000, 75]⟩
abbrev S1600000x14 : Shape := ⟨2, ![1600000, 14]⟩
abbrev S1600000 : Shape := ⟨1, ![1600000]⟩
abbrev S1600000x2 : Shape := ⟨2, ![1600000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S1600000x1 : Shape := ⟨2, ![1600000, 1]⟩
abbrev S_ : Shape := ⟨0, ![]⟩
abbrev S1600000x75 : Shape := ⟨2, ![1600000, 75]⟩
abbrev S50x50 : Shape := ⟨2, ![50, 50]⟩
abbrev S1x50 : Shape := ⟨2, ![1, 50]⟩
abbrev S1600000x50 : Shape := ⟨2, ![1600000, 50]⟩
abbrev S6400x14 : Shape := ⟨2, ![6400, 14]⟩
abbrev S6400x75 : Shape := ⟨2, ![6400, 75]⟩
abbrev S6400x50 : Shape := ⟨2, ![6400, 50]⟩
abbrev S100000x50 : Shape := ⟨2, ![100000, 50]⟩
abbrev S5000x75 : Shape := ⟨2, ![5000, 75]⟩
abbrev S5000x50 : Shape := ⟨2, ![5000, 50]⟩

abbrev nBuf : Space → Nat
  | .hbm => 60
  | .vmem => 31
  | .smem => 0
  | _ => 0

abbrev bufTy : (tb : Table) → Fin (tcTables nBuf tb) → BufTy
  | .hbm, ⟨0, _⟩ => ⟨S100000x75, .f32⟩
  | .hbm, ⟨1, _⟩ => ⟨S1600000x14, .f32⟩
  | .hbm, ⟨2, _⟩ => ⟨S1600000, .i32⟩
  | .hbm, ⟨3, _⟩ => ⟨S1600000x2, .i32⟩
  | .hbm, ⟨4, _⟩ => ⟨S75x50, .f32⟩
  | .hbm, ⟨5, _⟩ => ⟨S50, .f32⟩
  | .hbm, ⟨6, _⟩ => ⟨S14x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S1600000x1, .i32⟩
  | .hbm, ⟨17, _⟩ => ⟨S1600000, .i32⟩
  | .hbm, ⟨18, _⟩ => ⟨S1600000x1, .i32⟩
  | .hbm, ⟨19, _⟩ => ⟨S1600000, .i32⟩
  | .hbm, ⟨20, _⟩ => ⟨S100000x75, .bf16⟩
  | .hbm, ⟨21, _⟩ => ⟨S1600000x14, .bf16⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x75, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x75, .bf16⟩
  | .hbm, ⟨40, _⟩ => ⟨S50x50, .f32⟩
  | .hbm, ⟨41, _⟩ => ⟨S50x50, .f32⟩
  | .hbm, ⟨42, _⟩ => ⟨S75x50, .f32⟩
  | .hbm, ⟨43, _⟩ => ⟨S75x50, .f32⟩
  | .hbm, ⟨44, _⟩ => ⟨S50x50, .f32⟩
  | .hbm, ⟨45, _⟩ => ⟨S50x50, .f32⟩
  | .hbm, ⟨46, _⟩ => ⟨S1x50, .f32⟩
  | .hbm, ⟨47, _⟩ => ⟨S1x50, .f32⟩
  | .hbm, ⟨48, _⟩ => ⟨S1x50, .f32⟩
  | .hbm, ⟨49, _⟩ => ⟨S1x50, .f32⟩
  | .hbm, ⟨50, _⟩ => ⟨S1x50, .f32⟩
  | .hbm, ⟨51, _⟩ => ⟨S1x50, .f32⟩
  | .hbm, ⟨52, _⟩ => ⟨S1600000x50, .f32⟩
  | .hbm, ⟨53, _⟩ => ⟨S1600000x50, .f32⟩
  | .hbm, ⟨54, _⟩ => ⟨S_, .f32⟩
  | .hbm, ⟨55, _⟩ => ⟨S100000x50, .f32⟩
  | .hbm, ⟨56, _⟩ => ⟨S1600000x1, .i32⟩
  | .hbm, ⟨57, _⟩ => ⟨S100000x50, .f32⟩
  | .hbm, ⟨58, _⟩ => ⟨S100000x50, .bf16⟩
  | .hbm, ⟨59, _⟩ => ⟨S100000x50, .f32⟩
  | .local _ .vmem, ⟨0, _⟩ => ⟨S6400x14, .bf16⟩
  | .local _ .vmem, ⟨1, _⟩ => ⟨S6400x14, .bf16⟩
  | .local _ .vmem, ⟨2, _⟩ => ⟨S6400x75, .bf16⟩
  | .local _ .vmem, ⟨3, _⟩ => ⟨S6400x75, .bf16⟩
  | .local _ .vmem, ⟨4, _⟩ => ⟨S6400x75, .bf16⟩
  | .local _ .vmem, ⟨5, _⟩ => ⟨S6400x75, .bf16⟩
  | .local _ .vmem, ⟨6, _⟩ => ⟨S14x50, .f32⟩
  | .local _ .vmem, ⟨7, _⟩ => ⟨S1x50, .f32⟩
  | .local _ .vmem, ⟨8, _⟩ => ⟨S14x50, .f32⟩
  | .local _ .vmem, ⟨9, _⟩ => ⟨S1x50, .f32⟩
  | .local _ .vmem, ⟨10, _⟩ => ⟨S75x50, .f32⟩
  | .local _ .vmem, ⟨11, _⟩ => ⟨S75x50, .f32⟩
  | .local _ .vmem, ⟨12, _⟩ => ⟨S1x50, .f32⟩
  | .local _ .vmem, ⟨13, _⟩ => ⟨S50x50, .f32⟩
  | .local _ .vmem, ⟨14, _⟩ => ⟨S50x50, .f32⟩
  | .local _ .vmem, ⟨15, _⟩ => ⟨S1x50, .f32⟩
  | .local _ .vmem, ⟨16, _⟩ => ⟨S6400x50, .f32⟩
  | .local _ .vmem, ⟨17, _⟩ => ⟨S6400x50, .f32⟩
  | .local _ .vmem, ⟨18, _⟩ => ⟨S6400x50, .f32⟩
  | .local _ .vmem, ⟨19, _⟩ => ⟨S6400x50, .f32⟩
  | .local _ .vmem, ⟨20, _⟩ => ⟨S5000x75, .bf16⟩
  | .local _ .vmem, ⟨21, _⟩ => ⟨S5000x75, .bf16⟩
  | .local _ .vmem, ⟨22, _⟩ => ⟨S5000x50, .bf16⟩
  | .local _ .vmem, ⟨23, _⟩ => ⟨S5000x50, .bf16⟩
  | .local _ .vmem, ⟨24, _⟩ => ⟨S75x50, .f32⟩
  | .local _ .vmem, ⟨25, _⟩ => ⟨S1x50, .f32⟩
  | .local _ .vmem, ⟨26, _⟩ => ⟨S50x50, .f32⟩
  | .local _ .vmem, ⟨27, _⟩ => ⟨S50x50, .f32⟩
  | .local _ .vmem, ⟨28, _⟩ => ⟨S1x50, .f32⟩
  | .local _ .vmem, ⟨29, _⟩ => ⟨S5000x50, .f32⟩
  | .local _ .vmem, ⟨30, _⟩ => ⟨S5000x50, .f32⟩
  | _, _ => ⟨S100000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x14 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x75 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x75 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S14x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S75x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S75x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S50x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S50x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x50 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S6400x50 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x75 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x50 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S75x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S50x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x50 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x50 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S100x50_S50x50_0_0 : S100x50.Slices ![0, 0] S50x50
  slices_S100x50_S50x50_50_0 : S100x50.Slices ![50, 0] S50x50
  slices_S150x50_S75x50_0_0 : S150x50.Slices ![0, 0] S75x50
  slices_S150x50_S75x50_75_0 : S150x50.Slices ![75, 0] S75x50
  shapeCasts_S50_S1x50 : S50.ShapeCasts S1x50
  inb_S6400x14_S6400x14_0_0 : ∀ a, (![0, 0] : Fin 2 → Nat) a + S6400x14.size a ≤ S6400x14.size a
  h_S6400x14 : 0 < S6400x14.numel
  shapeCasts_S6400x14_S6400x14 : S6400x14.ShapeCasts S6400x14
  inb_S6400x75_S6400x75_0_0 : ∀ a, (![0, 0] : Fin 2 → Nat) a + S6400x75.size a ≤ S6400x75.size a
  h_S6400x75 : 0 < S6400x75.numel
  shapeCasts_S6400x75_S6400x75 : S6400x75.ShapeCasts S6400x75
  inb_S14x50_S14x50_0_0 : ∀ a, (![0, 0] : Fin 2 → Nat) a + S14x50.size a ≤ S14x50.size a
  h_S14x50 : 0 < S14x50.numel
  inb_S75x50_S75x50_0_0 : ∀ a, (![0, 0] : Fin 2 → Nat) a + S75x50.size a ≤ S75x50.size a
  h_S75x50 : 0 < S75x50.numel
  shapeCasts_S75x50_S75x50 : S75x50.ShapeCasts S75x50
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S6400x50 : S1x50.Broadcasts S6400x50
  inb_S6400x50_S6400x50_0_0 : ∀ a, (![0, 0] : Fin 2 → Nat) a + S6400x50.size a ≤ S6400x50.size a
  h_S6400x50 : 0 < S6400x50.numel
  bcast_S_S100000x50 : S_.BroadcastsInDim S100000x50 (![] : Fin 0 → Fin S100000x50.rank)
  inb_S5000x75_S5000x75_0_0 : ∀ a, (![0, 0] : Fin 2 → Nat) a + S5000x75.size a ≤ S5000x75.size a
  h_S5000x75 : 0 < S5000x75.numel
  shapeCasts_S5000x75_S5000x75 : S5000x75.ShapeCasts S5000x75
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  broadcasts_S1x50_S5000x50 : S1x50.Broadcasts S5000x50
  gather_S100000x75_S1600000x1_S1600000x75_1_0_n_n_0_1_175_wf : GatherDims.WF S100000x75 S1600000x1 S1600000x75 [1] [0] [] [0] [] 1 ![1, 75]
  dot_S6400x14_S14x50_S6400x50_1_0_0_1_n_n_wf : DotDims.WF S6400x14 S14x50 S6400x50 [1] [0] [0] [1] [] []
  dot_S6400x75_S75x50_S6400x50_1_0_0_1_n_n_wf : DotDims.WF S6400x75 S75x50 S6400x50 [1] [0] [0] [1] [] []
  dot_S6400x50_S50x50_S6400x50_1_0_0_1_n_n_wf : DotDims.WF S6400x50 S50x50 S6400x50 [1] [0] [0] [1] [] []
  scatter_S100000x50_S1600000x1_S1600000x50_1_0_0_1_wf : ScatterDims.WF S100000x50 S1600000x1 S1600000x50 [1] [0] [0] 1
  dot_S5000x75_S75x50_S5000x50_1_0_0_1_n_n_wf : DotDims.WF S5000x75 S75x50 S5000x50 [1] [0] [0] [1] [] []
  dot_S5000x50_S50x50_S5000x50_1_0_0_1_n_n_wf : DotDims.WF S5000x50 S50x50 S5000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x14.size a ≤ S1600000x14.size a
  hwx0_0 : ∀ i : grid0.Coords, EltTy.bits .bf16 = 32 ∨ (Rect.block (s := S1600000x14) S6400x14.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x75.size a ≤ S1600000x75.size a
  hwx0_1 : ∀ i : grid0.Coords, EltTy.bits .bf16 = 32 ∨ (Rect.block (s := S1600000x75) S6400x75.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x75.size a ≤ S1600000x75.size a
  hwx0_2 : ∀ i : grid0.Coords, EltTy.bits .bf16 = 32 ∨ (Rect.block (s := S1600000x75) S6400x75.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x50.size a ≤ S14x50.size a
  hwx0_3 : ∀ i : grid0.Coords, EltTy.bits .f32 = 32 ∨ (Rect.block (s := S14x50) S14x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S14x50.size a ≤ S14x50.size a
  hwx0_5 : ∀ i : grid0.Coords, EltTy.bits .f32 = 32 ∨ (Rect.block (s := S14x50) S14x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S75x50.size a ≤ S75x50.size a
  hwx0_7 : ∀ i : grid0.Coords, EltTy.bits .f32 = 32 ∨ (Rect.block (s := S75x50) S75x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S75x50.size a ≤ S75x50.size a
  hwx0_8 : ∀ i : grid0.Coords, EltTy.bits .f32 = 32 ∨ (Rect.block (s := S75x50) S75x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x50.size a ≤ S1x50.size a
  hwx0_9 : ∀ i : grid0.Coords, EltTy.bits .f32 = 32 ∨ (Rect.block (s := S1x50) S1x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50x50.size a ≤ S50x50.size a
  hwx0_10 : ∀ i : grid0.Coords, EltTy.bits .f32 = 32 ∨ (Rect.block (s := S50x50) S50x50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S50x50.size a ≤ S50x50.size a
  hwx0_11 : ∀ i : grid0.Coords, EltTy.bits .f32 = 32 ∨ (Rect.block (s := S50x50) S50x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x50.size a ≤ S1x50.size a
  hwx0_12 : ∀ i : grid0.Coords, EltTy.bits .f32 = 32 ∨ (Rect.block (s := S1x50) S1x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x50.size a ≤ S1600000x50.size a
  hwx0_13 : ∀ i : grid0.Coords, EltTy.bits .f32 = 32 ∨ (Rect.block (s := S1600000x50) S6400x50.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S6400x50.size a ≤ S1600000x50.size a
  hwx0_14 : ∀ i : grid0.Coords, EltTy.bits .f32 = 32 ∨ (Rect.block (s := S1600000x50) S6400x50.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x75.size a ≤ S100000x75.size a
  hwx1_0 : ∀ i : grid1.Coords, EltTy.bits .bf16 = 32 ∨ (Rect.block (s := S100000x75) S5000x75.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x50.size a ≤ S100000x50.size a
  hwx1_1 : ∀ i : grid1.Coords, EltTy.bits .bf16 = 32 ∨ (Rect.block (s := S100000x50) S5000x50.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S75x50.size a ≤ S75x50.size a
  hwx1_2 : ∀ i : grid1.Coords, EltTy.bits .f32 = 32 ∨ (Rect.block (s := S75x50) S75x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50.size a ≤ S1x50.size a
  hwx1_3 : ∀ i : grid1.Coords, EltTy.bits .f32 = 32 ∨ (Rect.block (s := S1x50) S1x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x50.size a ≤ S50x50.size a
  hwx1_4 : ∀ i : grid1.Coords, EltTy.bits .f32 = 32 ∨ (Rect.block (s := S50x50) S50x50.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S50x50.size a ≤ S50x50.size a
  hwx1_5 : ∀ i : grid1.Coords, EltTy.bits .f32 = 32 ∨ (Rect.block (s := S50x50) S50x50.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x50.size a ≤ S1x50.size a
  hwx1_6 : ∀ i : grid1.Coords, EltTy.bits .f32 = 32 ∨ (Rect.block (s := S1x50) S1x50.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x50.size a ≤ S100000x50.size a
  hwx1_7 : ∀ i : grid1.Coords, EltTy.bits .f32 = 32 ∨ (Rect.block (s := S100000x50) S5000x50.size (cc1_transform_7 i) (hinb1_7 i)).WholeWords (EltTy.packing .f32)

variable [Facts₀]

def gather_S100000x75_S1600000x1_S1600000x75_1_0_n_n_0_1_175 : GatherDims S100000x75 S1600000x1 S1600000x75 where
  offsetDims := [1]
  collapsedSliceDims := [0]
  operandBatchingDims := []
  startIndicesBatchingDims := []
  startIndexMap := [0]
  indexVectorDim := 1
  sliceSizes := ![1, 75]
  wf := gather_S100000x75_S1600000x1_S1600000x75_1_0_n_n_0_1_175_wf
def dot_S6400x14_S14x50_S6400x50_1_0_0_1_n_n : DotDims S6400x14 S14x50 S6400x50 where
  lhsContracting := [1]
  rhsContracting := [0]
  lhsNonContracting := [0]
  rhsNonContracting := [1]
  lhsBatch := []
  rhsBatch := []
  wf := dot_S6400x14_S14x50_S6400x50_1_0_0_1_n_n_wf
def dot_S6400x75_S75x50_S6400x50_1_0_0_1_n_n : DotDims S6400x75 S75x50 S6400x50 where
  lhsContracting := [1]
  rhsContracting := [0]
  lhsNonContracting := [0]
  rhsNonContracting := [1]
  lhsBatch := []
  rhsBatch := []
  wf := dot_S6400x75_S75x50_S6400x50_1_0_0_1_n_n_wf
def dot_S6400x50_S50x50_S6400x50_1_0_0_1_n_n : DotDims S6400x50 S50x50 S6400x50 where
  lhsContracting := [1]
  rhsContracting := [0]
  lhsNonContracting := [0]
  rhsNonContracting := [1]
  lhsBatch := []
  rhsBatch := []
  wf := dot_S6400x50_S50x50_S6400x50_1_0_0_1_n_n_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S5000x75_S75x50_S5000x50_1_0_0_1_n_n : DotDims S5000x75 S75x50 S5000x50 where
  lhsContracting := [1]
  rhsContracting := [0]
  lhsNonContracting := [0]
  rhsNonContracting := [1]
  lhsBatch := []
  rhsBatch := []
  wf := dot_S5000x75_S75x50_S5000x50_1_0_0_1_n_n_wf
def dot_S5000x50_S50x50_S5000x50_1_0_0_1_n_n : DotDims S5000x50 S50x50 S5000x50 where
  lhsContracting := [1]
  rhsContracting := [0]
  lhsNonContracting := [0]
  rhsNonContracting := [1]
  lhsBatch := []
  rhsBatch := []
  wf := dot_S5000x50_S50x50_S5000x50_1_0_0_1_n_n_wf

abbrev win0_0 : Pipeline.Window sig grid0 :=
  Pipeline.Window.ofSpec (Memref.whole main_v5) S6400x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6400x75.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S6400x75.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S14x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S14x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S75x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S75x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S50x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S50x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x50.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32_0) S6400x50.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v32_1) S6400x50.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v4) S5000x75.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S75x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S50x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S50x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x50.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S5000x50.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x75 : Shape := ⟨2, ![100000, 75]⟩
abbrev S1600000x14 : Shape := ⟨2, ![1600000, 14]⟩
abbrev S1600000 : Shape := ⟨1, ![1600000]⟩
abbrev S1600000x2 : Shape := ⟨2, ![1600000, 2]⟩
abbrev S75x50 : Shape := ⟨2, ![75, 50]⟩
abbrev S50 : Shape := ⟨1, ![50]⟩
abbrev S14x50 : Shape := ⟨2, ![14, 50]⟩
abbrev S100x50 : Shape := ⟨2, ![100, 50]⟩
abbrev S150x50 : Shape := ⟨2, ![150, 50]⟩
abbrev S100000x50 : Shape := ⟨2, ![100000, 50]⟩
abbrev S1x50 : Shape := ⟨2, ![1, 50]⟩
abbrev S_ : Shape := ⟨0, ![]⟩
abbrev S1600000x50 : Shape := ⟨2, ![1600000, 50]⟩
abbrev S1600000x1 : Shape := ⟨2, ![1600000, 1]⟩
abbrev S100000x100 : Shape := ⟨2, ![100000, 100]⟩
abbrev S1600000x2x1 : Shape := ⟨3, ![1600000, 2, 1]⟩
abbrev S1600000x2x75 : Shape := ⟨3, ![1600000, 2, 75]⟩
abbrev S1600000x150 : Shape := ⟨2, ![1600000, 150]⟩
abbrev S1600000x100 : Shape := ⟨2, ![1600000, 100]⟩

abbrev nBuf : Space → Nat
  | .hbm => 93
  | .vmem => 0
  | .smem => 0
  | _ => 0

abbrev bufTy : (tb : Table) → Fin (tcTables nBuf tb) → BufTy
  | .hbm, ⟨0, _⟩ => ⟨S100000x75, .f32⟩
  | .hbm, ⟨1, _⟩ => ⟨S1600000x14, .f32⟩
  | .hbm, ⟨2, _⟩ => ⟨S1600000, .i32⟩
  | .hbm, ⟨3, _⟩ => ⟨S1600000x2, .i32⟩
  | .hbm, ⟨4, _⟩ => ⟨S75x50, .f32⟩
  | .hbm, ⟨5, _⟩ => ⟨S50, .f32⟩
  | .hbm, ⟨6, _⟩ => ⟨S14x50, .f32⟩
  | .hbm, ⟨7, _⟩ => ⟨S50, .f32⟩
  | .hbm, ⟨8, _⟩ => ⟨S100x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S100000x50, .f32⟩
  | .hbm, ⟨17, _⟩ => ⟨S1x50, .f32⟩
  | .hbm, ⟨18, _⟩ => ⟨S100000x50, .f32⟩
  | .hbm, ⟨19, _⟩ => ⟨S100000x50, .f32⟩
  | .hbm, ⟨20, _⟩ => ⟨S_, .f32⟩
  | .hbm, ⟨21, _⟩ => ⟨S100000x50, .f32⟩
  | .hbm, ⟨22, _⟩ => ⟨S100000x50, .f32⟩
  | .hbm, ⟨23, _⟩ => ⟨S1600000x50, .f32⟩
  | .hbm, ⟨24, _⟩ => ⟨S1x50, .f32⟩
  | .hbm, ⟨25, _⟩ => ⟨S1600000x50, .f32⟩
  | .hbm, ⟨26, _⟩ => ⟨S1600000x50, .f32⟩
  | .hbm, ⟨27, _⟩ => ⟨S_, .f32⟩
  | .hbm, ⟨28, _⟩ => ⟨S1600000x50, .f32⟩
  | .hbm, ⟨29, _⟩ => ⟨S1600000x50, .f32⟩
  | .hbm, ⟨30, _⟩ => ⟨S_, .f32⟩
  | .hbm, ⟨31, _⟩ => ⟨S100000x50, .f32⟩
  | .hbm, ⟨32, _⟩ => ⟨S1600000x1, .i32⟩
  | .hbm, ⟨33, _⟩ => ⟨S100000x50, .f32⟩
  | .hbm, ⟨34, _⟩ => ⟨S100000x100, .f32⟩
  | .hbm, ⟨35, _⟩ => ⟨S100000x50, .f32⟩
  | .hbm, ⟨36, _⟩ => ⟨S1x50, .f32⟩
  | .hbm, ⟨37, _⟩ => ⟨S100000x50, .f32⟩
  | .hbm, ⟨38, _⟩ => ⟨S100000x50, .f32⟩
  | .hbm, ⟨39, _⟩ => ⟨S_, .f32⟩
  | .hbm, ⟨40, _⟩ => ⟨S100000x50, .f32⟩
  | .hbm, ⟨41, _⟩ => ⟨S100000x50, .f32⟩
  | .hbm, ⟨42, _⟩ => ⟨S_, .i32⟩
  | .hbm, ⟨43, _⟩ => ⟨S1600000x2, .i32⟩
  | .hbm, ⟨44, _⟩ => ⟨S1600000x2, .i1⟩
  | .hbm, ⟨45, _⟩ => ⟨S_, .i32⟩
  | .hbm, ⟨46, _⟩ => ⟨S1600000x2, .i32⟩
  | .hbm, ⟨47, _⟩ => ⟨S1600000x2, .i32⟩
  | .hbm, ⟨48, _⟩ => ⟨S1600000x2, .i32⟩
  | .hbm, ⟨49, _⟩ => ⟨S1600000x2x1, .i32⟩
  | .hbm, ⟨50, _⟩ => ⟨S1600000x2x75, .f32⟩
  | .hbm, ⟨51, _⟩ => ⟨S1600000x150, .f32⟩
  | .hbm, ⟨52, _⟩ => ⟨S1600000x2, .i32⟩
  | .hbm, ⟨53, _⟩ => ⟨S_, .i32⟩
  | .hbm, ⟨54, _⟩ => ⟨S1600000x2, .i32⟩
  | .hbm, ⟨55, _⟩ => ⟨S1600000x2, .i1⟩
  | .hbm, ⟨56, _⟩ => ⟨S_, .i32⟩
  | .hbm, ⟨57, _⟩ => ⟨S1600000x2, .i32⟩
  | .hbm, ⟨58, _⟩ => ⟨S1600000x2, .i32⟩
  | .hbm, ⟨59, _⟩ => ⟨S1600000x2, .i32⟩
  | .hbm, ⟨60, _⟩ => ⟨S1600000x2x1, .i32⟩
  | .hbm, ⟨61, _⟩ => ⟨S1600000x2x75, .f32⟩
  | .hbm, ⟨62, _⟩ => ⟨S1600000x150, .f32⟩
  | .hbm, ⟨63, _⟩ => ⟨S1600000x50, .f32⟩
  | .hbm, ⟨64, _⟩ => ⟨S1x50, .f32⟩
  | .hbm, ⟨65, _⟩ => ⟨S1600000x50, .f32⟩
  | .hbm, ⟨66, _⟩ => ⟨S1600000x50, .f32⟩
  | .hbm, ⟨67, _⟩ => ⟨S_, .f32⟩
  | .hbm, ⟨68, _⟩ => ⟨S1600000x50, .f32⟩
  | .hbm, ⟨69, _⟩ => ⟨S1600000x50, .f32⟩
  | .hbm, ⟨70, _⟩ => ⟨S1600000x50, .f32⟩
  | .hbm, ⟨71, _⟩ => ⟨S1x50, .f32⟩
  | .hbm, ⟨72, _⟩ => ⟨S1600000x50, .f32⟩
  | .hbm, ⟨73, _⟩ => ⟨S1600000x50, .f32⟩
  | .hbm, ⟨74, _⟩ => ⟨S_, .f32⟩
  | .hbm, ⟨75, _⟩ => ⟨S1600000x50, .f32⟩
  | .hbm, ⟨76, _⟩ => ⟨S1600000x50, .f32⟩
  | .hbm, ⟨77, _⟩ => ⟨S1600000x50, .f32⟩
  | .hbm, ⟨78, _⟩ => ⟨S1600000x50, .f32⟩
  | .hbm, ⟨79, _⟩ => ⟨S1x50, .f32⟩
  | .hbm, ⟨80, _⟩ => ⟨S1600000x50, .f32⟩
  | .hbm, ⟨81, _⟩ => ⟨S1600000x50, .f32⟩
  | .hbm, ⟨82, _⟩ => ⟨S_, .f32⟩
  | .hbm, ⟨83, _⟩ => ⟨S1600000x50, .f32⟩
  | .hbm, ⟨84, _⟩ => ⟨S1600000x50, .f32⟩
  | .hbm, ⟨85, _⟩ => ⟨S1600000x100, .f32⟩
  | .hbm, ⟨86, _⟩ => ⟨S1600000x50, .f32⟩
  | .hbm, ⟨87, _⟩ => ⟨S1x50, .f32⟩
  | .hbm, ⟨88, _⟩ => ⟨S1600000x50, .f32⟩
  | .hbm, ⟨89, _⟩ => ⟨S1600000x50, .f32⟩
  | .hbm, ⟨90, _⟩ => ⟨S_, .f32⟩
  | .hbm, ⟨91, _⟩ => ⟨S1600000x50, .f32⟩
  | .hbm, ⟨92, _⟩ => ⟨S1600000x50, .f32⟩
  | _, _ => ⟨S100000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_1 : Ref sig .tc := ⟨.hbm, 53, rfl⟩
abbrev main_v28 : Ref sig .tc := ⟨.hbm, 54, rfl⟩
abbrev main_v29 : Ref sig .tc := ⟨.hbm, 55, rfl⟩
abbrev main_c_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call3_cst : Ref sig .tc := ⟨.hbm, 67, rfl⟩
abbrev main_call3_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call4_cst : Ref sig .tc := ⟨.hbm, 74, rfl⟩
abbrev main_call4_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call5_cst : Ref sig .tc := ⟨.hbm, 82, rfl⟩
abbrev main_call5_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call6_cst : Ref sig .tc := ⟨.hbm, 90, rfl⟩
abbrev main_call6_v0 : Ref sig .tc := ⟨.hbm, 91, rfl⟩
abbrev main_v57 : Ref sig .tc := ⟨.hbm, 92, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S100000x50 : S_.BroadcastsInDim S100000x50 (![] : Fin 0 → Fin S100000x50.rank)
  bcast_S1x50_S1600000x50_0_1 : S1x50.BroadcastsInDim S1600000x50 (![0, 1] : Fin 2 → Fin S1600000x50.rank)
  bcast_S_S1600000x50 : S_.BroadcastsInDim S1600000x50 (![] : Fin 0 → Fin S1600000x50.rank)
  bcast_S1600000_S1600000x1_0 : S1600000.BroadcastsInDim S1600000x1 (![0] : Fin 1 → Fin S1600000x1.rank)
  concatenates_S100000x50_S100000x50_S100000x100_d1 : Shape.Concatenates [S100000x50, S100000x50] S100000x100 1
  bcast_S_S1600000x2 : S_.BroadcastsInDim S1600000x2 (![] : Fin 0 → Fin S1600000x2.rank)
  bcast_S1600000x2_S1600000x2x1_0_1 : S1600000x2.BroadcastsInDim S1600000x2x1 (![0, 1] : Fin 2 → Fin S1600000x2x1.rank)
  shapeCasts_S1600000x2x75_S1600000x150 : S1600000x2x75.ShapeCasts S1600000x150
  concatenates_S1600000x50_S1600000x50_S1600000x100_d1 : Shape.Concatenates [S1600000x50, S1600000x50] S1600000x100 1
  dot_S100000x75_S75x50_S100000x50_1_0_0_1_n_n_wf : DotDims.WF S100000x75 S75x50 S100000x50 [1] [0] [0] [1] [] []
  dot_S1600000x14_S14x50_S1600000x50_1_0_0_1_n_n_wf : DotDims.WF S1600000x14 S14x50 S1600000x50 [1] [0] [0] [1] [] []
  scatter_S100000x50_S1600000x1_S1600000x50_1_0_0_1_wf : ScatterDims.WF S100000x50 S1600000x1 S1600000x50 [1] [0] [0] 1
  dot_S100000x100_S100x50_S100000x50_1_0_0_1_n_n_wf : DotDims.WF S100000x100 S100x50 S100000x50 [1] [0] [0] [1] [] []
  gather_S100000x75_S1600000x2x1_S1600000x2x75_2_0_n_n_0_2_175_wf : GatherDims.WF S100000x75 S1600000x2x1 S1600000x2x75 [2] [0] [] [0] [] 2 ![1, 75]
  dot_S1600000x150_S150x50_S1600000x50_1_0_0_1_n_n_wf : DotDims.WF S1600000x150 S150x50 S1600000x50 [1] [0] [0] [1] [] []
  dot_S1600000x100_S100x50_S1600000x50_1_0_0_1_n_n_wf : DotDims.WF S1600000x100 S100x50 S1600000x50 [1] [0] [0] [1] [] []

variable [Facts₀]

def dot_S100000x75_S75x50_S100000x50_1_0_0_1_n_n : DotDims S100000x75 S75x50 S100000x50 where
  lhsContracting := [1]
  rhsContracting := [0]
  lhsNonContracting := [0]
  rhsNonContracting := [1]
  lhsBatch := []
  rhsBatch := []
  wf := dot_S100000x75_S75x50_S100000x50_1_0_0_1_n_n_wf
def dot_S1600000x14_S14x50_S1600000x50_1_0_0_1_n_n : DotDims S1600000x14 S14x50 S1600000x50 where
  lhsContracting := [1]
  rhsContracting := [0]
  lhsNonContracting := [0]
  rhsNonContracting := [1]
  lhsBatch := []
  rhsBatch := []
  wf := dot_S1600000x14_S14x50_S1600000x50_1_0_0_1_n_n_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x100_S100x50_S100000x50_1_0_0_1_n_n : DotDims S100000x100 S100x50 S100000x50 where
  lhsContracting := [1]
  rhsContracting := [0]
  lhsNonContracting := [0]
  rhsNonContracting := [1]
  lhsBatch := []
  rhsBatch := []
  wf := dot_S100000x100_S100x50_S100000x50_1_0_0_1_n_n_wf
def gather_S100000x75_S1600000x2x1_S1600000x2x75_2_0_n_n_0_2_175 : GatherDims S100000x75 S1600000x2x1 S1600000x2x75 where
  offsetDims := [2]
  collapsedSliceDims := [0]
  operandBatchingDims := []
  startIndicesBatchingDims := []
  startIndexMap := [0]
  indexVectorDim := 2
  sliceSizes := ![1, 75]
  wf := gather_S100000x75_S1600000x2x1_S1600000x2x75_2_0_n_n_0_2_175_wf
def dot_S1600000x150_S150x50_S1600000x50_1_0_0_1_n_n : DotDims S1600000x150 S150x50 S1600000x50 where
  lhsContracting := [1]
  rhsContracting := [0]
  lhsNonContracting := [0]
  rhsNonContracting := [1]
  lhsBatch := []
  rhsBatch := []
  wf := dot_S1600000x150_S150x50_S1600000x50_1_0_0_1_n_n_wf
def dot_S1600000x100_S100x50_S1600000x50_1_0_0_1_n_n : DotDims S1600000x100 S100x50 S1600000x50 where
  lhsContracting := [1]
  rhsContracting := [0]
  lhsNonContracting := [0]
  rhsNonContracting := [1]
  lhsBatch := []
  rhsBatch := []
  wf := dot_S1600000x100_S100x50_S1600000x50_1_0_0_1_n_n_wf

class Facts : Prop extends Facts₀ where

variable [Facts]
-- ==== Proof.KernelRun.lean ====
/-
  The idealized kernel program's run with its two results named.

  The program is four segments: host operations, the pair region, host operations, the atom region. Every weakly
  fair execution from a memory `m` terminates without a fault, and at the end every buffer the TensorCore keeps
  holds the contents `W4 m ρ c` of the last segment boundary — the fold of the four segments from `m`. Read at the
  two result buffers this names the results; read at the argument buffers it says they end as launched.
-/
import proofs.«159579_j28982439313937_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the new atom features (`main_v37`) and the new
    pair features (`main_v32_1`) at the last boundary's contents and the arguments as launched. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_v32_1) = W4 m ρ c (Proc.devRef .tc main_v32_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       h c _ (mem_uc main_v32_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.RunValues

end
-- ==== Proof.Spec.lean ====
/-
  The mathematics of one message-passing layer on atoms and atom pairs, over the extended reals, with no program in sight.

  Every stage is a dense layer: a row of features times a weight matrix, plus a bias row, through the rectifier
  `max(·, 0)`. The functions below take the number of rows `R` as a parameter: an output row depends on the same
  row of each row-indexed operand and on nothing else (`*_rows`), so a block of consecutive rows of the whole
  array is the same function of the corresponding blocks of the operands.

  Where one program multiplies the concatenation `[x | y]` of two feature stretches by a weight matrix `W`
  and the other multiplies `x` by the top rows of `W`, `y` by its bottom rows and adds, the two agree because a
  finite sum over `K₁ + K₂` terms is the sum of its first `K₁` and its last `K₂` terms (`dot_split`): only
  commutativity and associativity of `+` on the extended reals, so no finiteness of the inputs is needed.
-/
import Idealize.ShloMosaic.PureOps.Ideal
import Idealize.ShloMosaic.Lib.ValueIdx

noncomputable section

open scoped BigOperators

namespace Cert.Weave

open Idealize.ShloMosaic Idealize.ShloMosaic.ValueIdx

/-- A matrix of extended reals with `r` rows and `c` columns. -/
abbrev Mat (r c : Nat) : Type := (⟨2, ![r, c]⟩ : Shape).Idx → EReal

/-- The zero the rectifier compares with: the word of `+0.0`, read as an extended real. -/
abbrev zeroLit : EReal := Ideal.ofBits .f32 0x00000000#32

/-- The rectifier. -/
def relu (v : EReal) : EReal := max v zeroLit

/-- Row `r` of `x` times column `h` of `W`. -/
def dot {R K H : Nat} (x : Mat R K) (W : Mat K H) (r : Fin R) (h : Fin H) : EReal :=
  ∑ k : Fin K, x (ix2 r k) * W (ix2 k h)

/-- One dense layer: `max(x·W + b, 0)`, the bias a matrix of one row. -/
def dense {R K H : Nat} (x : Mat R K) (W : Mat K H) (b : Mat 1 H) : Mat R H :=
  fun i => relu (dot x W (i 0) (i 1) + b (ix2 0 (i 1)))

/-- A dense layer's value before the rectifier when its input is two feature stretches `x`, `y` with a weight
    matrix each: `(x·W₁ + y·W₂) + b`. -/
def pre2 {R K1 K2 H : Nat} (x : Mat R K1) (y : Mat R K2) (W1 : Mat K1 H) (W2 : Mat K2 H) (b : Mat 1 H)
    (r : Fin R) (h : Fin H) : EReal :=
  (dot x W1 r h + dot y W2 r h) + b (ix2 0 h)

/-- The dense layer on two feature stretches. -/
def dense2 {R K1 K2 H : Nat} (x : Mat R K1) (y : Mat R K2) (W1 : Mat K1 H) (W2 : Mat K2 H) (b : Mat 1 H) : Mat R H :=
  fun i => relu (pre2 x y W1 W2 b (i 0) (i 1))

/-- The new atom features: the atoms' own dense layer beside the aggregated pair messages `pa`, through one
    more dense layer. -/
def atomOut {R : Nat} (af : Mat R 75) (pa : Mat R 50) (WAA : Mat 75 50) (bAA : Mat 1 50) (WA1 WA2 : Mat 50 50)
    (bA : Mat 1 50) : Mat R 50 :=
  dense2 (dense af WAA bAA) pa WA1 WA2 bA

/-- The symmetrized message of a pair's two end atoms `xi`, `xj`: the layer applied to `[xi | xj]` plus the same
    layer applied to `[xj | xi]`. -/
def pairSym {R : Nat} (xi xj : Mat R 75) (W1 W2 : Mat 75 50) (b : Mat 1 50) : Mat R 50 :=
  fun i => relu (pre2 xi xj W1 W2 b (i 0) (i 1)) + relu (pre2 xj xi W1 W2 b (i 0) (i 1))

/-- The new pair features: the end atoms' symmetrized message beside the pair's own dense layer, through one more
    dense layer. -/
def pairOut {R : Nat} (pf : Mat R 14) (xi xj : Mat R 75) (WPP : Mat 14 50) (bPP : Mat 1 50) (W1 W2 : Mat 75 50)
    (bAP : Mat 1 50) (WP1 WP2 : Mat 50 50) (bP : Mat 1 50) : Mat R 50 :=
  dense2 (pairSym xi xj W1 W2 bAP) (dense pf WPP bPP) WP1 WP2 bP

/-! ## An output row depends on the same row of the row-indexed operands -/

theorem dot_rows {R R' K H : Nat} (x : Mat R K) (x' : Mat R' K) (W : Mat K H) (r : Fin R) (r' : Fin R') (h : Fin H)
    (hx : ∀ k, x (ix2 r k) = x' (ix2 r' k)) : dot x W r h = dot x' W r' h := by
  unfold dot; exact Finset.sum_congr rfl fun k _ => by rw [hx k]

theorem dense_rows {R R' K H : Nat} (x : Mat R K) (x' : Mat R' K) (W : Mat K H) (b : Mat 1 H) (r : Fin R) (r' : Fin R')
    (h : Fin H) (hx : ∀ k, x (ix2 r k) = x' (ix2 r' k)) : dense x W b (ix2 r h) = dense x' W b (ix2 r' h) := by
  show relu (dot x W r h + b (ix2 0 h)) = relu (dot x' W r' h + b (ix2 0 h))
  rw [dot_rows x x' W r r' h hx]

theorem pre2_rows {R R' K1 K2 H : Nat} (x : Mat R K1) (x' : Mat R' K1) (y : Mat R K2) (y' : Mat R' K2) (W1 : Mat K1 H)
    (W2 : Mat K2 H) (b : Mat 1 H) (r : Fin R) (r' : Fin R') (h : Fin H) (hx : ∀ k, x (ix2 r k) = x' (ix2 r' k))
    (hy : ∀ k, y (ix2 r k) = y' (ix2 r' k)) : pre2 x y W1 W2 b r h = pre2 x' y' W1 W2 b r' h := by
  unfold pre2; rw [dot_rows x x' W1 r r' h hx, dot_rows y y' W2 r r' h hy]

theorem dense2_rows {R R' K1 K2 H : Nat} (x : Mat R K1) (x' : Mat R' K1) (y : Mat R K2) (y' : Mat R' K2) (W1 : Mat K1 H)
    (W2 : Mat K2 H) (b : Mat 1 H) (r : Fin R) (r' : Fin R') (h : Fin H) (hx : ∀ k, x (ix2 r k) = x' (ix2 r' k))
    (hy : ∀ k, y (ix2 r k) = y' (ix2 r' k)) : dense2 x y W1 W2 b (ix2 r h) = dense2 x' y' W1 W2 b (ix2 r' h) := by
  show relu (pre2 x y W1 W2 b r h) = relu (pre2 x' y' W1 W2 b r' h)
  rw [pre2_rows x x' y y' W1 W2 b r r' h hx hy]

theorem atomOut_rows {R R' : Nat} (af : Mat R 75) (af' : Mat R' 75) (pa : Mat R 50) (pa' : Mat R' 50) (WAA : Mat 75 50)
    (bAA : Mat 1 50) (WA1 WA2 : Mat 50 50) (bA : Mat 1 50) (r : Fin R) (r' : Fin R') (h : Fin 50)
    (haf : ∀ k, af (ix2 r k) = af' (ix2 r' k)) (hpa : ∀ k, pa (ix2 r k) = pa' (ix2 r' k)) :
    atomOut af pa WAA bAA WA1 WA2 bA (ix2 r h) = atomOut af' pa' WAA bAA WA1 WA2 bA (ix2 r' h) :=
  dense2_rows _ _ _ _ WA1 WA2 bA r r' h (fun k => dense_rows af af' WAA bAA r r' k haf) hpa

theorem pairSym_rows {R R' : Nat} (xi xj : Mat R 75) (xi' xj' : Mat R' 75) (W1 W2 : Mat 75 50) (b : Mat 1 50) (r : Fin R)
    (r' : Fin R') (h : Fin 50) (hi : ∀ k, xi (ix2 r k) = xi' (ix2 r' k)) (hj : ∀ k, xj (ix2 r k) = xj' (ix2 r' k)) :
    pairSym xi xj W1 W2 b (ix2 r h) = pairSym xi' xj' W1 W2 b (ix2 r' h) := by
  show relu (pre2 xi xj W1 W2 b r h) + relu (pre2 xj xi W1 W2 b r h)
    = relu (pre2 xi' xj' W1 W2 b r' h) + relu (pre2 xj' xi' W1 W2 b r' h)
  rw [pre2_rows xi xi' xj xj' W1 W2 b r r' h hi hj, pre2_rows xj xj' xi xi' W1 W2 b r r' h hj hi]

theorem pairOut_rows {R R' : Nat} (pf : Mat R 14) (pf' : Mat R' 14) (xi xj : Mat R 75) (xi' xj' : Mat R' 75)
    (WPP : Mat 14 50) (bPP : Mat 1 50) (W1 W2 : Mat 75 50) (bAP : Mat 1 50) (WP1 WP2 : Mat 50 50) (bP : Mat 1 50)
    (r : Fin R) (r' : Fin R') (h : Fin 50) (hpf : ∀ k, pf (ix2 r k) = pf' (ix2 r' k))
    (hi : ∀ k, xi (ix2 r k) = xi' (ix2 r' k)) (hj : ∀ k, xj (ix2 r k) = xj' (ix2 r' k)) :
    pairOut pf xi xj WPP bPP W1 W2 bAP WP1 WP2 bP (ix2 r h) = pairOut pf' xi' xj' WPP bPP W1 W2 bAP WP1 WP2 bP (ix2 r' h) :=
  dense2_rows _ _ _ _ WP1 WP2 bP r r' h (fun k => pairSym_rows xi xj xi' xj' W1 W2 bAP r r' k hi hj)
    (fun k => dense_rows pf pf' WPP bPP r r' k hpf)

/-! ## A product with a concatenation is the sum of the two stretches' products -/

/-- If row `r` of `z` is row `r` of `x` followed by row `r` of `y`, and column `h` of `W` is column `h` of `W₁`
    followed by column `h` of `W₂`, then `z·W = x·W₁ + y·W₂` at `(r, h)`: a sum over `K₁ + K₂` terms split after
    the first `K₁`. -/
theorem dot_split {R K1 K2 H : Nat} (z : Mat R (K1 + K2)) (W : Mat (K1 + K2) H) (x : Mat R K1) (y : Mat R K2)
    (W1 : Mat K1 H) (W2 : Mat K2 H) (r : Fin R) (h : Fin H)
    (hx : ∀ k : Fin K1, z (ix2 r (Fin.castAdd K2 k)) = x (ix2 r k))
    (hy : ∀ k : Fin K2, z (ix2 r (Fin.natAdd K1 k)) = y (ix2 r k))
    (hW1 : ∀ k : Fin K1, W (ix2 (Fin.castAdd K2 k) h) = W1 (ix2 k h))
    (hW2 : ∀ k : Fin K2, W (ix2 (Fin.natAdd K1 k) h) = W2 (ix2 k h)) :
    dot z W r h = dot x W1 r h + dot y W2 r h := by
  unfold dot
  rw [Fin.sum_univ_add]
  congr 1
  · exact Finset.sum_congr rfl fun k _ => by rw [hx k, hW1 k]
  · exact Finset.sum_congr rfl fun k _ => by rw [hy k, hW2 k]

/-! ## The operands as the whole program hands them over -/

/-- A bias vector as a matrix of one row. -/
def rowMat {H : Nat} (b : (⟨1, ![H]⟩ : Shape).Idx → EReal) : Mat 1 H := fun i => b (ix1 (i 1))

/-- The `K` rows of `W` from row `off` on. -/
def rowsFrom {N K H : Nat} (off : Nat) (hoff : off + K ≤ N) (W : Mat N H) : Mat K H :=
  fun i => W (ix2 ⟨off + (i 0).val, by have := idx2_lt0 i; omega⟩ (i 1))

/-- A row number as indexing hands it over: a negative one counts from the end (100000 is added once). -/
def wrapIdx (w : BitVec 32) : BitVec 32 := Scalar.select (IntOp.cmpi .slt w 0#32) (w + 100000#32) w

/-- The row of the atom table a row number selects: read as a signed integer and clamped into the table. -/
def pickRow (w : BitVec 32) : Fin 100000 := ⟨min (wrapIdx w).toInt.toNat 99999, by omega⟩

/-- The features of end atom `j` of every pair: row `pickRow (a2p[p, j])` of the atom table. -/
def endAtom (af : Mat 100000 75) (a2p : (⟨2, ![1600000, 2]⟩ : Shape).Idx → BitVec 32) (j : Fin 2) : Mat 1600000 75 :=
  fun i => af (ix2 (pickRow (a2p (ix2 (i 0) j))) (i 1))

/-- The pair-to-atom message of every pair before aggregation, from the program's arguments. -/
def paTop (pf : Mat 1600000 14) (WPA : Mat 14 50) (bPA : (⟨1, ![50]⟩ : Shape).Idx → EReal) : Mat 1600000 50 :=
  dense pf WPA (rowMat bPA)

/-- The new atom features from the program's arguments and the aggregated messages `agg`. -/
def atomTop (af : Mat 100000 75) (agg : Mat 100000 50) (WAA : Mat 75 50) (bAA : (⟨1, ![50]⟩ : Shape).Idx → EReal)
    (WA : Mat 100 50) (bA : (⟨1, ![50]⟩ : Shape).Idx → EReal) : Mat 100000 50 :=
  atomOut af agg WAA (rowMat bAA) (rowsFrom 0 (by decide) WA) (rowsFrom 50 (by decide) WA) (rowMat bA)

/-- The new pair features from the program's arguments. -/
def pairTop (af : Mat 100000 75) (pf : Mat 1600000 14) (a2p : (⟨2, ![1600000, 2]⟩ : Shape).Idx → BitVec 32)
    (WAP : Mat 150 50) (bAP : (⟨1, ![50]⟩ : Shape).Idx → EReal) (WPP : Mat 14 50)
    (bPP : (⟨1, ![50]⟩ : Shape).Idx → EReal) (WP : Mat 100 50) (bP : (⟨1, ![50]⟩ : Shape).Idx → EReal) : Mat 1600000 50 :=
  pairOut pf (endAtom af a2p 0) (endAtom af a2p 1) WPP (rowMat bPP) (rowsFrom 0 (by decide) WAP) (rowsFrom 75 (by decide) WAP)
    (rowMat bAP) (rowsFrom 0 (by decide) WP) (rowsFrom 50 (by decide) WP) (rowMat bP)

end Cert.Weave

end
-- ==== Proof.AtomRegion.lean ====
/-
  The atom stage of the kernel program, region by region: the second call's grid of 20 points, each working on a
  block of 5000 consecutive atoms.

  At one point the body multiplies the block of atom features by the atom-to-atom weights, adds the bias row and
  rectifies; multiplies the result by the top rows of the second layer's weights, the block of aggregated pair
  messages by its bottom rows, adds the two products and the second bias row, and rectifies again. Every format
  change is the identity on the extended reals and every matrix product starts from a zero accumulator, so at an
  entry `(y, h)` of the block the body's value is `atomOut` of the blocks at `(y, h)`.

  An output row of `atomOut` depends only on the same row of the two row-indexed operands. Row `y` of the block of
  point `t` is row `5000·t + y` of the whole arrays; the weights and biases are whole-array blocks. So what point `t`
  writes back is block `t` of `atomOut` of the whole arrays, and since the 20 blocks of 5000 rows cover the 100000
  rows, the output array ends as `atomOut` of the whole arrays.
-/
import proofs.«159579_j28982439313937_2_alg».proof.Proof.Gen.KernelIdeal.Frame
import proofs.«159579_j28982439313937_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Weave.AtomRegion

open Cert.KernelIdeal Cert.KernelIdeal.Gen Idealize.ShloMosaic Idealize.ShloMosaic.TcCoe Idealize.SL.Sem
open Idealize.ShloMosaic.Pipeline (Dat)
open Idealize.ShloMosaic.ValueIdx

/-! ## A matrix product into a zero accumulator, at an entry

The coordinates of the operands' indices at output index `i` and shared position `q`: the left operand is read at
`(row of i, q)`, the right at `(q, column of i)`. -/

theorem lhs75_row (i : S5000x50.Idx) (q : dot_S5000x75_S75x50_S5000x50_1_0_0_1_n_n.contr.Idx) : (dot_S5000x75_S75x50_S5000x50_1_0_0_1_n_n.lhsIdx i q 0).val = (i 0).val := by
  unfold DotDims.lhsIdx
  rw [dif_neg (show ¬(0 : Fin S5000x75.rank) ∈ dot_S5000x75_S75x50_S5000x50_1_0_0_1_n_n.lhsBatch by decide), dif_pos (show (0 : Fin S5000x75.rank) ∈ dot_S5000x75_S75x50_S5000x50_1_0_0_1_n_n.lhsNonContracting by decide)]
  rfl
theorem lhs75_pos (i : S5000x50.Idx) (q : dot_S5000x75_S75x50_S5000x50_1_0_0_1_n_n.contr.Idx) : (dot_S5000x75_S75x50_S5000x50_1_0_0_1_n_n.lhsIdx i q 1).val = (q ⟨0, by decide⟩).val :=
  dot_S5000x75_S75x50_S5000x50_1_0_0_1_n_n.lhsIdx_val_of_single rfl i q
theorem rhs75_pos (i : S5000x50.Idx) (q : dot_S5000x75_S75x50_S5000x50_1_0_0_1_n_n.contr.Idx) : (dot_S5000x75_S75x50_S5000x50_1_0_0_1_n_n.rhsIdx i q 0).val = (q ⟨0, by decide⟩).val :=
  dot_S5000x75_S75x50_S5000x50_1_0_0_1_n_n.rhsIdx_val_of_single rfl i q
theorem rhs75_col (i : S5000x50.Idx) (q : dot_S5000x75_S75x50_S5000x50_1_0_0_1_n_n.contr.Idx) : (dot_S5000x75_S75x50_S5000x50_1_0_0_1_n_n.rhsIdx i q 1).val = (i 1).val := by
  unfold DotDims.rhsIdx
  rw [dif_neg (show ¬(1 : Fin S75x50.rank) ∈ dot_S5000x75_S75x50_S5000x50_1_0_0_1_n_n.rhsBatch by decide), dif_pos (show (1 : Fin S75x50.rank) ∈ dot_S5000x75_S75x50_S5000x50_1_0_0_1_n_n.rhsNonContracting by decide)]
  rfl

/-- The product of a 5000×75 block with a 75×50 matrix, started from zero: entry `(y, h)` is the sum over the 75
    shared positions. -/
theorem matmul75_apply (a : FVec Ideal S5000x75 .bf16) (b : FVec Ideal S75x50 .bf16) (y : Fin 5000) (h : Fin 50) :
    matmul dot_S5000x75_S75x50_S5000x50_1_0_0_1_n_n none a b (constant (F := Ideal) S5000x50 .f32 0x00000000#32) (ix2 y h)
      = ∑ k : Fin 75, a (ix2 y k) * b (ix2 k h) := by
  refine (Ideal.matmul_constant_zero_apply dot_S5000x75_S75x50_S5000x50_1_0_0_1_n_n none a b (ix2 y h)).trans ?_
  rw [← Equiv.sum_comp (contrEquiv1 dot_S5000x75_S75x50_S5000x50_1_0_0_1_n_n 75 rfl rfl).symm]
  refine Finset.sum_congr rfl fun k _ => ?_
  have hk := contrEquiv1_symm_val dot_S5000x75_S75x50_S5000x50_1_0_0_1_n_n 75 rfl rfl k
  have el : dot_S5000x75_S75x50_S5000x50_1_0_0_1_n_n.lhsIdx (ix2 y h) ((contrEquiv1 dot_S5000x75_S75x50_S5000x50_1_0_0_1_n_n 75 rfl rfl).symm k) = ix2 y k :=
    funext fun a => Fin.ext (by
      match a with
      | ⟨0, _⟩ => exact lhs75_row _ _
      | ⟨1, _⟩ => exact (lhs75_pos _ _).trans hk)
  have er : dot_S5000x75_S75x50_S5000x50_1_0_0_1_n_n.rhsIdx (ix2 y h) ((contrEquiv1 dot_S5000x75_S75x50_S5000x50_1_0_0_1_n_n 75 rfl rfl).symm k) = ix2 k h :=
    funext fun a => Fin.ext (by
      match a with
      | ⟨0, _⟩ => exact (rhs75_pos _ _).trans hk
      | ⟨1, _⟩ => exact rhs75_col _ _)
  rw [el, er]

theorem lhs50_row (i : S5000x50.Idx) (q : dot_S5000x50_S50x50_S5000x50_1_0_0_1_n_n.contr.Idx) : (dot_S5000x50_S50x50_S5000x50_1_0_0_1_n_n.lhsIdx i q 0).val = (i 0).val := by
  unfold DotDims.lhsIdx
  rw [dif_neg (show ¬(0 : Fin S5000x50.rank) ∈ dot_S5000x50_S50x50_S5000x50_1_0_0_1_n_n.lhsBatch by decide), dif_pos (show (0 : Fin S5000x50.rank) ∈ dot_S5000x50_S50x50_S5000x50_1_0_0_1_n_n.lhsNonContracting by decide)]
  rfl
theorem lhs50_pos (i : S5000x50.Idx) (q : dot_S5000x50_S50x50_S5000x50_1_0_0_1_n_n.contr.Idx) : (dot_S5000x50_S50x50_S5000x50_1_0_0_1_n_n.lhsIdx i q 1).val = (q ⟨0, by decide⟩).val :=
  dot_S5000x50_S50x50_S5000x50_1_0_0_1_n_n.lhsIdx_val_of_single rfl i q
theorem rhs50_pos (i : S5000x50.Idx) (q : dot_S5000x50_S50x50_S5000x50_1_0_0_1_n_n.contr.Idx) : (dot_S5000x50_S50x50_S5000x50_1_0_0_1_n_n.rhsIdx i q 0).val = (q ⟨0, by decide⟩).val :=
  dot_S5000x50_S50x50_S5000x50_1_0_0_1_n_n.rhsIdx_val_of_single rfl i q
theorem rhs50_col (i : S5000x50.Idx) (q : dot_S5000x50_S50x50_S5000x50_1_0_0_1_n_n.contr.Idx) : (dot_S5000x50_S50x50_S5000x50_1_0_0_1_n_n.rhsIdx i q 1).val = (i 1).val := by
  unfold DotDims.rhsIdx
  rw [dif_neg (show ¬(1 : Fin S50x50.rank) ∈ dot_S5000x50_S50x50_S5000x50_1_0_0_1_n_n.rhsBatch by decide), dif_pos (show (1 : Fin S50x50.rank) ∈ dot_S5000x50_S50x50_S5000x50_1_0_0_1_n_n.rhsNonContracting by decide)]
  rfl

/-- The product of a 5000×50 block with a 50×50 matrix, started from zero: entry `(y, h)` is the sum over the 50
    shared positions. -/
theorem matmul50_apply (a : FVec Ideal S5000x50 .bf16) (b : FVec Ideal S50x50 .bf16) (y : Fin 5000) (h : Fin 50) :
    matmul dot_S5000x50_S50x50_S5000x50_1_0_0_1_n_n none a b (constant (F := Ideal) S5000x50 .f32 0x00000000#32) (ix2 y h)
      = ∑ k : Fin 50, a (ix2 y k) * b (ix2 k h) := by
  refine (Ideal.matmul_constant_zero_apply dot_S5000x50_S50x50_S5000x50_1_0_0_1_n_n none a b (ix2 y h)).trans ?_
  rw [← Equiv.sum_comp (contrEquiv1 dot_S5000x50_S50x50_S5000x50_1_0_0_1_n_n 50 rfl rfl).symm]
  refine Finset.sum_congr rfl fun k _ => ?_
  have hk := contrEquiv1_symm_val dot_S5000x50_S50x50_S5000x50_1_0_0_1_n_n 50 rfl rfl k
  have el : dot_S5000x50_S50x50_S5000x50_1_0_0_1_n_n.lhsIdx (ix2 y h) ((contrEquiv1 dot_S5000x50_S50x50_S5000x50_1_0_0_1_n_n 50 rfl rfl).symm k) = ix2 y k :=
    funext fun a => Fin.ext (by
      match a with
      | ⟨0, _⟩ => exact lhs50_row _ _
      | ⟨1, _⟩ => exact (lhs50_pos _ _).trans hk)
  have er : dot_S5000x50_S50x50_S5000x50_1_0_0_1_n_n.rhsIdx (ix2 y h) ((contrEquiv1 dot_S5000x50_S50x50_S5000x50_1_0_0_1_n_n 50 rfl rfl).symm k) = ix2 k h :=
    funext fun a => Fin.ext (by
      match a with
      | ⟨0, _⟩ => exact (rhs50_pos _ _).trans hk
      | ⟨1, _⟩ => exact rhs50_col _ _)
  rw [el, er]

/-- A bias row spread over the 5000 rows of a block: entry `(y, h)` is the row's entry `h`. -/
theorem biasRow_apply (b : FVec Ideal S1x50 .f32) (y : Fin 5000) (h : Fin 50) :
    broadcastTo S5000x50 b broadcasts_S1x50_S5000x50 (ix2 y h) = b (ix2 0 h) :=
  broadcastTo_apply b broadcasts_S1x50_S5000x50 (ix2 y h) (ix2 0 h) (fun a => match a with
    | ⟨0, _⟩ => by show (0 : Nat) = if (1 : Nat) = 1 then 0 else _; rw [if_pos rfl]
    | ⟨1, _⟩ => by show h.val = if (50 : Nat) = 1 then 0 else h.val; rw [if_neg (by decide)])

/-! ## The body's value at an entry of the block -/

/-- The first layer inside the body, at entry `(y, k)`: the product with the atom-to-atom weights plus the bias row,
    rectified; the rounding of the weights and of the result to the narrower format is the identity. -/
theorem hidden_apply (x0 : FVec Ideal S5000x75 .bf16) (x2 : FVec Ideal S75x50 .f32) (x3 : FVec Ideal S1x50 .f32)
    (y : Fin 5000) (k : Fin 50) :
    (truncf .bf16 (maximumf (addf (matmul dot_S5000x75_S75x50_S5000x50_1_0_0_1_n_n none x0 (truncf .bf16 x2 bitsLt_bf16_f32)
        (constant (F := Ideal) S5000x50 .f32 0x00000000#32)) (broadcastTo S5000x50 x3 broadcasts_S1x50_S5000x50))
      (broadcast S5000x50 (FloatOps.ofBits (F := Ideal) .f32 0x00000000#32))) bitsLt_bf16_f32 : FVec Ideal S5000x50 .bf16) (ix2 y k)
      = Cert.Weave.dense x0 x2 x3 (ix2 y k) := by
  show max (matmul dot_S5000x75_S75x50_S5000x50_1_0_0_1_n_n none x0 (truncf .bf16 x2 bitsLt_bf16_f32) (constant (F := Ideal) S5000x50 .f32 0x00000000#32) (ix2 y k)
      + broadcastTo S5000x50 x3 broadcasts_S1x50_S5000x50 (ix2 y k)) Cert.Weave.zeroLit
    = max (Cert.Weave.dot x0 x2 y k + x3 (ix2 0 k)) Cert.Weave.zeroLit
  rw [matmul75_apply, biasRow_apply]
  rfl

/-- What the body stores at entry `(y, h)` of its output block is `atomOut` of its seven input blocks there: the
    casts to the same shape and the format changes are identities, each matrix product is a finite sum, and a bias row
    is read at its column. -/
theorem payload_apply (x0 : FVec Ideal S5000x75 .bf16) (x1 : FVec Ideal S5000x50 .bf16) (x2 : FVec Ideal S75x50 .f32)
    (x3 : FVec Ideal S1x50 .f32) (x4 x5 : FVec Ideal S50x50 .f32) (x6 : FVec Ideal S1x50 .f32) (y : Fin 5000) (h : Fin 50) :
    k1_pay1 (F := Ideal) x0 x1 x2 x4 x5 x3 x6 (ix2 y h) = Cert.Weave.atomOut x0 x1 x2 x3 x4 x5 x6 (ix2 y h) := by
  unfold k1_pay1
  simp only [shapeCast_self]
  show max ((matmul dot_S5000x50_S50x50_S5000x50_1_0_0_1_n_n none _ (truncf .bf16 x4 bitsLt_bf16_f32) (constant (F := Ideal) S5000x50 .f32 0x00000000#32) (ix2 y h)
        + matmul dot_S5000x50_S50x50_S5000x50_1_0_0_1_n_n none x1 (truncf .bf16 x5 bitsLt_bf16_f32) (constant (F := Ideal) S5000x50 .f32 0x00000000#32) (ix2 y h))
      + broadcastTo S5000x50 x6 broadcasts_S1x50_S5000x50 (ix2 y h)) Cert.Weave.zeroLit
    = max ((Cert.Weave.dot (Cert.Weave.dense x0 x2 x3) x4 y h + Cert.Weave.dot x1 x5 y h) + x6 (ix2 0 h)) Cert.Weave.zeroLit
  rw [matmul50_apply, matmul50_apply, biasRow_apply]
  refine congrArg (fun v => max ((v + Cert.Weave.dot x1 x5 y h) + x6 (ix2 0 h)) Cert.Weave.zeroLit) ?_
  refine Finset.sum_congr rfl fun k _ => ?_
  rw [hidden_apply x0 x2 x3 y k]
  rfl

/-! ## From the blocks to the arrays

`V` is what the arrays hold when the region is entered. -/

section Region

variable (V : (c : Dev nD) → (b : Ref sig .tc) → Buf (Elt Ideal) ((c : Thread nD τ).loc b))

theorem zeroOffsets : (![0, 0] : Fin 2 → Nat) = fun _ => 0 := funext fun a => by fin_cases a <;> rfl

/-- The block index of each window at each of the 20 points: the two row-indexed inputs and the output are at block
    row `t`, the weights and biases at block `(0, 0)` (their block is the whole array). -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `y` of window 0's block at point `t` is row `5000·t + y` of its array. -/
theorem block0_apply (c : Dev nD) (t : Fin cfg1.N) (y : Fin 5000) (k : Fin 75) (r : Fin 100000) (hr : r.val = t.val * 5000 + y.val) :
    (iblk1 V c 0 t : S5000x75.Idx → EReal) (ix2 y k) = (V c main_v4 : S100000x75.Idx → EReal) (ix2 r k) := by
  obtain ⟨e00, e01, e10, e11, -⟩ := index_facts t
  unfold iblk1
  rw [View.read_apply]
  show V c main_v4 _ = V c main_v4 _
  refine congrArg (V c main_v4) (funext fun a => Fin.ext ?_)
  match a with
  | ⟨0, _⟩ => show win1_0.index t (0 : Fin 2) * 5000 + 1 * y.val = r.val; rw [e00, hr]; omega
  | ⟨1, _⟩ => show win1_0.index t (1 : Fin 2) * 75 + 1 * k.val = k.val; rw [e01]; omega

/-- Row `y` of window 1's block at point `t` is row `5000·t + y` of its array. -/
theorem block1_apply (c : Dev nD) (t : Fin cfg1.N) (y : Fin 5000) (k : Fin 50) (r : Fin 100000) (hr : r.val = t.val * 5000 + y.val) :
    (iblk1 V c 1 t : S5000x50.Idx → EReal) (ix2 y k) = (V c main_v36 : S100000x50.Idx → EReal) (ix2 r k) := by
  obtain ⟨e00, e01, e10, e11, -⟩ := index_facts t
  unfold iblk1
  rw [View.read_apply]
  show V c main_v36 _ = V c main_v36 _
  refine congrArg (V c main_v36) (funext fun a => Fin.ext ?_)
  match a with
  | ⟨0, _⟩ => show win1_1.index t (0 : Fin 2) * 5000 + 1 * y.val = r.val; rw [e10, hr]; omega
  | ⟨1, _⟩ => show win1_1.index t (1 : Fin 2) * 50 + 1 * k.val = k.val; rw [e11]; omega

/-- Window 2's block is its whole array at every point. -/
theorem block2_eq (c : Dev nD) (t : Fin cfg1.N) : (iblk1 V c 2 t : S75x50.Idx → EReal) = V c main_arg4 := by
  obtain ⟨-, -, -, -, e20, e21, e30, e31, e40, e41, e50, e51, e60, e61, -, -⟩ := index_facts t
  funext j
  unfold iblk1
  rw [View.read_apply]
  show V c main_arg4 _ = V c main_arg4 j
  refine congrArg (V c main_arg4) (funext fun a => Fin.ext ?_)
  match a with
  | ⟨0, _⟩ => show win1_2.index t (0 : Fin 2) * 75 + 1 * (j 0).val = (j 0).val; rw [e20]; omega
  | ⟨1, _⟩ => show win1_2.index t (1 : Fin 2) * 50 + 1 * (j 1).val = (j 1).val; rw [e21]; omega

/-- Window 3's block is its whole array at every point. -/
theorem block3_eq (c : Dev nD) (t : Fin cfg1.N) : (iblk1 V c 3 t : S1x50.Idx → EReal) = V c main_v26 := by
  obtain ⟨-, -, -, -, e20, e21, e30, e31, e40, e41, e50, e51, e60, e61, -, -⟩ := index_facts t
  funext j
  unfold iblk1
  rw [View.read_apply]
  show V c main_v26 _ = V c main_v26 j
  refine congrArg (V c main_v26) (funext fun a => Fin.ext ?_)
  match a with
  | ⟨0, _⟩ => show win1_3.index t (0 : Fin 2) * 1 + 1 * (j 0).val = (j 0).val; rw [e30]; omega
  | ⟨1, _⟩ => show win1_3.index t (1 : Fin 2) * 50 + 1 * (j 1).val = (j 1).val; rw [e31]; omega

/-- Window 4's block is its whole array at every point. -/
theorem block4_eq (c : Dev nD) (t : Fin cfg1.N) : (iblk1 V c 4 t : S50x50.Idx → EReal) = V c main_v20 := by
  obtain ⟨-, -, -, -, e20, e21, e30, e31, e40, e41, e50, e51, e60, e61, -, -⟩ := index_facts t
  funext j
  unfold iblk1
  rw [View.read_apply]
  show V c main_v20 _ = V c main_v20 j
  refine congrArg (V c main_v20) (funext fun a => Fin.ext ?_)
  match a with
  | ⟨0, _⟩ => show win1_4.index t (0 : Fin 2) * 50 + 1 * (j 0).val = (j 0).val; rw [e40]; omega
  | ⟨1, _⟩ => show win1_4.index t (1 : Fin 2) * 50 + 1 * (j 1).val = (j 1).val; rw [e41]; omega

/-- Window 5's block is its whole array at every point. -/
theorem block5_eq (c : Dev nD) (t : Fin cfg1.N) : (iblk1 V c 5 t : S50x50.Idx → EReal) = V c main_v21 := by
  obtain ⟨-, -, -, -, e20, e21, e30, e31, e40, e41, e50, e51, e60, e61, -, -⟩ := index_facts t
  funext j
  unfold iblk1
  rw [View.read_apply]
  show V c main_v21 _ = V c main_v21 j
  refine congrArg (V c main_v21) (funext fun a => Fin.ext ?_)
  match a with
  | ⟨0, _⟩ => show win1_5.index t (0 : Fin 2) * 50 + 1 * (j 0).val = (j 0).val; rw [e50]; omega
  | ⟨1, _⟩ => show win1_5.index t (1 : Fin 2) * 50 + 1 * (j 1).val = (j 1).val; rw [e51]; omega

/-- Window 6's block is its whole array at every point. -/
theorem block6_eq (c : Dev nD) (t : Fin cfg1.N) : (iblk1 V c 6 t : S1x50.Idx → EReal) = V c main_v30 := by
  obtain ⟨-, -, -, -, e20, e21, e30, e31, e40, e41, e50, e51, e60, e61, -, -⟩ := index_facts t
  funext j
  unfold iblk1
  rw [View.read_apply]
  show V c main_v30 _ = V c main_v30 j
  refine congrArg (V c main_v30) (funext fun a => Fin.ext ?_)
  match a with
  | ⟨0, _⟩ => show win1_6.index t (0 : Fin 2) * 1 + 1 * (j 0).val = (j 0).val; rw [e60]; omega
  | ⟨1, _⟩ => show win1_6.index t (1 : Fin 2) * 50 + 1 * (j 1).val = (j 1).val; rw [e61]; omega

/-- Entry `(y, h)` of the output window's block at point `t` sits in the array at row `5000·t + y`, column `h`. -/
theorem outEmb (t : Fin cfg1.N) (y : Fin 5000) (h : Fin 50) (r : Fin 100000) (hr : r.val = t.val * 5000 + y.val) :
    ((cfg1.win 7).blk t).view.emb (ix2 y h) = (ix2 r h : S100000x50.Idx) := by
  obtain ⟨-, -, -, -, -, -, -, -, -, -, -, -, -, -, e70, e71⟩ := index_facts t
  refine funext fun a => Fin.ext ?_
  match a with
  | ⟨0, _⟩ => show win1_7.index t (0 : Fin 2) * 5000 + 1 * y.val = r.val; rw [e70, hr]; omega
  | ⟨1, _⟩ => show win1_7.index t (1 : Fin 2) * 50 + 1 * h.val = h.val; rw [e71]; omega

/-- WHAT POINT `t` WRITES BACK is block `t` of `atomOut` of the arrays as the region finds them. -/
theorem flushed_eq (c : Dev nD) (t : Fin cfg1.N) :
    (dat1 (F := Ideal) V c).flushed 7 t = ((cfg1.win 7).blk t).view.read (Elt Ideal)
      (Cert.Weave.atomOut (R := 100000) (V c main_v4) (V c main_v36) (V c main_arg4) (V c main_v26) (V c main_v20) (V c main_v21) (V c main_v30)) := by
  show (cfg1.win 7).cut (grid1.coords t) ((dat1 V c).after 7 t) = _
  rw [after1_7]
  unfold out1_7
  rw [View.canon_unit_zero zeroOffsets]
  simp only [View.ld_unit_zero (S := S5000x75) zeroOffsets, View.ld_unit_zero (S := S5000x50) zeroOffsets,
    View.ld_unit_zero (S := S75x50) zeroOffsets, View.ld_unit_zero (S := S50x50) zeroOffsets,
    View.ld_unit_zero (S := S1x50) zeroOffsets]
  refine funext fun (j : S5000x50.Idx) => ?_
  obtain ⟨y, h, rfl⟩ : ∃ (y : Fin 5000) (h : Fin 50), j = ix2 y h := ⟨j 0, j 1, eq_ix2 j⟩
  have hN : grid1.N = 20 := N_1
  have ht : t.val < 20 := Nat.lt_of_lt_of_eq t.isLt hN
  have hr : t.val * 5000 + y.val < 100000 := by have := y.isLt; omega
  show k1_pay1 (F := Ideal) (iblk1 V c 0 t) (iblk1 V c 1 t) (iblk1 V c 2 t) (iblk1 V c 4 t) (iblk1 V c 5 t) (iblk1 V c 3 t) (iblk1 V c 6 t) (ix2 y h)
    = Cert.Weave.atomOut (R := 100000) (V c main_v4) (V c main_v36) (V c main_arg4) (V c main_v26) (V c main_v20) (V c main_v21) (V c main_v30)
        (((cfg1.win 7).blk t).view.emb (ix2 y h))
  rw [outEmb t y h ⟨t.val * 5000 + y.val, hr⟩ rfl]
  refine (payload_apply (iblk1 V c 0 t) (iblk1 V c 1 t) (iblk1 V c 2 t) (iblk1 V c 3 t) (iblk1 V c 4 t) (iblk1 V c 5 t) (iblk1 V c 6 t) y h).trans ?_
  rw [block2_eq V c t, block3_eq V c t, block4_eq V c t, block5_eq V c t, block6_eq V c t]
  exact Cert.Weave.atomOut_rows (R := 5000) (R' := 100000) (iblk1 V c 0 t) (V c main_v4) (iblk1 V c 1 t) (V c main_v36) (V c main_arg4) (V c main_v26)
    (V c main_v20) (V c main_v21) (V c main_v30) y ⟨t.val * 5000 + y.val, hr⟩ h
    (fun k => block0_apply V c t y k _ rfl) (fun k => block1_apply V c t y k _ rfl)

/-- An index of the output array is in point `t`'s block iff each coordinate is in the block's range on its axis. -/
theorem mem_block (t : Fin cfg1.N) (i : S100000x50.Idx) :
    i ∈ ((cfg1.win 7).blk t).view.set ↔ ∀ a : Fin 2, win1_7.index t a * S5000x50.size a ≤ (i a).val
      ∧ (i a).val < win1_7.index t a * S5000x50.size a + S5000x50.size a := by
  show i ∈ ((View.whole main_v37).slice (win1_7.rect t)).set ↔ _
  rw [View.set_slice_whole, Rect.mem_set_unit]
  exact Iff.rfl

/-- The 20 blocks of 5000 rows cover the 100000 rows: row `r` is in the block of point `r / 5000`. -/
theorem covered (i : S100000x50.Idx) :
    ∃ t : Fin cfg1.N, (cfg1.win 7).flush t = true ∧ i ∈ ((cfg1.win 7).blk t).view.set := by
  have hN : grid1.N = 20 := N_1
  have hi0 : (i 0).val < 100000 := (i 0).isLt
  have hi1 : (i 1).val < 50 := (i 1).isLt
  have hq : (i 0).val / 5000 < cfg1.N := Nat.lt_of_lt_of_eq (show (i 0).val / 5000 < 20 by omega) hN.symm
  obtain ⟨-, -, -, -, -, -, -, -, -, -, -, -, -, -, e70, e71⟩ := index_facts ⟨(i 0).val / 5000, hq⟩
  refine ⟨⟨(i 0).val / 5000, hq⟩, flush1_7 _, ?_⟩
  rw [mem_block]
  intro a
  match a with
  | ⟨0, _⟩ =>
    show win1_7.index ⟨(i 0).val / 5000, hq⟩ (0 : Fin 2) * 5000 ≤ (i 0).val
      ∧ (i 0).val < win1_7.index ⟨(i 0).val / 5000, hq⟩ (0 : Fin 2) * 5000 + 5000
    rw [e70]
    show (i 0).val / 5000 * 5000 ≤ (i 0).val ∧ (i 0).val < (i 0).val / 5000 * 5000 + 5000
    omega
  | ⟨1, _⟩ =>
    show win1_7.index ⟨(i 0).val / 5000, hq⟩ (1 : Fin 2) * 50 ≤ (i 1).val
      ∧ (i 1).val < win1_7.index ⟨(i 0).val / 5000, hq⟩ (1 : Fin 2) * 50 + 50
    rw [e71]
    omega

/-- THE OUTPUT ARRAY after the region: `atomOut` of the arrays as the region finds them. -/
theorem atom_array (c : Dev nD) :
    (Gen.dat1 (F := Ideal) V c).arrAt 7 cfg1.N
      = Cert.Weave.atomOut (R := 100000) (V c main_v4) (V c main_v36) (V c main_arg4) (V c main_v26) (V c main_v20) (V c main_v21) (V c main_v30) :=
  (dat1 (F := Ideal) V c).arrAt_eq_of_cover 7 _ (fun t _ => flushed_eq V c t) covered

end Region

end Cert.Weave.AtomRegion

end
-- ==== Proof.PairPayload.lean ====
/-
  The arithmetic of the pair region's body at one entry: each matrix product into a zero accumulator is a finite
  sum over the contracted coordinate, each bias a row repeated down the block, each format change the identity on
  the extended reals, each rectifier `max(·, 0)` against the word of `+0.0` (never evaluated).
-/
import proofs.«159579_j28982439313937_2_alg».proof.Proof.Gen.KernelIdeal.Skeleton
import proofs.«159579_j28982439313937_2_alg».proof.Proof.Spec
import Idealize.ShloMosaic.Lib.Pipeline.Value
import Idealize.ShloMosaic.Lib.ValueIdx
import Idealize.ShloMosaic.PureOps.Ideal.Laws

noncomputable section

open scoped BigOperators

namespace Cert.Weave.PairPayload

open Cert.KernelIdeal Cert.KernelIdeal.Gen Idealize.ShloMosaic Idealize.ShloMosaic.ValueIdx

/-- A product of a [6400,14] block with a [14,50] matrix into a zero accumulator, read at row `y`, column `h`:
    the finite sum over the contracted coordinate. -/
theorem matmul14_apply (a : FVec Ideal S6400x14 .bf16) (b : FVec Ideal S14x50 .bf16) (y : Fin 6400) (h : Fin 50) :
    matmul dot_S6400x14_S14x50_S6400x50_1_0_0_1_n_n none a b (constant (F := Ideal) S6400x50 .f32 0x00000000#32) (ix2 y h)
      = ∑ k : Fin 14, a (ix2 y k) * b (ix2 k h) := by
  refine (Ideal.matmul_constant_zero_apply dot_S6400x14_S14x50_S6400x50_1_0_0_1_n_n none a b (ix2 y h)).trans ?_
  rw [← Equiv.sum_comp (contrEquiv1 dot_S6400x14_S14x50_S6400x50_1_0_0_1_n_n 14 rfl rfl).symm]
  refine Finset.sum_congr rfl fun k _ => ?_
  have hk := contrEquiv1_symm_val dot_S6400x14_S14x50_S6400x50_1_0_0_1_n_n 14 rfl rfl k
  have l0 : ∀ q : dot_S6400x14_S14x50_S6400x50_1_0_0_1_n_n.contr.Idx, (dot_S6400x14_S14x50_S6400x50_1_0_0_1_n_n.lhsIdx (ix2 y h) q 0).val = y.val := fun q => by
    unfold DotDims.lhsIdx
    rw [dif_neg (show ¬(0 : Fin S6400x14.rank) ∈ dot_S6400x14_S14x50_S6400x50_1_0_0_1_n_n.lhsBatch by decide), dif_pos (show (0 : Fin S6400x14.rank) ∈ dot_S6400x14_S14x50_S6400x50_1_0_0_1_n_n.lhsNonContracting by decide)]
    rfl
  have r1 : ∀ q : dot_S6400x14_S14x50_S6400x50_1_0_0_1_n_n.contr.Idx, (dot_S6400x14_S14x50_S6400x50_1_0_0_1_n_n.rhsIdx (ix2 y h) q 1).val = h.val := fun q => by
    unfold DotDims.rhsIdx
    rw [dif_neg (show ¬(1 : Fin S14x50.rank) ∈ dot_S6400x14_S14x50_S6400x50_1_0_0_1_n_n.rhsBatch by decide), dif_pos (show (1 : Fin S14x50.rank) ∈ dot_S6400x14_S14x50_S6400x50_1_0_0_1_n_n.rhsNonContracting by decide)]
    rfl
  have el : dot_S6400x14_S14x50_S6400x50_1_0_0_1_n_n.lhsIdx (ix2 y h) ((contrEquiv1 dot_S6400x14_S14x50_S6400x50_1_0_0_1_n_n 14 rfl rfl).symm k) = ix2 y k := funext fun a => Fin.ext (by
    match a with
    | ⟨0, _⟩ => exact l0 _
    | ⟨1, _⟩ => exact (dot_S6400x14_S14x50_S6400x50_1_0_0_1_n_n.lhsIdx_val_of_single rfl (ix2 y h) _).trans hk)
  have er : dot_S6400x14_S14x50_S6400x50_1_0_0_1_n_n.rhsIdx (ix2 y h) ((contrEquiv1 dot_S6400x14_S14x50_S6400x50_1_0_0_1_n_n 14 rfl rfl).symm k) = ix2 k h := funext fun a => Fin.ext (by
    match a with
    | ⟨0, _⟩ => exact (dot_S6400x14_S14x50_S6400x50_1_0_0_1_n_n.rhsIdx_val_of_single rfl (ix2 y h) _).trans hk
    | ⟨1, _⟩ => exact r1 _)
  rw [el, er]

/-- A product of a [6400,75] block with a [75,50] matrix into a zero accumulator, read at row `y`, column `h`:
    the finite sum over the contracted coordinate. -/
theorem matmul75_apply (a : FVec Ideal S6400x75 .bf16) (b : FVec Ideal S75x50 .bf16) (y : Fin 6400) (h : Fin 50) :
    matmul dot_S6400x75_S75x50_S6400x50_1_0_0_1_n_n none a b (constant (F := Ideal) S6400x50 .f32 0x00000000#32) (ix2 y h)
      = ∑ k : Fin 75, a (ix2 y k) * b (ix2 k h) := by
  refine (Ideal.matmul_constant_zero_apply dot_S6400x75_S75x50_S6400x50_1_0_0_1_n_n none a b (ix2 y h)).trans ?_
  rw [← Equiv.sum_comp (contrEquiv1 dot_S6400x75_S75x50_S6400x50_1_0_0_1_n_n 75 rfl rfl).symm]
  refine Finset.sum_congr rfl fun k _ => ?_
  have hk := contrEquiv1_symm_val dot_S6400x75_S75x50_S6400x50_1_0_0_1_n_n 75 rfl rfl k
  have l0 : ∀ q : dot_S6400x75_S75x50_S6400x50_1_0_0_1_n_n.contr.Idx, (dot_S6400x75_S75x50_S6400x50_1_0_0_1_n_n.lhsIdx (ix2 y h) q 0).val = y.val := fun q => by
    unfold DotDims.lhsIdx
    rw [dif_neg (show ¬(0 : Fin S6400x75.rank) ∈ dot_S6400x75_S75x50_S6400x50_1_0_0_1_n_n.lhsBatch by decide), dif_pos (show (0 : Fin S6400x75.rank) ∈ dot_S6400x75_S75x50_S6400x50_1_0_0_1_n_n.lhsNonContracting by decide)]
    rfl
  have r1 : ∀ q : dot_S6400x75_S75x50_S6400x50_1_0_0_1_n_n.contr.Idx, (dot_S6400x75_S75x50_S6400x50_1_0_0_1_n_n.rhsIdx (ix2 y h) q 1).val = h.val := fun q => by
    unfold DotDims.rhsIdx
    rw [dif_neg (show ¬(1 : Fin S75x50.rank) ∈ dot_S6400x75_S75x50_S6400x50_1_0_0_1_n_n.rhsBatch by decide), dif_pos (show (1 : Fin S75x50.rank) ∈ dot_S6400x75_S75x50_S6400x50_1_0_0_1_n_n.rhsNonContracting by decide)]
    rfl
  have el : dot_S6400x75_S75x50_S6400x50_1_0_0_1_n_n.lhsIdx (ix2 y h) ((contrEquiv1 dot_S6400x75_S75x50_S6400x50_1_0_0_1_n_n 75 rfl rfl).symm k) = ix2 y k := funext fun a => Fin.ext (by
    match a with
    | ⟨0, _⟩ => exact l0 _
    | ⟨1, _⟩ => exact (dot_S6400x75_S75x50_S6400x50_1_0_0_1_n_n.lhsIdx_val_of_single rfl (ix2 y h) _).trans hk)
  have er : dot_S6400x75_S75x50_S6400x50_1_0_0_1_n_n.rhsIdx (ix2 y h) ((contrEquiv1 dot_S6400x75_S75x50_S6400x50_1_0_0_1_n_n 75 rfl rfl).symm k) = ix2 k h := funext fun a => Fin.ext (by
    match a with
    | ⟨0, _⟩ => exact (dot_S6400x75_S75x50_S6400x50_1_0_0_1_n_n.rhsIdx_val_of_single rfl (ix2 y h) _).trans hk
    | ⟨1, _⟩ => exact r1 _)
  rw [el, er]

/-- A product of a [6400,50] block with a [50,50] matrix into a zero accumulator, read at row `y`, column `h`:
    the finite sum over the contracted coordinate. -/
theorem matmul50_apply (a : FVec Ideal S6400x50 .bf16) (b : FVec Ideal S50x50 .bf16) (y : Fin 6400) (h : Fin 50) :
    matmul dot_S6400x50_S50x50_S6400x50_1_0_0_1_n_n none a b (constant (F := Ideal) S6400x50 .f32 0x00000000#32) (ix2 y h)
      = ∑ k : Fin 50, a (ix2 y k) * b (ix2 k h) := by
  refine (Ideal.matmul_constant_zero_apply dot_S6400x50_S50x50_S6400x50_1_0_0_1_n_n none a b (ix2 y h)).trans ?_
  rw [← Equiv.sum_comp (contrEquiv1 dot_S6400x50_S50x50_S6400x50_1_0_0_1_n_n 50 rfl rfl).symm]
  refine Finset.sum_congr rfl fun k _ => ?_
  have hk := contrEquiv1_symm_val dot_S6400x50_S50x50_S6400x50_1_0_0_1_n_n 50 rfl rfl k
  have l0 : ∀ q : dot_S6400x50_S50x50_S6400x50_1_0_0_1_n_n.contr.Idx, (dot_S6400x50_S50x50_S6400x50_1_0_0_1_n_n.lhsIdx (ix2 y h) q 0).val = y.val := fun q => by
    unfold DotDims.lhsIdx
    rw [dif_neg (show ¬(0 : Fin S6400x50.rank) ∈ dot_S6400x50_S50x50_S6400x50_1_0_0_1_n_n.lhsBatch by decide), dif_pos (show (0 : Fin S6400x50.rank) ∈ dot_S6400x50_S50x50_S6400x50_1_0_0_1_n_n.lhsNonContracting by decide)]
    rfl
  have r1 : ∀ q : dot_S6400x50_S50x50_S6400x50_1_0_0_1_n_n.contr.Idx, (dot_S6400x50_S50x50_S6400x50_1_0_0_1_n_n.rhsIdx (ix2 y h) q 1).val = h.val := fun q => by
    unfold DotDims.rhsIdx
    rw [dif_neg (show ¬(1 : Fin S50x50.rank) ∈ dot_S6400x50_S50x50_S6400x50_1_0_0_1_n_n.rhsBatch by decide), dif_pos (show (1 : Fin S50x50.rank) ∈ dot_S6400x50_S50x50_S6400x50_1_0_0_1_n_n.rhsNonContracting by decide)]
    rfl
  have el : dot_S6400x50_S50x50_S6400x50_1_0_0_1_n_n.lhsIdx (ix2 y h) ((contrEquiv1 dot_S6400x50_S50x50_S6400x50_1_0_0_1_n_n 50 rfl rfl).symm k) = ix2 y k := funext fun a => Fin.ext (by
    match a with
    | ⟨0, _⟩ => exact l0 _
    | ⟨1, _⟩ => exact (dot_S6400x50_S50x50_S6400x50_1_0_0_1_n_n.lhsIdx_val_of_single rfl (ix2 y h) _).trans hk)
  have er : dot_S6400x50_S50x50_S6400x50_1_0_0_1_n_n.rhsIdx (ix2 y h) ((contrEquiv1 dot_S6400x50_S50x50_S6400x50_1_0_0_1_n_n 50 rfl rfl).symm k) = ix2 k h := funext fun a => Fin.ext (by
    match a with
    | ⟨0, _⟩ => exact (dot_S6400x50_S50x50_S6400x50_1_0_0_1_n_n.rhsIdx_val_of_single rfl (ix2 y h) _).trans hk
    | ⟨1, _⟩ => exact r1 _)
  rw [el, er]

/-- A bias row [1,50] broadcast over the 6400 rows of a block, read at row `y`, column `h`: the bias at column `h`. -/
theorem bias_apply (b : Vec Ideal S1x50 .f32) (y : Fin 6400) (h : Fin 50) :
    broadcastTo S6400x50 (shapeCast S1x50 b shapeCasts_S1x50_S1x50) broadcasts_S1x50_S6400x50 (ix2 y h) = b (ix2 0 h) := by
  rw [shapeCast_self]
  refine broadcastTo_apply b broadcasts_S1x50_S6400x50 (ix2 y h) (ix2 0 h) fun a => ?_
  match a with
  | ⟨0, _⟩ => show (0 : Nat) = if (1 : Nat) = 1 then 0 else _; rw [if_pos rfl]
  | ⟨1, _⟩ => show h.val = if (50 : Nat) = 1 then 0 else h.val; rw [if_neg (by decide)]

/-- The first output's stored value: one dense layer of the pair-feature block. -/
theorem pay9_apply (v0 : Vec Ideal S6400x14 .bf16) (v6 : Vec Ideal S14x50 .f32) (v23 : Vec Ideal S1x50 .f32) (y : Fin 6400) (h : Fin 50) :
    k0_pay9 v0 v6 v23 (ix2 y h) = Cert.Weave.dense v0 v6 v23 (ix2 y h) := by
  unfold k0_pay9 k0_pay2
  show max (matmul dot_S6400x14_S14x50_S6400x50_1_0_0_1_n_n none (shapeCast S6400x14 v0 shapeCasts_S6400x14_S6400x14) (truncf .bf16 v6 bitsLt_bf16_f32) (constant (F := Ideal) S6400x50 .f32 0x00000000#32) (ix2 y h)
        + broadcastTo S6400x50 (shapeCast S1x50 v23 shapeCasts_S1x50_S1x50) broadcasts_S1x50_S6400x50 (ix2 y h)) (Ideal.ofBits .f32 0x00000000#32) = _
  rw [matmul14_apply, bias_apply, shapeCast_self]
  rfl

/-- The shape casts to the same shape and the format changes of the loaded blocks are the identity. -/
theorem pay3_eq (x : Vec Ideal S6400x75 .bf16) : (k0_pay3 x : S6400x75.Idx → EReal) = x := shapeCast_self x _
theorem pay4_eq (x : Vec Ideal S6400x75 .bf16) : (k0_pay4 x : S6400x75.Idx → EReal) = x := shapeCast_self x _
theorem pay5_eq (W : Vec Ideal S75x50 .f32) : (k0_pay5 W : S75x50.Idx → EReal) = W := shapeCast_self W _
theorem pay6_eq (W : Vec Ideal S75x50 .f32) : (k0_pay6 W : S75x50.Idx → EReal) = W := shapeCast_self W _
theorem pay7_eq (W : Vec Ideal S50x50 .f32) : (k0_pay7 W : S50x50.Idx → EReal) = W := shapeCast_self W _
theorem pay8_eq (W : Vec Ideal S50x50 .f32) : (k0_pay8 W : S50x50.Idx → EReal) = W := shapeCast_self W _

/-- The pair's own layer before its rectifier. -/
theorem pay10_apply (v0 : Vec Ideal S6400x14 .bf16) (v8 : Vec Ideal S14x50 .f32) (v30 : Vec Ideal S1x50 .f32) (y : Fin 6400) (h : Fin 50) :
    k0_pay10 v0 v8 v30 (ix2 y h) = Cert.Weave.dot v0 v8 y h + v30 (ix2 0 h) := by
  unfold k0_pay10 k0_pay2
  show matmul dot_S6400x14_S14x50_S6400x50_1_0_0_1_n_n none (shapeCast S6400x14 v0 shapeCasts_S6400x14_S6400x14) (truncf .bf16 v8 bitsLt_bf16_f32) (constant (F := Ideal) S6400x50 .f32 0x00000000#32) (ix2 y h)
        + broadcastTo S6400x50 (shapeCast S1x50 v30 shapeCasts_S1x50_S1x50) broadcasts_S1x50_S6400x50 (ix2 y h) = _
  rw [matmul14_apply, bias_apply, shapeCast_self]
  rfl

/-- The second output's stored value over its operands as the body holds them: the symmetrized message of the two
    end atoms beside the rectified pair layer, through one more dense layer. -/
theorem pay1_apply (v3 v5 : FVec Ideal S6400x75 .bf16) (v12 v15 : FVec Ideal S75x50 .bf16) (v18 v21 : FVec Ideal S50x50 .bf16)
    (v33 : FVec Ideal S6400x50 .f32) (v39 v46 v60 : Vec Ideal S1x50 .f32) (y : Fin 6400) (h : Fin 50) :
    k0_pay1 v3 v5 v12 v15 v18 v21 v33 v39 v46 v60 (ix2 y h)
      = Cert.Weave.relu ((∑ k : Fin 50, (Cert.Weave.relu (Cert.Weave.pre2 v3 v5 v12 v15 v39 y k) + Cert.Weave.relu (Cert.Weave.pre2 v5 v3 v12 v15 v46 y k)) * v18 (ix2 k h)
               + ∑ k : Fin 50, Cert.Weave.relu (v33 (ix2 y k)) * v21 (ix2 k h)) + v60 (ix2 0 h)) := by
  unfold k0_pay1
  show max (matmul dot_S6400x50_S50x50_S6400x50_1_0_0_1_n_n none _ v18 _ (ix2 y h) + matmul dot_S6400x50_S50x50_S6400x50_1_0_0_1_n_n none _ v21 _ (ix2 y h)
        + broadcastTo S6400x50 (shapeCast S1x50 v60 shapeCasts_S1x50_S1x50) broadcasts_S1x50_S6400x50 (ix2 y h)) (Ideal.ofBits .f32 0x00000000#32) = _
  rw [matmul50_apply, matmul50_apply, bias_apply]
  show Cert.Weave.relu ((_ + _) + _) = Cert.Weave.relu ((_ + _) + _)
  refine congrArg (fun z => Cert.Weave.relu (z + v60 (ix2 0 h))) (congrArg₂ (· + ·) (Finset.sum_congr rfl fun k _ => ?_) (Finset.sum_congr rfl fun k _ => ?_))
  · refine congrArg (· * v18 (ix2 k h)) ?_
    show max (matmul dot_S6400x75_S75x50_S6400x50_1_0_0_1_n_n none v3 v12 _ (ix2 y k) + matmul dot_S6400x75_S75x50_S6400x50_1_0_0_1_n_n none v5 v15 _ (ix2 y k)
          + broadcastTo S6400x50 (shapeCast S1x50 v39 shapeCasts_S1x50_S1x50) broadcasts_S1x50_S6400x50 (ix2 y k)) (Ideal.ofBits .f32 0x00000000#32)
        + max (matmul dot_S6400x75_S75x50_S6400x50_1_0_0_1_n_n none v5 v12 _ (ix2 y k) + matmul dot_S6400x75_S75x50_S6400x50_1_0_0_1_n_n none v3 v15 _ (ix2 y k)
          + broadcastTo S6400x50 (shapeCast S1x50 v46 shapeCasts_S1x50_S1x50) broadcasts_S1x50_S6400x50 (ix2 y k)) (Ideal.ofBits .f32 0x00000000#32) = _
    rw [matmul75_apply, matmul75_apply, matmul75_apply, matmul75_apply, bias_apply, bias_apply]
    rfl
  · rfl

/-- The second output's stored value over the loaded blocks: the new pair features of the block's rows. -/
theorem pair_payload (pf : Vec Ideal S6400x14 .bf16) (xi xj : Vec Ideal S6400x75 .bf16) (WPP : Vec Ideal S14x50 .f32)
    (bPP : Vec Ideal S1x50 .f32) (W1 W2 : Vec Ideal S75x50 .f32) (bAP : Vec Ideal S1x50 .f32) (WP1 WP2 : Vec Ideal S50x50 .f32)
    (bP : Vec Ideal S1x50 .f32) (y : Fin 6400) (h : Fin 50) :
    k0_pay1 (k0_pay3 xi) (k0_pay4 xj) (k0_pay5 W1) (k0_pay6 W2) (k0_pay7 WP1) (k0_pay8 WP2) (k0_pay10 pf WPP bPP) bAP bAP bP (ix2 y h)
      = Cert.Weave.pairOut pf xi xj WPP bPP W1 W2 bAP WP1 WP2 bP (ix2 y h) := by
  refine (pay1_apply (k0_pay3 xi) (k0_pay4 xj) (k0_pay5 W1) (k0_pay6 W2) (k0_pay7 WP1) (k0_pay8 WP2) (k0_pay10 pf WPP bPP) bAP bAP bP y h).trans ?_
  rw [pay3_eq, pay4_eq, pay5_eq, pay6_eq, pay7_eq, pay8_eq]
  show _ = Cert.Weave.relu ((Cert.Weave.dot (Cert.Weave.pairSym xi xj W1 W2 bAP) WP1 y h + Cert.Weave.dot (Cert.Weave.dense pf WPP bPP) WP2 y h) + bP (ix2 0 h))
  refine congrArg (fun z => Cert.Weave.relu (z + bP (ix2 0 h))) (congrArg₂ (· + ·) rfl (Finset.sum_congr rfl fun k _ => ?_))
  refine congrArg (fun z => Cert.Weave.relu z * WP2 (ix2 k h)) ?_
  exact pay10_apply pf WPP bPP y k

end Cert.Weave.PairPayload

end
-- ==== Proof.PairRegion.lean ====
/-
  The pair region of the kernel program, read as two functions of the arrays it finds.

  The region runs its body at 250 grid points. At point `t` the three row-indexed operands (the pair features and the
  features of each pair's two end atoms) and the two outputs are the blocks of rows `t·6400 … t·6400 + 6399` of their
  arrays; the weight matrices and bias rows are whole arrays at every point. An output row depends only on the same
  row of the row-indexed operands, so the block a point writes back is that block of ONE function of the whole
  arrays; the 250 blocks tile the 1600000 rows (row `r` lies in block `r / 6400`), so each output array ends
  holding that function.
-/
import proofs.«159579_j28982439313937_2_alg».proof.Proof.Gen.KernelIdeal.Frame
import proofs.«159579_j28982439313937_2_alg».proof.Proof.Spec
import proofs.«159579_j28982439313937_2_alg».proof.Proof.PairPayload
import Idealize.ShloMosaic.Lib.Pipeline.Value
import Idealize.ShloMosaic.Lib.ValueIdx
import Idealize.ShloMosaic.PureOps.Ideal.Laws

set_option maxRecDepth 16384

noncomputable section

open scoped BigOperators

namespace Cert.Weave.PairRegion

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hN : cfg0.N = 250 := N_0

/-- The printed index maps, decided over the 250 grid points: the row-blocked windows sit at block row `t`, column
    block 0; -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- the weight and bias windows always at block (0, 0). -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## A row-blocked window's block at point `t` is rows `t·6400 … t·6400 + 6399` of its array -/

/-- Row `y` of window 0's block at point `t` is row `t·6400 + y` of its whole array. -/
theorem blk0_apply (c : Dev nD) (t : Fin cfg0.N) (y : Fin 6400) (k : Fin 14) (r : Fin 1600000)
    (hr : r.val = t.val * 6400 + y.val) :
    (iblk0 V c 0 t : Vec Ideal S6400x14 .bf16) (ix2 y k) = (V c main_v5 : S1600000x14.Idx → EReal) (ix2 r k) := by
  obtain ⟨e0, e1⟩ := (idx_rows t).1
  unfold iblk0
  rw [View.read_apply]
  show V c main_v5 _ = V c main_v5 _
  refine congrArg _ (funext fun a => Fin.ext ?_)
  match a with
  | ⟨0, _⟩ => show win0_0.index t (0 : Fin 2) * 6400 + 1 * y.val = r.val; rw [e0, hr]; omega
  | ⟨1, _⟩ => show win0_0.index t (1 : Fin 2) * 14 + 1 * k.val = k.val; rw [e1]; omega

/-- Row `y` of window 1's block at point `t` is row `t·6400 + y` of its whole array. -/
theorem blk1_apply (c : Dev nD) (t : Fin cfg0.N) (y : Fin 6400) (k : Fin 75) (r : Fin 1600000)
    (hr : r.val = t.val * 6400 + y.val) :
    (iblk0 V c 1 t : Vec Ideal S6400x75 .bf16) (ix2 y k) = (V c main_v12 : S1600000x75.Idx → EReal) (ix2 r k) := by
  obtain ⟨e0, e1⟩ := (idx_rows t).2.1
  unfold iblk0
  rw [View.read_apply]
  show V c main_v12 _ = V c main_v12 _
  refine congrArg _ (funext fun a => Fin.ext ?_)
  match a with
  | ⟨0, _⟩ => show win0_1.index t (0 : Fin 2) * 6400 + 1 * y.val = r.val; rw [e0, hr]; omega
  | ⟨1, _⟩ => show win0_1.index t (1 : Fin 2) * 75 + 1 * k.val = k.val; rw [e1]; omega

/-- Row `y` of window 2's block at point `t` is row `t·6400 + y` of its whole array. -/
theorem blk2_apply (c : Dev nD) (t : Fin cfg0.N) (y : Fin 6400) (k : Fin 75) (r : Fin 1600000)
    (hr : r.val = t.val * 6400 + y.val) :
    (iblk0 V c 2 t : Vec Ideal S6400x75 .bf16) (ix2 y k) = (V c main_v19 : S1600000x75.Idx → EReal) (ix2 r k) := by
  obtain ⟨e0, e1⟩ := (idx_rows t).2.2.1
  unfold iblk0
  rw [View.read_apply]
  show V c main_v19 _ = V c main_v19 _
  refine congrArg _ (funext fun a => Fin.ext ?_)
  match a with
  | ⟨0, _⟩ => show win0_2.index t (0 : Fin 2) * 6400 + 1 * y.val = r.val; rw [e0, hr]; omega
  | ⟨1, _⟩ => show win0_2.index t (1 : Fin 2) * 75 + 1 * k.val = k.val; rw [e1]; omega

/-! ## A weight or bias window's block is its whole array, at every point -/

theorem blk3_eq (c : Dev nD) (t : Fin cfg0.N) : (iblk0 V c 3 t : Vec Ideal S14x50 .f32) = (V c main_arg6 : S14x50.Idx → EReal) := by
  obtain ⟨e0, e1⟩ := (idx_whole t).1
  funext x
  unfold iblk0
  rw [View.read_apply]
  show V c main_arg6 _ = V c main_arg6 _
  refine congrArg _ (funext fun a => Fin.ext ?_)
  match a with
  | ⟨0, _⟩ => show win0_3.index t (0 : Fin 2) * 14 + 1 * (x 0).val = (x 0).val; rw [e0]; omega
  | ⟨1, _⟩ => show win0_3.index t (1 : Fin 2) * 50 + 1 * (x 1).val = (x 1).val; rw [e1]; omega

theorem blk4_eq (c : Dev nD) (t : Fin cfg0.N) : (iblk0 V c 4 t : Vec Ideal S1x50 .f32) = (V c main_v27 : S1x50.Idx → EReal) := by
  obtain ⟨e0, e1⟩ := (idx_whole t).2.1
  funext x
  unfold iblk0
  rw [View.read_apply]
  show V c main_v27 _ = V c main_v27 _
  refine congrArg _ (funext fun a => Fin.ext ?_)
  match a with
  | ⟨0, _⟩ => show win0_4.index t (0 : Fin 2) * 1 + 1 * (x 0).val = (x 0).val; rw [e0]; omega
  | ⟨1, _⟩ => show win0_4.index t (1 : Fin 2) * 50 + 1 * (x 1).val = (x 1).val; rw [e1]; omega

theorem blk5_eq (c : Dev nD) (t : Fin cfg0.N) : (iblk0 V c 5 t : Vec Ideal S14x50 .f32) = (V c main_arg12 : S14x50.Idx → EReal) := by
  obtain ⟨e0, e1⟩ := (idx_whole t).2.2.1
  funext x
  unfold iblk0
  rw [View.read_apply]
  show V c main_arg12 _ = V c main_arg12 _
  refine congrArg _ (funext fun a => Fin.ext ?_)
  match a with
  | ⟨0, _⟩ => show win0_5.index t (0 : Fin 2) * 14 + 1 * (x 0).val = (x 0).val; rw [e0]; omega
  | ⟨1, _⟩ => show win0_5.index t (1 : Fin 2) * 50 + 1 * (x 1).val = (x 1).val; rw [e1]; omega

theorem blk6_eq (c : Dev nD) (t : Fin cfg0.N) : (iblk0 V c 6 t : Vec Ideal S1x50 .f32) = (V c main_v28 : S1x50.Idx → EReal) := by
  obtain ⟨e0, e1⟩ := (idx_whole t).2.2.2.1
  funext x
  unfold iblk0
  rw [View.read_apply]
  show V c main_v28 _ = V c main_v28 _
  refine congrArg _ (funext fun a => Fin.ext ?_)
  match a with
  | ⟨0, _⟩ => show win0_6.index t (0 : Fin 2) * 1 + 1 * (x 0).val = (x 0).val; rw [e0]; omega
  | ⟨1, _⟩ => show win0_6.index t (1 : Fin 2) * 50 + 1 * (x 1).val = (x 1).val; rw [e1]; omega

theorem blk7_eq (c : Dev nD) (t : Fin cfg0.N) : (iblk0 V c 7 t : Vec Ideal S75x50 .f32) = (V c main_v22 : S75x50.Idx → EReal) := by
  obtain ⟨e0, e1⟩ := (idx_whole t).2.2.2.2.1
  funext x
  unfold iblk0
  rw [View.read_apply]
  show V c main_v22 _ = V c main_v22 _
  refine congrArg _ (funext fun a => Fin.ext ?_)
  match a with
  | ⟨0, _⟩ => show win0_7.index t (0 : Fin 2) * 75 + 1 * (x 0).val = (x 0).val; rw [e0]; omega
  | ⟨1, _⟩ => show win0_7.index t (1 : Fin 2) * 50 + 1 * (x 1).val = (x 1).val; rw [e1]; omega

theorem blk8_eq (c : Dev nD) (t : Fin cfg0.N) : (iblk0 V c 8 t : Vec Ideal S75x50 .f32) = (V c main_v23 : S75x50.Idx → EReal) := by
  obtain ⟨e0, e1⟩ := (idx_whole t).2.2.2.2.2.1
  funext x
  unfold iblk0
  rw [View.read_apply]
  show V c main_v23 _ = V c main_v23 _
  refine congrArg _ (funext fun a => Fin.ext ?_)
  match a with
  | ⟨0, _⟩ => show win0_8.index t (0 : Fin 2) * 75 + 1 * (x 0).val = (x 0).val; rw [e0]; omega
  | ⟨1, _⟩ => show win0_8.index t (1 : Fin 2) * 50 + 1 * (x 1).val = (x 1).val; rw [e1]; omega

theorem blk9_eq (c : Dev nD) (t : Fin cfg0.N) : (iblk0 V c 9 t : Vec Ideal S1x50 .f32) = (V c main_v29 : S1x50.Idx → EReal) := by
  obtain ⟨e0, e1⟩ := (idx_whole t).2.2.2.2.2.2.1
  funext x
  unfold iblk0
  rw [View.read_apply]
  show V c main_v29 _ = V c main_v29 _
  refine congrArg _ (funext fun a => Fin.ext ?_)
  match a with
  | ⟨0, _⟩ => show win0_9.index t (0 : Fin 2) * 1 + 1 * (x 0).val = (x 0).val; rw [e0]; omega
  | ⟨1, _⟩ => show win0_9.index t (1 : Fin 2) * 50 + 1 * (x 1).val = (x 1).val; rw [e1]; omega

theorem blk10_eq (c : Dev nD) (t : Fin cfg0.N) : (iblk0 V c 10 t : Vec Ideal S50x50 .f32) = (V c main_v24 : S50x50.Idx → EReal) := by
  obtain ⟨e0, e1⟩ := (idx_whole t).2.2.2.2.2.2.2.1
  funext x
  unfold iblk0
  rw [View.read_apply]
  show V c main_v24 _ = V c main_v24 _
  refine congrArg _ (funext fun a => Fin.ext ?_)
  match a with
  | ⟨0, _⟩ => show win0_10.index t (0 : Fin 2) * 50 + 1 * (x 0).val = (x 0).val; rw [e0]; omega
  | ⟨1, _⟩ => show win0_10.index t (1 : Fin 2) * 50 + 1 * (x 1).val = (x 1).val; rw [e1]; omega

theorem blk11_eq (c : Dev nD) (t : Fin cfg0.N) : (iblk0 V c 11 t : Vec Ideal S50x50 .f32) = (V c main_v25 : S50x50.Idx → EReal) := by
  obtain ⟨e0, e1⟩ := (idx_whole t).2.2.2.2.2.2.2.2.1
  funext x
  unfold iblk0
  rw [View.read_apply]
  show V c main_v25 _ = V c main_v25 _
  refine congrArg _ (funext fun a => Fin.ext ?_)
  match a with
  | ⟨0, _⟩ => show win0_11.index t (0 : Fin 2) * 50 + 1 * (x 0).val = (x 0).val; rw [e0]; omega
  | ⟨1, _⟩ => show win0_11.index t (1 : Fin 2) * 50 + 1 * (x 1).val = (x 1).val; rw [e1]; omega

theorem blk12_eq (c : Dev nD) (t : Fin cfg0.N) : (iblk0 V c 12 t : Vec Ideal S1x50 .f32) = (V c main_v31 : S1x50.Idx → EReal) := by
  obtain ⟨e0, e1⟩ := (idx_whole t).2.2.2.2.2.2.2.2.2
  funext x
  unfold iblk0
  rw [View.read_apply]
  show V c main_v31 _ = V c main_v31 _
  refine congrArg _ (funext fun a => Fin.ext ?_)
  match a with
  | ⟨0, _⟩ => show win0_12.index t (0 : Fin 2) * 1 + 1 * (x 0).val = (x 0).val; rw [e0]; omega
  | ⟨1, _⟩ => show win0_12.index t (1 : Fin 2) * 50 + 1 * (x 1).val = (x 1).val; rw [e1]; omega

/-! ## The first output: one dense layer of the pair features -/

/-- A stored entry of the first output's block, over variables: row `j 0` of the block is row `t·6400 + j 0` of
    the whole array, so the block's dense layer there is the whole array's. -/
theorem pa_block (x0 : Vec Ideal S6400x14 .bf16) (x3 : Vec Ideal S14x50 .f32) (x4 : Vec Ideal S1x50 .f32)
    (A : Cert.Weave.Mat 1600000 14) (W : Cert.Weave.Mat 14 50) (b : Cert.Weave.Mat 1 50) (t : Nat)
    (h0 : ∀ (y : Fin 6400) (k : Fin 14) (r : Fin 1600000), r.val = t * 6400 + y.val → x0 (ix2 y k) = A (ix2 r k))
    (h3 : x3 = W) (h4 : x4 = b)
    (j : S6400x50.Idx) (i : S1600000x50.Idx) (hi0 : (i 0).val = t * 6400 + (j 0).val) (hi1 : (i 1).val = (j 1).val) :
    k0_pay9 x0 x3 x4 j = Cert.Weave.dense A W b i := by
  subst h3 h4
  obtain ⟨y, h, rfl⟩ : ∃ (y : Fin 6400) (h : Fin 50), j = ix2 y h := ⟨j 0, j 1, eq_ix2 j⟩
  obtain ⟨r, h', rfl⟩ : ∃ (r : Fin 1600000) (h' : Fin 50), i = ix2 r h' := ⟨i 0, i 1, eq_ix2 i⟩
  obtain rfl : h' = h := Fin.ext hi1
  exact (PairPayload.pay9_apply x0 x3 x4 y h').trans (Cert.Weave.dense_rows x0 A x3 x4 y r h' fun k => h0 y k r hi0)

/-- What point `t` writes back to the first output is block `t` of the dense layer of the whole arrays. -/
theorem pa_flushed (c : Dev nD) (t : Fin cfg0.N) :
    (dat0 (F := Ideal) V c).flushed 13 t = ((cfg0.win 13).blk t).view.read (Elt Ideal)
      (Cert.Weave.dense (V c main_v5 : S1600000x14.Idx → EReal) (V c main_arg6 : S14x50.Idx → EReal) (V c main_v27 : S1x50.Idx → EReal)) := by
  show (cfg0.win 13).cut (grid0.coords t) ((dat0 V c).after 13 t) = _
  rw [after0_13]
  unfold out0_13
  rw [View.canon_unit_zero hz]
  simp only [View.ld_unit_zero (S := S6400x14) hz, View.ld_unit_zero (S := S14x50) hz, View.ld_unit_zero (S := S1x50) hz]
  obtain ⟨-, -, -, ⟨e0, e1⟩, -⟩ := idx_rows t
  funext j
  rw [View.read_apply]
  refine pa_block (iblk0 V c 0 t) (iblk0 V c 3 t) (iblk0 V c 4 t) (V c main_v5) (V c main_arg6) (V c main_v27) t.val
    (fun y k r hr => blk0_apply V c t y k r hr) (blk3_eq V c t) (blk4_eq V c t) _ _ ?_ ?_
  · show win0_13.index t (0 : Fin 2) * 6400 + 1 * (j 0).val = t.val * 6400 + (j 0).val; rw [e0]; omega
  · show win0_13.index t (1 : Fin 2) * 50 + 1 * (j 1).val = (j 1).val; rw [e1]; omega

/-- An index of the first output is in point `t`'s block iff each coordinate is in the block's range on its axis. -/
theorem mem_blk13 (t : Fin cfg0.N) (i : S1600000x50.Idx) :
    i ∈ ((cfg0.win 13).blk t).view.set ↔ ∀ a : Fin 2, win0_13.index t a * S6400x50.size a ≤ (i a).val ∧ (i a).val < win0_13.index t a * S6400x50.size a + S6400x50.size a := by
  show i ∈ ((View.whole main_v32_0).slice (win0_13.rect t)).set ↔ _
  rw [View.set_slice_whole, Rect.mem_set_unit]
  exact Iff.rfl

/-- Row `r` of the output is in the block of point `r / 6400`. -/
theorem cover13 (i : S1600000x50.Idx) : ∃ t : Fin cfg0.N, (cfg0.win 13).flush t = true ∧ i ∈ ((cfg0.win 13).blk t).view.set := by
  have hi0 : (i 0).val < 1600000 := (i 0).isLt
  have hi1 : (i 1).val < 50 := (i 1).isLt
  refine ⟨⟨(i 0).val / 6400, by rw [hN]; omega⟩, flush0_13 _, ?_⟩
  rw [mem_blk13]
  obtain ⟨-, -, -, ⟨e0, e1⟩, -⟩ := idx_rows ⟨(i 0).val / 6400, by rw [hN]; omega⟩
  intro a
  match a with
  | ⟨0, _⟩ => show win0_13.index _ (0 : Fin 2) * 6400 ≤ (i 0).val ∧ (i 0).val < win0_13.index _ (0 : Fin 2) * 6400 + 6400; rw [e0]; show (i 0).val / 6400 * 6400 ≤ (i 0).val ∧ (i 0).val < (i 0).val / 6400 * 6400 + 6400; omega
  | ⟨1, _⟩ => show win0_13.index _ (1 : Fin 2) * 50 ≤ (i 1).val ∧ (i 1).val < win0_13.index _ (1 : Fin 2) * 50 + 50; rw [e1]; omega

/-- The first output after the region: one dense layer of the pair features, entry by entry. -/
theorem pa_array (c : Dev nD) :
    (dat0 (F := Ideal) V c).arrAt 13 cfg0.N
      = Cert.Weave.dense (V c main_v5 : S1600000x14.Idx → EReal) (V c main_arg6 : S14x50.Idx → EReal) (V c main_v27 : S1x50.Idx → EReal) :=
  (dat0 (F := Ideal) V c).arrAt_eq_of_cover 13 _ (fun t _ => pa_flushed V c t) cover13

/-! ## The second output: the new pair features -/

/-- A stored entry of the second output's block, over variables: rows of the three row-blocked operands' blocks are
    rows of their whole arrays, so the block's new pair features there are the whole arrays'. -/
theorem pair_block (x0 : Vec Ideal S6400x14 .bf16) (x1 x2 : Vec Ideal S6400x75 .bf16) (x5 : Vec Ideal S14x50 .f32)
    (x6 : Vec Ideal S1x50 .f32) (x7 x8 : Vec Ideal S75x50 .f32) (x9 : Vec Ideal S1x50 .f32) (x10 x11 : Vec Ideal S50x50 .f32)
    (x12 : Vec Ideal S1x50 .f32)
    (A0 : Cert.Weave.Mat 1600000 14) (A1 A2 : Cert.Weave.Mat 1600000 75) (WPP : Cert.Weave.Mat 14 50) (bPP : Cert.Weave.Mat 1 50)
    (W1 W2 : Cert.Weave.Mat 75 50) (bAP : Cert.Weave.Mat 1 50) (WP1 WP2 : Cert.Weave.Mat 50 50) (bP : Cert.Weave.Mat 1 50) (t : Nat)
    (h0 : ∀ (y : Fin 6400) (k : Fin 14) (r : Fin 1600000), r.val = t * 6400 + y.val → x0 (ix2 y k) = A0 (ix2 r k))
    (h1 : ∀ (y : Fin 6400) (k : Fin 75) (r : Fin 1600000), r.val = t * 6400 + y.val → x1 (ix2 y k) = A1 (ix2 r k))
    (h2 : ∀ (y : Fin 6400) (k : Fin 75) (r : Fin 1600000), r.val = t * 6400 + y.val → x2 (ix2 y k) = A2 (ix2 r k))
    (h5 : x5 = WPP) (h6 : x6 = bPP) (h7 : x7 = W1) (h8 : x8 = W2) (h9 : x9 = bAP) (h10 : x10 = WP1) (h11 : x11 = WP2) (h12 : x12 = bP)
    (j : S6400x50.Idx) (i : S1600000x50.Idx) (hi0 : (i 0).val = t * 6400 + (j 0).val) (hi1 : (i 1).val = (j 1).val) :
    k0_pay1 (k0_pay3 x1) (k0_pay4 x2) (k0_pay5 x7) (k0_pay6 x8) (k0_pay7 x10) (k0_pay8 x11) (k0_pay10 x0 x5 x6) x9 x9 x12 j
      = Cert.Weave.pairOut A0 A1 A2 WPP bPP W1 W2 bAP WP1 WP2 bP i := by
  subst h5 h6 h7 h8 h9 h10 h11 h12
  obtain ⟨y, h, rfl⟩ : ∃ (y : Fin 6400) (h : Fin 50), j = ix2 y h := ⟨j 0, j 1, eq_ix2 j⟩
  obtain ⟨r, h', rfl⟩ : ∃ (r : Fin 1600000) (h' : Fin 50), i = ix2 r h' := ⟨i 0, i 1, eq_ix2 i⟩
  obtain rfl : h' = h := Fin.ext hi1
  exact (PairPayload.pair_payload x0 x1 x2 x5 x6 x7 x8 x9 x10 x11 x12 y h').trans
    (Cert.Weave.pairOut_rows x0 A0 x1 x2 A1 A2 x5 x6 x7 x8 x9 x10 x11 x12 y r h' (fun k => h0 y k r hi0) (fun k => h1 y k r hi0)
      (fun k => h2 y k r hi0))

/-- What point `t` writes back to the second output is block `t` of the new pair features of the whole arrays. -/
theorem pair_flushed (c : Dev nD) (t : Fin cfg0.N) :
    (dat0 (F := Ideal) V c).flushed 14 t = ((cfg0.win 14).blk t).view.read (Elt Ideal)
      (Cert.Weave.pairOut (V c main_v5 : S1600000x14.Idx → EReal) (V c main_v12 : S1600000x75.Idx → EReal) (V c main_v19 : S1600000x75.Idx → EReal)
        (V c main_arg12 : S14x50.Idx → EReal) (V c main_v28 : S1x50.Idx → EReal) (V c main_v22 : S75x50.Idx → EReal) (V c main_v23 : S75x50.Idx → EReal)
        (V c main_v29 : S1x50.Idx → EReal) (V c main_v24 : S50x50.Idx → EReal) (V c main_v25 : S50x50.Idx → EReal) (V c main_v31 : S1x50.Idx → EReal)) := by
  show (cfg0.win 14).cut (grid0.coords t) ((dat0 V c).after 14 t) = _
  rw [after0_14]
  unfold out0_14
  rw [View.canon_unit_zero hz]
  simp only [View.ld_unit_zero (S := S6400x14) hz, View.ld_unit_zero (S := S6400x75) hz, View.ld_unit_zero (S := S14x50) hz,
    View.ld_unit_zero (S := S1x50) hz, View.ld_unit_zero (S := S75x50) hz, View.ld_unit_zero (S := S50x50) hz]
  obtain ⟨-, -, -, -, ⟨e0, e1⟩⟩ := idx_rows t
  funext j
  rw [View.read_apply]
  refine pair_block (iblk0 V c 0 t) (iblk0 V c 1 t) (iblk0 V c 2 t) (iblk0 V c 5 t) (iblk0 V c 6 t) (iblk0 V c 7 t) (iblk0 V c 8 t)
    (iblk0 V c 9 t) (iblk0 V c 10 t) (iblk0 V c 11 t) (iblk0 V c 12 t)
    (V c main_v5) (V c main_v12) (V c main_v19) (V c main_arg12) (V c main_v28) (V c main_v22) (V c main_v23) (V c main_v29)
    (V c main_v24) (V c main_v25) (V c main_v31) t.val
    (fun y k r hr => blk0_apply V c t y k r hr) (fun y k r hr => blk1_apply V c t y k r hr) (fun y k r hr => blk2_apply V c t y k r hr)
    (blk5_eq V c t) (blk6_eq V c t) (blk7_eq V c t) (blk8_eq V c t) (blk9_eq V c t) (blk10_eq V c t) (blk11_eq V c t) (blk12_eq V c t)
    _ _ ?_ ?_
  · show win0_14.index t (0 : Fin 2) * 6400 + 1 * (j 0).val = t.val * 6400 + (j 0).val; rw [e0]; omega
  · show win0_14.index t (1 : Fin 2) * 50 + 1 * (j 1).val = (j 1).val; rw [e1]; omega

/-- An index of the second output is in point `t`'s block iff each coordinate is in the block's range on its axis. -/
theorem mem_blk14 (t : Fin cfg0.N) (i : S1600000x50.Idx) :
    i ∈ ((cfg0.win 14).blk t).view.set ↔ ∀ a : Fin 2, win0_14.index t a * S6400x50.size a ≤ (i a).val ∧ (i a).val < win0_14.index t a * S6400x50.size a + S6400x50.size a := by
  show i ∈ ((View.whole main_v32_1).slice (win0_14.rect t)).set ↔ _
  rw [View.set_slice_whole, Rect.mem_set_unit]
  exact Iff.rfl

/-- Row `r` of the output is in the block of point `r / 6400`. -/
theorem cover14 (i : S1600000x50.Idx) : ∃ t : Fin cfg0.N, (cfg0.win 14).flush t = true ∧ i ∈ ((cfg0.win 14).blk t).view.set := by
  have hi0 : (i 0).val < 1600000 := (i 0).isLt
  have hi1 : (i 1).val < 50 := (i 1).isLt
  refine ⟨⟨(i 0).val / 6400, by rw [hN]; omega⟩, flush0_14 _, ?_⟩
  rw [mem_blk14]
  obtain ⟨-, -, -, -, ⟨e0, e1⟩⟩ := idx_rows ⟨(i 0).val / 6400, by rw [hN]; omega⟩
  intro a
  match a with
  | ⟨0, _⟩ => show win0_14.index _ (0 : Fin 2) * 6400 ≤ (i 0).val ∧ (i 0).val < win0_14.index _ (0 : Fin 2) * 6400 + 6400; rw [e0]; show (i 0).val / 6400 * 6400 ≤ (i 0).val ∧ (i 0).val < (i 0).val / 6400 * 6400 + 6400; omega
  | ⟨1, _⟩ => show win0_14.index _ (1 : Fin 2) * 50 ≤ (i 1).val ∧ (i 1).val < win0_14.index _ (1 : Fin 2) * 50 + 50; rw [e1]; omega

/-- The second output after the region: the new pair features, entry by entry. -/
theorem pair_array (c : Dev nD) :
    (dat0 (F := Ideal) V c).arrAt 14 cfg0.N
      = Cert.Weave.pairOut (V c main_v5 : S1600000x14.Idx → EReal) (V c main_v12 : S1600000x75.Idx → EReal) (V c main_v19 : S1600000x75.Idx → EReal)
        (V c main_arg12 : S14x50.Idx → EReal) (V c main_v28 : S1x50.Idx → EReal) (V c main_v22 : S75x50.Idx → EReal) (V c main_v23 : S75x50.Idx → EReal)
        (V c main_v29 : S1x50.Idx → EReal) (V c main_v24 : S50x50.Idx → EReal) (V c main_v25 : S50x50.Idx → EReal) (V c main_v31 : S1x50.Idx → EReal) :=
  (dat0 (F := Ideal) V c).arrAt_eq_of_cover 14 _ (fun t _ => pair_flushed V c t) cover14

end Cert.Weave.PairRegion

end
-- ==== Proof.HostRead.lean ====
/-
  The kernel program's host operations around its two regions, read at an index.

  Before the pair region the program slices the two columns of the pair-to-atom index array, wraps negative row
  numbers once, and gathers the selected rows of the atom table; it cuts each weight matrix that multiplies a
  concatenation into its top and bottom rows, and turns each bias vector into a matrix of one row. Read at an
  index these are: the atom table at the row `pickRow` selects (`endAtom`), `rowsFrom`, and `rowMat`.
-/
import proofs.«159579_j28982439313937_2_alg».proof.Proof.Gen.KernelIdeal
import proofs.«159579_j28982439313937_2_alg».proof.Proof.Spec
import Idealize.ShloMosaic.Lib.Pipeline.Value

set_option maxRecDepth 16384

noncomputable section

namespace Cert.Weave.HostRead

open Cert.KernelIdeal Cert.KernelIdeal.Gen
open Idealize.ShloMosaic Idealize.ShloMosaic.ValueIdx

/-- Gathering rows of the atom table, read at (p, k): the table at the row the start index of pair `p` selects —
    read as a signed integer and clamped into the table —, column `k`. On the row axis the operand index is the
    clamped start (the axis is collapsed, so no offset is added); on the column axis nothing is started and the
    offset is the result's column. -/
theorem gather_rows_apply {α : Type} (x : S100000x75.Idx → α) (idx : IVec S1600000x1 32) (p : Fin 1600000) (k : Fin 75) :
    Host.gather gather_S100000x75_S1600000x1_S1600000x75_1_0_n_n_0_1_175 x idx (ix2 p k)
      = x (ix2 ⟨min (idx (ix2 p 0)).toInt.toNat 99999, by omega⟩ k) := by
  unfold Host.gather
  congr 1
  funext a
  refine Fin.ext ?_
  show GatherDims.start gather_S100000x75_S1600000x1_S1600000x75_1_0_n_n_0_1_175 (ix2 p k) idx a
    + GatherDims.batchCoord gather_S100000x75_S1600000x1_S1600000x75_1_0_n_n_0_1_175 (ix2 p k) a
    + GatherDims.offCoord gather_S100000x75_S1600000x1_S1600000x75_1_0_n_n_0_1_175 (ix2 p k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S100000x75.rank)
      ∈ GatherDims.startIndexMap gather_S100000x75_S1600000x1_S1600000x75_1_0_n_n_0_1_175 from List.mem_singleton.mpr rfl)]
    have hsi : GatherDims.siIdx gather_S100000x75_S1600000x1_S1600000x75_1_0_n_n_0_1_175 (ix2 p k)
        ⟨List.idxOf (⟨0, by decide⟩ : Fin S100000x75.rank)
          (GatherDims.startIndexMap gather_S100000x75_S1600000x1_S1600000x75_1_0_n_n_0_1_175),
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, h1⟩ =>
    have hs : GatherDims.start gather_S100000x75_S1600000x1_S1600000x75_1_0_n_n_0_1_175 (ix2 p k) idx ⟨1, h1⟩ = 0 := by
      unfold GatherDims.start
      rw [dif_neg (show ¬ (⟨1, h1⟩ : Fin S100000x75.rank)
        ∈ GatherDims.startIndexMap gather_S100000x75_S1600000x1_S1600000x75_1_0_n_n_0_1_175 by decide +revert)]
    have ho : GatherDims.offCoord gather_S100000x75_S1600000x1_S1600000x75_1_0_n_n_0_1_175 (ix2 p k) ⟨1, h1⟩ = k.val := by
      unfold GatherDims.offCoord
      rw [dif_pos (show (⟨1, h1⟩ : Fin S100000x75.rank)
        ∈ GatherDims.sKept gather_S100000x75_S1600000x1_S1600000x75_1_0_n_n_0_1_175 from
          (by decide : (⟨1, by decide⟩ : Fin S100000x75.rank)
            ∈ GatherDims.sKept gather_S100000x75_S1600000x1_S1600000x75_1_0_n_n_0_1_175))]
      rfl
    rw [hs, ho]
    show 0 + 0 + k.val = k.val
    omega

/-- Column `o` of the pair-to-atom index array, as a flat array, read at pair `p`. -/
theorem column_apply (a2p : IVec S1600000x2 32) (o : Fin 2) (hs : S1600000x2.Slices ![0, o.val] S1600000x1)
    (hc : S1600000x1.ShapeCasts S1600000) (p : Fin 1600000) :
    shapeCast S1600000 (extractStridedSlice S1600000x1 ![0, o.val] a2p hs) hc (ix1 p) = a2p (ix2 p o) :=
  (shapeCast_apply _ hc (ix1 p) (ix2 p 0) (by
      rewrite [Shape.rowMajor_val_two, Shape.rowMajor_val_one]; show p.val * 1 + 0 = p.val; omega)).trans
    (extractStridedSlice_apply ![0, o.val] a2p hs (ix2 p 0) (ix2 p o) (fun a => match a with
      | ⟨0, _⟩ => (Nat.zero_add _).symm
      | ⟨1, _⟩ => rfl))

/-- The start index handed to the gather for pair `p`: the column's row number, wrapped once if negative. -/
theorem start_word (a2p : IVec S1600000x2 32) (o : Fin 2) (hs : S1600000x2.Slices ![0, o.val] S1600000x1)
    (hc : S1600000x1.ShapeCasts S1600000) (hb : S1600000.BroadcastsInDim S1600000x1 ![0]) (hz : S_.BroadcastsInDim S1600000 ![])
    (p : Fin 1600000) :
    broadcastInDim S1600000x1 ![0] hb
      (select
        (cmpi .slt (shapeCast S1600000 (extractStridedSlice S1600000x1 ![0, o.val] a2p hs) hc)
          (broadcastInDim S1600000 ![] hz (constantI S_ 32 0#32)))
        (addi (shapeCast S1600000 (extractStridedSlice S1600000x1 ![0, o.val] a2p hs) hc)
          (broadcastInDim S1600000 ![] hz (constantI S_ 32 100000#32)))
        (shapeCast S1600000 (extractStridedSlice S1600000x1 ![0, o.val] a2p hs) hc)) (ix2 p 0)
      = Cert.Weave.wrapIdx (a2p (ix2 p o)) := by
  rw [broadcastInDim_apply ![0] hb _ (ix2 p 0) (ix1 p) (fun a => match a with
    | ⟨0, _⟩ => by show p.val = if (1600000 : Nat) = 1 then 0 else p.val; rw [if_neg (by decide)])]
  show Scalar.select (IntOp.cmpi .slt (shapeCast S1600000 (extractStridedSlice S1600000x1 ![0, o.val] a2p hs) hc (ix1 p)) 0#32)
      (shapeCast S1600000 (extractStridedSlice S1600000x1 ![0, o.val] a2p hs) hc (ix1 p) + 100000#32)
      (shapeCast S1600000 (extractStridedSlice S1600000x1 ![0, o.val] a2p hs) hc (ix1 p)) = _
  rw [column_apply a2p o hs hc p]
  rfl

/-- The gathered rows are the end atoms' features: the atom table at the row `pickRow` selects. (The table's
    change of float format on the way is the identity on extended reals.) -/
theorem gather_endAtom (af : S100000x75.Idx → EReal) (a2p : IVec S1600000x2 32) (o : Fin 2)
    (hs : S1600000x2.Slices ![0, o.val] S1600000x1) (hc : S1600000x1.ShapeCasts S1600000)
    (hb : S1600000.BroadcastsInDim S1600000x1 ![0]) (hz : S_.BroadcastsInDim S1600000 ![]) :
    Host.gather gather_S100000x75_S1600000x1_S1600000x75_1_0_n_n_0_1_175 af
      (broadcastInDim S1600000x1 ![0] hb
        (select
          (cmpi .slt (shapeCast S1600000 (extractStridedSlice S1600000x1 ![0, o.val] a2p hs) hc)
            (broadcastInDim S1600000 ![] hz (constantI S_ 32 0#32)))
          (addi (shapeCast S1600000 (extractStridedSlice S1600000x1 ![0, o.val] a2p hs) hc)
            (broadcastInDim S1600000 ![] hz (constantI S_ 32 100000#32)))
          (shapeCast S1600000 (extractStridedSlice S1600000x1 ![0, o.val] a2p hs) hc)))
      = Cert.Weave.endAtom af a2p o := by
  funext i
  obtain ⟨p, k, rfl⟩ : ∃ (p : Fin 1600000) (k : Fin 75), i = ix2 p k := ⟨i 0, i 1, eq_ix2 i⟩
  refine (gather_rows_apply af _ p k).trans ?_
  refine congrArg (fun r => af (ix2 r k)) (Fin.ext ?_)
  show min (BitVec.toInt _).toNat 99999 = min (BitVec.toInt (Cert.Weave.wrapIdx (a2p (ix2 p o)))).toNat 99999
  rw [start_word a2p o hs hc hb hz p]

/-- On extended reals a narrowing change of float format is the identity. -/
theorem truncf_id {s : Shape} (x : s.Idx → EReal) (h : FTy.bf16.bits < FTy.f32.bits) :
    truncf (F := Ideal) (φ := .f32) .bf16 x h = x := rfl

/-- A slice of `K` whole rows from row `off` on is `rowsFrom`. -/
theorem slice_rowsFrom {N K H : Nat} (off : Nat) (hoff : off + K ≤ N) (x : (⟨2, ![N, H]⟩ : Shape).Idx → EReal)
    (h : (⟨2, ![N, H]⟩ : Shape).Slices ![off, 0] ⟨2, ![K, H]⟩) :
    extractStridedSlice ⟨2, ![K, H]⟩ ![off, 0] x h = Cert.Weave.rowsFrom off hoff x := by
  funext j
  exact extractStridedSlice_apply ![off, 0] x h j _ (fun a => match a with
    | ⟨0, _⟩ => rfl
    | ⟨1, _⟩ => (Nat.zero_add _).symm)

/-- A vector reshaped to a matrix of one row is `rowMat`. -/
theorem reshape_rowMat {H : Nat} (b : (⟨1, ![H]⟩ : Shape).Idx → EReal) (h : (⟨1, ![H]⟩ : Shape).ShapeCasts ⟨2, ![1, H]⟩) :
    shapeCast ⟨2, ![1, H]⟩ b h = Cert.Weave.rowMat b := by
  funext j
  have h0 : (j 0).val = 0 := by have := idx2_lt0 j; omega
  exact shapeCast_apply b h j (ix1 (j 1)) (by
    rewrite [Shape.rowMajor_val_two, Shape.rowMajor_val_one]; show (j 1).val = (j 0).val * H + (j 1).val; rw [h0]; omega)

end Cert.Weave.HostRead

end
-- ==== Proof.PairEntryA.lean ====
/-
  What the pair region finds in its row-indexed operands and its first weights when it is entered, from the launch memory: the pair features, the two end atoms' features (rows of the atom table), the pair-to-atom layer's weights and bias.
-/
import proofs.«159579_j28982439313937_2_alg».proof.Proof.Gen.KernelIdeal.Frame
import proofs.«159579_j28982439313937_2_alg».proof.Proof.HostRead
import Idealize.ShloMosaic.Lib.StableHlo.Run

set_option maxRecDepth 16384

noncomputable section

namespace Cert.Weave.PairEntryA

open Cert.KernelIdeal Cert.KernelIdeal.Gen Cert.Weave.HostRead
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)
theorem at_main_v5 : V1 (F := Ideal) m ρ c main_v5 = (m ((c : Thread nD τ).loc main_arg1)) := by
  show StableHlo.after hostOps0 (W0 m ρ c) (Proc.devRef .tc main_v5) = _
  after_results
  rfl
theorem at_main_v12 : V1 (F := Ideal) m ρ c main_v12 = Cert.Weave.endAtom (m ((c : Thread nD τ).loc main_arg0)) (m ((c : Thread nD τ).loc main_arg3)) 0 := by
  show StableHlo.after hostOps0 (W0 m ρ c) (Proc.devRef .tc main_v12) = _
  after_results
  exact gather_endAtom (m ((c : Thread nD τ).loc main_arg0)) (m ((c : Thread nD τ).loc main_arg3)) 0 _ _ _ _
theorem at_main_v19 : V1 (F := Ideal) m ρ c main_v19 = Cert.Weave.endAtom (m ((c : Thread nD τ).loc main_arg0)) (m ((c : Thread nD τ).loc main_arg3)) 1 := by
  show StableHlo.after hostOps0 (W0 m ρ c) (Proc.devRef .tc main_v19) = _
  after_results_simp
  exact gather_endAtom (m ((c : Thread nD τ).loc main_arg0)) (m ((c : Thread nD τ).loc main_arg3)) 1 _ _ _ _
theorem at_main_arg6 : V1 (F := Ideal) m ρ c main_arg6 = (m ((c : Thread nD τ).loc main_arg6)) := by
  show StableHlo.after hostOps0 (W0 m ρ c) (Proc.devRef .tc main_arg6) = _
  after_results
theorem at_main_v27 : V1 (F := Ideal) m ρ c main_v27 = Cert.Weave.rowMat (m ((c : Thread nD τ).loc main_arg7)) := by
  show StableHlo.after hostOps0 (W0 m ρ c) (Proc.devRef .tc main_v27) = _
  after_results
  exact reshape_rowMat _ _
theorem at_main_arg12 : V1 (F := Ideal) m ρ c main_arg12 = (m ((c : Thread nD τ).loc main_arg12)) := by
  show StableHlo.after hostOps0 (W0 m ρ c) (Proc.devRef .tc main_arg12) = _
  after_results
theorem at_main_v28 : V1 (F := Ideal) m ρ c main_v28 = Cert.Weave.rowMat (m ((c : Thread nD τ).loc main_arg13)) := by
  show StableHlo.after hostOps0 (W0 m ρ c) (Proc.devRef .tc main_v28) = _
  after_results
  exact reshape_rowMat _ _

end Cert.Weave.PairEntryA

end
-- ==== Proof.PairEntryB.lean ====
/-
  What the pair region finds in its remaining weights when it is entered, from the launch memory: the top and bottom rows of the two weight matrices that multiply a concatenation, and the biases as one-row matrices.
-/
import proofs.«159579_j28982439313937_2_alg».proof.Proof.Gen.KernelIdeal.Frame
import proofs.«159579_j28982439313937_2_alg».proof.Proof.HostRead
import Idealize.ShloMosaic.Lib.StableHlo.Run

set_option maxRecDepth 16384

noncomputable section

namespace Cert.Weave.PairEntryB

open Cert.KernelIdeal Cert.KernelIdeal.Gen Cert.Weave.HostRead
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)
theorem at_main_v22 : V1 (F := Ideal) m ρ c main_v22 = Cert.Weave.rowsFrom 0 (by decide) (m ((c : Thread nD τ).loc main_arg10)) := by
  show StableHlo.after hostOps0 (W0 m ρ c) (Proc.devRef .tc main_v22) = _
  after_results
  exact slice_rowsFrom 0 _ _ _
theorem at_main_v23 : V1 (F := Ideal) m ρ c main_v23 = Cert.Weave.rowsFrom 75 (by decide) (m ((c : Thread nD τ).loc main_arg10)) := by
  show StableHlo.after hostOps0 (W0 m ρ c) (Proc.devRef .tc main_v23) = _
  after_results
  exact slice_rowsFrom 75 _ _ _
theorem at_main_v29 : V1 (F := Ideal) m ρ c main_v29 = Cert.Weave.rowMat (m ((c : Thread nD τ).loc main_arg11)) := by
  show StableHlo.after hostOps0 (W0 m ρ c) (Proc.devRef .tc main_v29) = _
  after_results
  exact reshape_rowMat _ _
theorem at_main_v24 : V1 (F := Ideal) m ρ c main_v24 = Cert.Weave.rowsFrom 0 (by decide) (m ((c : Thread nD τ).loc main_arg14)) := by
  show StableHlo.after hostOps0 (W0 m ρ c) (Proc.devRef .tc main_v24) = _
  after_results
  exact slice_rowsFrom 0 _ _ _
theorem at_main_v25 : V1 (F := Ideal) m ρ c main_v25 = Cert.Weave.rowsFrom 50 (by decide) (m ((c : Thread nD τ).loc main_arg14)) := by
  show StableHlo.after hostOps0 (W0 m ρ c) (Proc.devRef .tc main_v25) = _
  after_results
  exact slice_rowsFrom 50 _ _ _
theorem at_main_v31 : V1 (F := Ideal) m ρ c main_v31 = Cert.Weave.rowMat (m ((c : Thread nD τ).loc main_arg15)) := by
  show StableHlo.after hostOps0 (W0 m ρ c) (Proc.devRef .tc main_v31) = _
  after_results
  exact reshape_rowMat _ _

end Cert.Weave.PairEntryB

end
-- ==== Proof.AtomEntry.lean ====
/-
  What the atom region finds in its operands when it is entered, from the launch memory: the atom features, the weights and the biases. (The aggregated pair messages are in their own module.)
-/
import proofs.«159579_j28982439313937_2_alg».proof.Proof.Gen.KernelIdeal.Frame
import proofs.«159579_j28982439313937_2_alg».proof.Proof.HostRead
import Idealize.ShloMosaic.Lib.StableHlo.Run

set_option maxRecDepth 16384

noncomputable section

namespace Cert.Weave.AtomEntry

open Cert.KernelIdeal Cert.KernelIdeal.Gen Cert.Weave.HostRead
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)
theorem at_main_v4 : V3 (F := Ideal) m ρ c main_v4 = (m ((c : Thread nD τ).loc main_arg0)) := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  rfl
theorem at_main_arg4 : V3 (F := Ideal) m ρ c main_arg4 = (m ((c : Thread nD τ).loc main_arg4)) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results
theorem at_main_v26 : V3 (F := Ideal) m ρ c main_v26 = Cert.Weave.rowMat (m ((c : Thread nD τ).loc main_arg5)) := by
  show StableHlo.after hostOps1 (W2 m ρ c) (Proc.devRef .tc main_v26) = _
  after_results
  rw [W2_of_ne m ρ c main_v26 (by decide)]
  show StableHlo.after hostOps0 (W0 m ρ c) (Proc.devRef .tc main_v26) = _
  after_results
  exact reshape_rowMat _ _
theorem at_main_v20 : V3 (F := Ideal) m ρ c main_v20 = Cert.Weave.rowsFrom 0 (by decide) (m ((c : Thread nD τ).loc main_arg8)) := by
  show StableHlo.after hostOps1 (W2 m ρ c) (Proc.devRef .tc main_v20) = _
  after_results
  rw [W2_of_ne m ρ c main_v20 (by decide)]
  show StableHlo.after hostOps0 (W0 m ρ c) (Proc.devRef .tc main_v20) = _
  after_results
  exact slice_rowsFrom 0 _ _ _
theorem at_main_v21 : V3 (F := Ideal) m ρ c main_v21 = Cert.Weave.rowsFrom 50 (by decide) (m ((c : Thread nD τ).loc main_arg8)) := by
  show StableHlo.after hostOps1 (W2 m ρ c) (Proc.devRef .tc main_v21) = _
  after_results
  rw [W2_of_ne m ρ c main_v21 (by decide)]
  show StableHlo.after hostOps0 (W0 m ρ c) (Proc.devRef .tc main_v21) = _
  after_results
  exact slice_rowsFrom 50 _ _ _
theorem at_main_v30 : V3 (F := Ideal) m ρ c main_v30 = Cert.Weave.rowMat (m ((c : Thread nD τ).loc main_arg9)) := by
  show StableHlo.after hostOps1 (W2 m ρ c) (Proc.devRef .tc main_v30) = _
  after_results
  rw [W2_of_ne m ρ c main_v30 (by decide)]
  show StableHlo.after hostOps0 (W0 m ρ c) (Proc.devRef .tc main_v30) = _
  after_results
  exact reshape_rowMat _ _

end Cert.Weave.AtomEntry

end
-- ==== Proof.AtomAgg.lean ====
/-
  What the atom region finds in its second operand when it is entered: the pair messages summed per atom — the host's scatter-add, started from zeros, of the pair region's first output at the atoms the split array names. The operation is kept whole: both programs apply it to the same index array.
-/
import proofs.«159579_j28982439313937_2_alg».proof.Proof.Gen.KernelIdeal.Frame
import proofs.«159579_j28982439313937_2_alg».proof.Proof.HostRead
import Idealize.ShloMosaic.Lib.StableHlo.Run

set_option maxRecDepth 16384

noncomputable section

namespace Cert.Weave.AtomAgg

open Cert.KernelIdeal Cert.KernelIdeal.Gen Cert.Weave.HostRead
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)
/-- The split array is untouched by the host operations before the pair region. -/
theorem split_kept : W1 (F := Ideal) m ρ c (Proc.devRef .tc main_arg2) = (m ((c : Thread nD τ).loc main_arg2)) := by
  show StableHlo.after hostOps0 (W0 m ρ c) (Proc.devRef .tc main_arg2) = _
  after_results

theorem at_main_v36 : V3 (F := Ideal) m ρ c main_v36
    = Host.scatterAdd scatter_S100000x50_S1600000x1_S1600000x50_1_0_0_1
        (broadcastInDim S100000x50 ![] bcast_S_S100000x50 (constant (F := Ideal) S_ .f32 0x00000000#32))
        (broadcastInDim S1600000x1 ![0] bcast_S1600000_S1600000x1_0 (m ((c : Thread nD τ).loc main_arg2)))
        ((dat0 (V1 m ρ) c).arrAt 13 cfg0.N) := by
  show StableHlo.after hostOps1 (W2 m ρ c) (Proc.devRef .tc main_v36) = _
  after_results
  refine (truncf_id _ _).trans ?_
  rw [W2_of_ne m ρ c main_arg2 (by decide), split_kept m ρ c,
    show W2 (F := Ideal) m ρ c (Proc.devRef .tc main_v32_0) = (dat0 (V1 m ρ) c).arrAt 13 cfg0.N from W2_arr m ρ c 13]

end Cert.Weave.AtomAgg

end
-- ==== Proof.KernelValue.lean ====
/-
  The idealized kernel program's two results as functions of its arguments.

  The last boundary's contents at the atom result are what the atom region's write-backs leave: the new atom
  features of the region's operands as it found them (`atom_array`). Those operands are the arguments through
  the host operations before the regions — and, for the aggregated pair messages, the host's scatter-add of what
  the pair region left in its first output, the pair-to-atom layer of the pair features (`pa_array`). The pair
  result is untouched by everything after the pair region, so it is what that region's write-backs leave: the new
  pair features (`pair_array`) of the pair features and the two end atoms' rows of the atom table.
-/
import proofs.«159579_j28982439313937_2_alg».proof.Proof.KernelRun
import proofs.«159579_j28982439313937_2_alg».proof.Proof.AtomRegion
import proofs.«159579_j28982439313937_2_alg».proof.Proof.PairRegion
import proofs.«159579_j28982439313937_2_alg».proof.Proof.PairEntryA
import proofs.«159579_j28982439313937_2_alg».proof.Proof.PairEntryB
import proofs.«159579_j28982439313937_2_alg».proof.Proof.AtomEntry
import proofs.«159579_j28982439313937_2_alg».proof.Proof.AtomAgg

set_option maxRecDepth 16384

noncomputable section

namespace Cert.Weave.KernelValue

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

/-- The new atom features, from the arguments. -/
theorem atoms : W4 (F := Ideal) m ρ c (Proc.devRef .tc main_v37)
    = Cert.Weave.atomTop (m ((c : Thread nD τ).loc main_arg0))
        (Host.scatterAdd scatter_S100000x50_S1600000x1_S1600000x50_1_0_0_1
          (broadcastInDim S100000x50 ![] bcast_S_S100000x50 (constant (F := Ideal) S_ .f32 0x00000000#32))
          (broadcastInDim S1600000x1 ![0] bcast_S1600000_S1600000x1_0 (m ((c : Thread nD τ).loc main_arg2)))
          (Cert.Weave.paTop (m ((c : Thread nD τ).loc main_arg1)) (m ((c : Thread nD τ).loc main_arg6)) (m ((c : Thread nD τ).loc main_arg7))))
        (m ((c : Thread nD τ).loc main_arg4)) (m ((c : Thread nD τ).loc main_arg5)) (m ((c : Thread nD τ).loc main_arg8)) (m ((c : Thread nD τ).loc main_arg9)) := by
  rw [show W4 (F := Ideal) m ρ c (Proc.devRef .tc main_v37) = (dat1 (V3 m ρ) c).arrAt 7 cfg1.N from W4_arr m ρ c 7,
    Cert.Weave.AtomRegion.atom_array (V3 m ρ) c,
    Cert.Weave.AtomEntry.at_main_v4, Cert.Weave.AtomAgg.at_main_v36, Cert.Weave.AtomEntry.at_main_arg4,
    Cert.Weave.AtomEntry.at_main_v26, Cert.Weave.AtomEntry.at_main_v20, Cert.Weave.AtomEntry.at_main_v21,
    Cert.Weave.AtomEntry.at_main_v30,
    Cert.Weave.PairRegion.pa_array (V1 m ρ) c,
    Cert.Weave.PairEntryA.at_main_v5, Cert.Weave.PairEntryA.at_main_arg6, Cert.Weave.PairEntryA.at_main_v27]
  rfl

/-- The new pair features, from the arguments. -/
theorem pairs : W4 (F := Ideal) m ρ c (Proc.devRef .tc main_v32_1)
    = Cert.Weave.pairTop (m ((c : Thread nD τ).loc main_arg0)) (m ((c : Thread nD τ).loc main_arg1)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [W4_of_ne m ρ c main_v32_1 (by decide)]
  show StableHlo.after hostOps1 (W2 m ρ c) (Proc.devRef .tc main_v32_1) = _
  after_results
  rw [show W2 (F := Ideal) m ρ c (Proc.devRef .tc main_v32_1) = (dat0 (V1 m ρ) c).arrAt 14 cfg0.N from W2_arr m ρ c 14,
    Cert.Weave.PairRegion.pair_array (V1 m ρ) c,
    Cert.Weave.PairEntryA.at_main_v5, Cert.Weave.PairEntryA.at_main_v12, Cert.Weave.PairEntryA.at_main_v19,
    Cert.Weave.PairEntryA.at_main_arg12, Cert.Weave.PairEntryA.at_main_v28,
    Cert.Weave.PairEntryB.at_main_v22, Cert.Weave.PairEntryB.at_main_v23, Cert.Weave.PairEntryB.at_main_v29,
    Cert.Weave.PairEntryB.at_main_v24, Cert.Weave.PairEntryB.at_main_v25, Cert.Weave.PairEntryB.at_main_v31]
  rfl

/-- Every weakly fair execution of the idealized kernel program terminates, nothing faulting, with the new atom
    and pair features of its arguments in its two results and the arguments as launched. -/
theorem run : θ_run defs (onTc (τ := τ) (main (F := Ideal))) ⟨m, fun _ => 0, ρ⟩ (fun r => ∀ c : Dev nD,
      r.2.mem ((c.tc : Thread nD τ).loc main_v37)
        = Cert.Weave.atomTop (m ((c.tc : Thread nD τ).loc main_arg0))
        (Host.scatterAdd scatter_S100000x50_S1600000x1_S1600000x50_1_0_0_1
          (broadcastInDim S100000x50 ![] bcast_S_S100000x50 (constant (F := Ideal) S_ .f32 0x00000000#32))
          (broadcastInDim S1600000x1 ![0] bcast_S1600000_S1600000x1_0 (m ((c.tc : Thread nD τ).loc main_arg2)))
          (Cert.Weave.paTop (m ((c.tc : Thread nD τ).loc main_arg1)) (m ((c.tc : Thread nD τ).loc main_arg6)) (m ((c.tc : Thread nD τ).loc main_arg7))))
        (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_v32_1)
        = Cert.Weave.pairTop (m ((c.tc : Thread nD τ).loc main_arg0)) (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (atoms m ρ c), (h c).2.1.trans (pairs m ρ c), (h c).2.2⟩)
    (Cert.KernelIdeal.RunValues.run (F := Ideal) m ρ)

end Cert.Weave.KernelValue

end
-- ==== Proof.RefSide.lean ====
/-
  The reference program's stages, read as the layer's mathematics: each dense stage of the program is the
  specification's dense layer of the same operands, a product with a concatenation of two feature stretches is the sum
  of the two stretches' products, and a gathered row is the row of the atom table its row number selects.
-/
import proofs.«159579_j28982439313937_2_alg».proof.Proof.Gen.ReferenceIdeal.Read
import proofs.«159579_j28982439313937_2_alg».proof.Proof.Spec

noncomputable section

open scoped BigOperators

namespace Cert.Weave.Ref

open Cert.ReferenceIdeal Cert.ReferenceIdeal.Gen Idealize.ShloMosaic Idealize.ShloMosaic.TcCoe Idealize.SL.Sem
  Idealize.ShloMosaic.StableHlo Idealize.ShloMosaic.ValueIdx

/-! ## Small readings shared by the stages -/

/-- A sum over the contracted axis whose two index functions are row `r` of the left operand and column `h` of the
    right one is the specification's row-times-column product. -/
theorem sum_eq_dot {R K H : Nat} (x : Mat R K) (W : Mat K H) (r : Fin R) (h : Fin H)
    (li : Fin K → (⟨2, ![R, K]⟩ : Shape).Idx) (ri : Fin K → (⟨2, ![K, H]⟩ : Shape).Idx)
    (hl : ∀ k, li k = ix2 r k) (hr : ∀ k, ri k = ix2 k h) :
    ∑ k : Fin K, x (li k) * W (ri k) = dot x W r h := by
  unfold dot
  exact Finset.sum_congr rfl fun k _ => by rw [hl k, hr k]

/-! A bias vector broadcast to one row and then to every row reads, at column `h`, the vector's entry `h`. -/

theorem bias_v2 (x5 : (⟨S50, .f32⟩ : BufTy).Contents (Elt Ideal)) (r : Fin 100000) (h : Fin 50) :
    Read.val_main_v2 (F := Ideal) x5 (ix2 r h) = rowMat x5 (ix2 0 h) := by
  rw [Read.val_main_v2_apply, Read.val_main_v1_apply]
  show x5 _ = x5 _
  refine congrArg x5 (funext fun a => Fin.ext ?_)
  match a with
  | ⟨0, _⟩ => rfl

theorem bias_v7 (x7 : (⟨S50, .f32⟩ : BufTy).Contents (Elt Ideal)) (r : Fin 1600000) (h : Fin 50) :
    Read.val_main_v7 (F := Ideal) x7 (ix2 r h) = rowMat x7 (ix2 0 h) := by
  rw [Read.val_main_v7_apply, Read.val_main_v6_apply]
  show x7 _ = x7 _
  refine congrArg x7 (funext fun a => Fin.ext ?_)
  match a with
  | ⟨0, _⟩ => rfl

theorem bias_v16 (x9 : (⟨S50, .f32⟩ : BufTy).Contents (Elt Ideal)) (r : Fin 100000) (h : Fin 50) :
    Read.val_main_v16 (F := Ideal) x9 (ix2 r h) = rowMat x9 (ix2 0 h) := by
  rw [Read.val_main_v16_apply, Read.val_main_v15_apply]
  show x9 _ = x9 _
  refine congrArg x9 (funext fun a => Fin.ext ?_)
  match a with
  | ⟨0, _⟩ => rfl

theorem bias_v38 (x11 : (⟨S50, .f32⟩ : BufTy).Contents (Elt Ideal)) (r : Fin 1600000) (h : Fin 50) :
    Read.val_main_v38 (F := Ideal) x11 (ix2 r h) = rowMat x11 (ix2 0 h) := by
  rw [Read.val_main_v38_apply, Read.val_main_v37_apply]
  show x11 _ = x11 _
  refine congrArg x11 (funext fun a => Fin.ext ?_)
  match a with
  | ⟨0, _⟩ => rfl

theorem bias_v43 (x11 : (⟨S50, .f32⟩ : BufTy).Contents (Elt Ideal)) (r : Fin 1600000) (h : Fin 50) :
    Read.val_main_v43 (F := Ideal) x11 (ix2 r h) = rowMat x11 (ix2 0 h) := by
  rw [Read.val_main_v43_apply, Read.val_main_v42_apply]
  show x11 _ = x11 _
  refine congrArg x11 (funext fun a => Fin.ext ?_)
  match a with
  | ⟨0, _⟩ => rfl

theorem bias_v49 (x13 : (⟨S50, .f32⟩ : BufTy).Contents (Elt Ideal)) (r : Fin 1600000) (h : Fin 50) :
    Read.val_main_v49 (F := Ideal) x13 (ix2 r h) = rowMat x13 (ix2 0 h) := by
  rw [Read.val_main_v49_apply, Read.val_main_v48_apply]
  show x13 _ = x13 _
  refine congrArg x13 (funext fun a => Fin.ext ?_)
  match a with
  | ⟨0, _⟩ => rfl

theorem bias_v55 (x15 : (⟨S50, .f32⟩ : BufTy).Contents (Elt Ideal)) (r : Fin 1600000) (h : Fin 50) :
    Read.val_main_v55 (F := Ideal) x15 (ix2 r h) = rowMat x15 (ix2 0 h) := by
  rw [Read.val_main_v55_apply, Read.val_main_v54_apply]
  show x15 _ = x15 _
  refine congrArg x15 (funext fun a => Fin.ext ?_)
  match a with
  | ⟨0, _⟩ => rfl

/-! The rectifier's zero, broadcast from a scalar, is the zero word at every index. -/

theorem zero_call0 (i : S100000x50.Idx) : Read.val_main_call0_v0 (F := Ideal) i = zeroLit := by
  rw [Read.val_main_call0_v0_apply]; rfl

theorem zero_call1 (i : S1600000x50.Idx) : Read.val_main_call1_v0 (F := Ideal) i = zeroLit := by
  rw [Read.val_main_call1_v0_apply]; rfl

theorem zero_call2 (i : S100000x50.Idx) : Read.val_main_call2_v0 (F := Ideal) i = zeroLit := by
  rw [Read.val_main_call2_v0_apply]; rfl

theorem zero_call3 (i : S1600000x50.Idx) : Read.val_main_call3_v0 (F := Ideal) i = zeroLit := by
  rw [Read.val_main_call3_v0_apply]; rfl

theorem zero_call4 (i : S1600000x50.Idx) : Read.val_main_call4_v0 (F := Ideal) i = zeroLit := by
  rw [Read.val_main_call4_v0_apply]; rfl

theorem zero_call5 (i : S1600000x50.Idx) : Read.val_main_call5_v0 (F := Ideal) i = zeroLit := by
  rw [Read.val_main_call5_v0_apply]; rfl

theorem zero_call6 (i : S1600000x50.Idx) : Read.val_main_call6_v0 (F := Ideal) i = zeroLit := by
  rw [Read.val_main_call6_v0_apply]; rfl

/-! ## A concatenation of two stretches of 50 columns, read at a column of either stretch -/

theorem cat_left {R : Nat} (hc : Shape.Concatenates [(⟨2, ![R, 50]⟩ : Shape), ⟨2, ![R, 50]⟩] ⟨2, ![R, 100]⟩ 1)
    (A B : Mat R 50) (r : Fin R) (k : Fin 50) :
    concatenate (⟨2, ![R, 100]⟩ : Shape) 1 [⟨(⟨2, ![R, 50]⟩ : Shape), A⟩, ⟨(⟨2, ![R, 50]⟩ : Shape), B⟩] hc
      (ix2 r (Fin.castAdd 50 k)) = A (ix2 r k) :=
  concatenate_pair_apply_left 1 A B hc _ rfl (ix2 r k) (fun b => by
    match b with
    | ⟨0, _⟩ => rfl
    | ⟨1, _⟩ => rfl)

theorem cat_right {R : Nat} (hc : Shape.Concatenates [(⟨2, ![R, 50]⟩ : Shape), ⟨2, ![R, 50]⟩] ⟨2, ![R, 100]⟩ 1)
    (A B : Mat R 50) (r : Fin R) (k : Fin 50) :
    concatenate (⟨2, ![R, 100]⟩ : Shape) 1 [⟨(⟨2, ![R, 50]⟩ : Shape), A⟩, ⟨(⟨2, ![R, 50]⟩ : Shape), B⟩] hc
      (ix2 r (Fin.natAdd 50 k)) = B (ix2 r k) :=
  concatenate_pair_apply_right 1 A B hc _ rfl rfl (ix2 r k) (fun b hb => by
    match b with
    | ⟨0, _⟩ => rfl
    | ⟨1, _⟩ => exact absurd rfl hb) (by show k.val + 50 = 50 + k.val; omega)

/-- Row `k` of the rows of `W` from row `off` on is row `off + k` of `W`. -/
theorem rows_from {N K H : Nat} (off : Nat) (hoff : off + K ≤ N) (W : Mat N H) (k : Fin K) (h : Fin H) (k' : Fin N)
    (hk : k'.val = off + k.val) : W (ix2 k' h) = rowsFrom off hoff W (ix2 k h) := by
  show W _ = W _
  refine congrArg W (funext fun a => Fin.ext ?_)
  match a with
  | ⟨0, _⟩ => exact hk
  | ⟨1, _⟩ => rfl

/-! ## The three plain dense stages -/

/-- The atoms' own dense layer. -/
theorem ref_AA (x0 : (⟨S100000x75, .f32⟩ : BufTy).Contents (Elt Ideal)) (x4 : (⟨S75x50, .f32⟩ : BufTy).Contents (Elt Ideal)) (x5 : (⟨S50, .f32⟩ : BufTy).Contents (Elt Ideal)) (r : Fin 100000) (h : Fin 50) :
    Read.val_main_v4 (F := Ideal) x0 x4 x5 (ix2 r h) = dense x0 x4 (rowMat x5) (ix2 r h) := by
  rw [Read.val_main_v4_apply, Read.val_main_v3_apply, Read.val_main_v0_apply, bias_v2, zero_call0]
  rw [sum_eq_dot x0 x4 r h (Read.lidx_main_v0 (ix2 r h)) (Read.ridx_main_v0 (ix2 r h))
    (fun k => funext fun a => Fin.ext (by
    match a with
    | ⟨0, _⟩ => rfl
    | ⟨1, _⟩ => rfl)) (fun k => funext fun a => Fin.ext (by
    match a with
    | ⟨0, _⟩ => rfl
    | ⟨1, _⟩ => rfl))]
  rfl

/-- The pair-to-atom message of every pair, before aggregation. -/
theorem ref_PA (x1 : (⟨S1600000x14, .f32⟩ : BufTy).Contents (Elt Ideal)) (x6 : (⟨S14x50, .f32⟩ : BufTy).Contents (Elt Ideal)) (x7 : (⟨S50, .f32⟩ : BufTy).Contents (Elt Ideal)) (r : Fin 1600000) (h : Fin 50) :
    Read.val_main_v9 (F := Ideal) x1 x6 x7 (ix2 r h) = dense x1 x6 (rowMat x7) (ix2 r h) := by
  rw [Read.val_main_v9_apply, Read.val_main_v8_apply, Read.val_main_v5_apply, bias_v7, zero_call1]
  rw [sum_eq_dot x1 x6 r h (Read.lidx_main_v5 (ix2 r h)) (Read.ridx_main_v5 (ix2 r h))
    (fun k => funext fun a => Fin.ext (by
    match a with
    | ⟨0, _⟩ => rfl
    | ⟨1, _⟩ => rfl)) (fun k => funext fun a => Fin.ext (by
    match a with
    | ⟨0, _⟩ => rfl
    | ⟨1, _⟩ => rfl))]
  rfl

/-- The pairs' own dense layer. -/
theorem ref_PP (x1 : (⟨S1600000x14, .f32⟩ : BufTy).Contents (Elt Ideal)) (x12 : (⟨S14x50, .f32⟩ : BufTy).Contents (Elt Ideal)) (x13 : (⟨S50, .f32⟩ : BufTy).Contents (Elt Ideal)) (r : Fin 1600000) (h : Fin 50) :
    Read.val_main_v51 (F := Ideal) x1 x12 x13 (ix2 r h) = dense x1 x12 (rowMat x13) (ix2 r h) := by
  rw [Read.val_main_v51_apply, Read.val_main_v50_apply, Read.val_main_v47_apply, bias_v49, zero_call5]
  rw [sum_eq_dot x1 x12 r h (Read.lidx_main_v47 (ix2 r h)) (Read.ridx_main_v47 (ix2 r h))
    (fun k => funext fun a => Fin.ext (by
    match a with
    | ⟨0, _⟩ => rfl
    | ⟨1, _⟩ => rfl)) (fun k => funext fun a => Fin.ext (by
    match a with
    | ⟨0, _⟩ => rfl
    | ⟨1, _⟩ => rfl))]
  rfl

theorem ref_pa (x1 : (⟨S1600000x14, .f32⟩ : BufTy).Contents (Elt Ideal)) (x6 : (⟨S14x50, .f32⟩ : BufTy).Contents (Elt Ideal)) (x7 : (⟨S50, .f32⟩ : BufTy).Contents (Elt Ideal)) :
    Read.val_main_v9 (F := Ideal) x1 x6 x7 = paTop x1 x6 x7 := by
  funext i
  obtain ⟨r, h, rfl⟩ : ∃ (r : Fin 1600000) (h : Fin 50), i = ix2 r h := ⟨i 0, i 1, eq_ix2 i⟩
  exact ref_PA x1 x6 x7 r h

/-! ## The new atom features -/

theorem ref_atoms (x0 : (⟨S100000x75, .f32⟩ : BufTy).Contents (Elt Ideal)) (x1 : (⟨S1600000x14, .f32⟩ : BufTy).Contents (Elt Ideal)) (x2 : (⟨S1600000, .i32⟩ : BufTy).Contents (Elt Ideal)) (x4 : (⟨S75x50, .f32⟩ : BufTy).Contents (Elt Ideal)) (x5 : (⟨S50, .f32⟩ : BufTy).Contents (Elt Ideal)) (x6 : (⟨S14x50, .f32⟩ : BufTy).Contents (Elt Ideal)) (x7 : (⟨S50, .f32⟩ : BufTy).Contents (Elt Ideal)) (x8 : (⟨S100x50, .f32⟩ : BufTy).Contents (Elt Ideal)) (x9 : (⟨S50, .f32⟩ : BufTy).Contents (Elt Ideal)) :
    Read.val_main_v18 (F := Ideal) x0 x1 x2 x4 x5 x6 x7 x8 x9
      = atomTop x0 (Read.val_main_v12 (F := Ideal) x1 x2 x6 x7) x4 x5 x8 x9 := by
  funext i
  obtain ⟨r, h, rfl⟩ : ∃ (r : Fin 100000) (h : Fin 50), i = ix2 r h := ⟨i 0, i 1, eq_ix2 i⟩
  rw [Read.val_main_v18_apply, Read.val_main_v17_apply, Read.val_main_v14_apply, bias_v16, zero_call2]
  have hz : (∑ k : Fin 100, Read.val_main_v13 (F := Ideal) x0 x1 x2 x4 x5 x6 x7 (Read.lidx_main_v14 (ix2 r h) k)
        * x8 (Read.ridx_main_v14 (ix2 r h) k))
      = dot (K := 50 + 50) (Read.val_main_v13 (F := Ideal) x0 x1 x2 x4 x5 x6 x7) x8 r h :=
    sum_eq_dot (K := 50 + 50) _ x8 r h (Read.lidx_main_v14 (ix2 r h)) (Read.ridx_main_v14 (ix2 r h))
      (fun k => funext fun a => Fin.ext (by
    match a with
    | ⟨0, _⟩ => rfl
    | ⟨1, _⟩ => rfl)) (fun k => funext fun a => Fin.ext (by
    match a with
    | ⟨0, _⟩ => rfl
    | ⟨1, _⟩ => rfl))
  have hx : ∀ k : Fin 50, Read.val_main_v13 (F := Ideal) x0 x1 x2 x4 x5 x6 x7 (ix2 r (Fin.castAdd 50 k))
      = dense x0 x4 (rowMat x5) (ix2 r k) := fun k =>
    (cat_left concatenates_S100000x50_S100000x50_S100000x100_d1 _ _ r k).trans (ref_AA x0 x4 x5 r k)
  have hy : ∀ k : Fin 50, Read.val_main_v13 (F := Ideal) x0 x1 x2 x4 x5 x6 x7 (ix2 r (Fin.natAdd 50 k))
      = Read.val_main_v12 (F := Ideal) x1 x2 x6 x7 (ix2 r k) := fun k =>
    cat_right concatenates_S100000x50_S100000x50_S100000x100_d1 _ _ r k
  have hs := dot_split (K1 := 50) (K2 := 50) (Read.val_main_v13 (F := Ideal) x0 x1 x2 x4 x5 x6 x7) x8
    (dense x0 x4 (rowMat x5)) (Read.val_main_v12 (F := Ideal) x1 x2 x6 x7) (rowsFrom 0 (by decide) x8)
    (rowsFrom 50 (by decide) x8) r h hx hy
    (fun k => rows_from 0 _ x8 k h _ (by show k.val = 0 + k.val; omega)) (fun k => rows_from 50 _ x8 k h _ rfl)
  rw [hz, hs]
  rfl

/-! ## Row numbers as indexing hands them over -/

/-- A negative row number counts from the end: the program's compare, add and select at an index. -/
theorem wrap_v23 (x3 : (⟨S1600000x2, .i32⟩ : BufTy).Contents (Elt Ideal)) (i : S1600000x2.Idx) : Read.val_main_v23 (F := Ideal) x3 i = wrapIdx (x3 i) := by
  rw [Read.val_main_v23_apply, Read.val_main_v20_apply, Read.val_main_v22_apply, Read.val_main_v19_apply,
    Read.val_main_v21_apply]
  rfl

/-- The pair's two end atoms in the other order: the reversal along the axis of length 2. -/
theorem rev_v27 (x3 : (⟨S1600000x2, .i32⟩ : BufTy).Contents (Elt Ideal)) (p : Fin 1600000) (j : Fin 2) :
    Read.val_main_v27 (F := Ideal) x3 (ix2 p j) = x3 (ix2 p j.rev) := by
  unfold Read.val_main_v27 Host.reverse
  refine congrArg x3 (funext fun a => ?_)
  match a with
  | ⟨0, _⟩ => exact if_neg (show ¬ ((0 : Fin 2) ∈ ([1] : List (Fin 2))) by decide)
  | ⟨1, _⟩ => exact if_pos (show (1 : Fin 2) ∈ ([1] : List (Fin 2)) by decide)

theorem wrap_v32 (x3 : (⟨S1600000x2, .i32⟩ : BufTy).Contents (Elt Ideal)) (p : Fin 1600000) (j : Fin 2) :
    Read.val_main_v32 (F := Ideal) x3 (ix2 p j) = wrapIdx (x3 (ix2 p j.rev)) := by
  rw [Read.val_main_v32_apply, Read.val_main_v29_apply, Read.val_main_v31_apply, Read.val_main_v28_apply,
    Read.val_main_v30_apply, rev_v27]
  rfl

theorem idx_v24 (x3 : (⟨S1600000x2, .i32⟩ : BufTy).Contents (Elt Ideal)) (p : Fin 1600000) (j : Fin 2) :
    Read.val_main_v24 (F := Ideal) x3 (ix3 p j (0 : Fin 1)) = wrapIdx (x3 (ix2 p j)) := by
  rw [Read.val_main_v24_apply]
  have e : Read.idx_main_v24 (ix3 p j (0 : Fin 1)) = ix2 p j := funext fun a => Fin.ext (by
    match a with
    | ⟨0, _⟩ => rfl
    | ⟨1, _⟩ => rfl)
  rw [e, wrap_v23]

theorem idx_v33 (x3 : (⟨S1600000x2, .i32⟩ : BufTy).Contents (Elt Ideal)) (p : Fin 1600000) (j : Fin 2) :
    Read.val_main_v33 (F := Ideal) x3 (ix3 p j (0 : Fin 1)) = wrapIdx (x3 (ix2 p j.rev)) := by
  rw [Read.val_main_v33_apply]
  have e : Read.idx_main_v33 (ix3 p j (0 : Fin 1)) = ix2 p j := funext fun a => Fin.ext (by
    match a with
    | ⟨0, _⟩ => rfl
    | ⟨1, _⟩ => rfl)
  rw [e, wrap_v32]

/-! ## Gathering rows of the atom table -/

/-- The gather of whole rows of a table of 100000 rows at a `[1600000, 2, 1]` array of row numbers: element
    `(p, j, k)` is column `k` of the row whose number is at `(p, j, 0)`, read signed and clamped into the table. -/
theorem gather_row {α : Type} {w : Nat} (x : S100000x75.Idx → α) (idx : IVec S1600000x2x1 w) (p : Fin 1600000) (j : Fin 2)
    (k : Fin 75) :
    Host.gather gather_S100000x75_S1600000x2x1_S1600000x2x75_2_0_n_n_0_2_175 x idx (ix3 p j k)
      = x (ix2 ⟨min (idx (ix3 p j (0 : Fin 1))).toInt.toNat 99999, by omega⟩ k) := by
  unfold Host.gather
  refine congrArg x (funext fun a => Fin.ext ?_)
  match a with
  | ⟨0, _⟩ =>
    show gather_S100000x75_S1600000x2x1_S1600000x2x75_2_0_n_n_0_2_175.start (ix3 p j k) idx 0 + gather_S100000x75_S1600000x2x1_S1600000x2x75_2_0_n_n_0_2_175.batchCoord (ix3 p j k) 0
      + gather_S100000x75_S1600000x2x1_S1600000x2x75_2_0_n_n_0_2_175.offCoord (ix3 p j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x75_S1600000x2x1_S1600000x2x75_2_0_n_n_0_2_175.startIndexMap from List.mem_singleton.mpr rfl)]
    have hsi : gather_S100000x75_S1600000x2x1_S1600000x2x75_2_0_n_n_0_2_175.siIdx (ix3 p j k) ⟨List.idxOf (0 : Fin 2) gather_S100000x75_S1600000x2x1_S1600000x2x75_2_0_n_n_0_2_175.startIndexMap,
        List.idxOf_lt_length_iff.2 (List.mem_singleton.mpr rfl)⟩ = ix3 p j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100000x75_S1600000x2x1_S1600000x2x75_2_0_n_n_0_2_175.start (ix3 p j k) idx 1 + gather_S100000x75_S1600000x2x1_S1600000x2x75_2_0_n_n_0_2_175.batchCoord (ix3 p j k) 1
      + gather_S100000x75_S1600000x2x1_S1600000x2x75_2_0_n_n_0_2_175.offCoord (ix3 p j k) 1 = k.val
    rw [GatherDims.batchCoord_eq_zero _ _ _ List.not_mem_nil]
    unfold GatherDims.start
    rw [dif_neg (show ¬ (1 : Fin 2) ∈ gather_S100000x75_S1600000x2x1_S1600000x2x75_2_0_n_n_0_2_175.startIndexMap by decide)]
    unfold GatherDims.offCoord
    rw [dif_pos (show (1 : Fin 2) ∈ gather_S100000x75_S1600000x2x1_S1600000x2x75_2_0_n_n_0_2_175.sKept by decide)]
    simp only [Nat.add_zero, Nat.zero_add]
    rfl

/-- End atom `j` of every pair, as the program gathers it. -/
theorem v25_at (x0 : (⟨S100000x75, .f32⟩ : BufTy).Contents (Elt Ideal)) (x3 : (⟨S1600000x2, .i32⟩ : BufTy).Contents (Elt Ideal)) (p : Fin 1600000) (j : Fin 2) (k : Fin 75) :
    Read.val_main_v25 (F := Ideal) x0 x3 (ix3 p j k) = endAtom x0 x3 j (ix2 p k) := by
  unfold Read.val_main_v25
  rw [gather_row]
  show x0 _ = x0 _
  refine congrArg x0 (funext fun a => Fin.ext ?_)
  match a with
  | ⟨0, _⟩ =>
    show min (BitVec.toInt (Read.val_main_v24 (F := Ideal) x3 (ix3 p j (0 : Fin 1)))).toNat 99999
      = min (BitVec.toInt (wrapIdx (x3 (ix2 p j)))).toNat 99999
    rw [idx_v24]
  | ⟨1, _⟩ => rfl

/-- The same from the reversed row numbers: end atom `1 - j`. -/
theorem v34_at (x0 : (⟨S100000x75, .f32⟩ : BufTy).Contents (Elt Ideal)) (x3 : (⟨S1600000x2, .i32⟩ : BufTy).Contents (Elt Ideal)) (p : Fin 1600000) (j : Fin 2) (k : Fin 75) :
    Read.val_main_v34 (F := Ideal) x0 x3 (ix3 p j k) = endAtom x0 x3 j.rev (ix2 p k) := by
  unfold Read.val_main_v34
  rw [gather_row]
  show x0 _ = x0 _
  refine congrArg x0 (funext fun a => Fin.ext ?_)
  match a with
  | ⟨0, _⟩ =>
    show min (BitVec.toInt (Read.val_main_v33 (F := Ideal) x3 (ix3 p j (0 : Fin 1)))).toNat 99999
      = min (BitVec.toInt (wrapIdx (x3 (ix2 p j.rev)))).toNat 99999
    rw [idx_v33]
  | ⟨1, _⟩ => rfl

/-! ## The gathered rows laid side by side: columns 0–74 are end atom 0's features, columns 75–149 end atom 1's -/

theorem aij_left (x0 : (⟨S100000x75, .f32⟩ : BufTy).Contents (Elt Ideal)) (x3 : (⟨S1600000x2, .i32⟩ : BufTy).Contents (Elt Ideal)) (p : Fin 1600000) (k : Fin 75) :
    Read.val_main_v26 (F := Ideal) x0 x3 (ix2 p (Fin.castAdd 75 k)) = endAtom x0 x3 0 (ix2 p k) := by
  rw [Read.val_main_v26_apply]
  have e : Read.idx_main_v26 (ix2 p (Fin.castAdd 75 k)) = ix3 p (0 : Fin 2) k := funext fun a => Fin.ext (by
    have hk := k.isLt
    match a with
    | ⟨0, _⟩ => show (p.val * 150 + k.val) / 150 = p.val; omega
    | ⟨1, _⟩ => show (p.val * 150 + k.val) / 75 % 2 = 0; omega
    | ⟨2, _⟩ => show (p.val * 150 + k.val) % 75 = k.val; omega)
  rw [e, v25_at]

theorem aij_right (x0 : (⟨S100000x75, .f32⟩ : BufTy).Contents (Elt Ideal)) (x3 : (⟨S1600000x2, .i32⟩ : BufTy).Contents (Elt Ideal)) (p : Fin 1600000) (k : Fin 75) :
    Read.val_main_v26 (F := Ideal) x0 x3 (ix2 p (Fin.natAdd 75 k)) = endAtom x0 x3 1 (ix2 p k) := by
  rw [Read.val_main_v26_apply]
  have e : Read.idx_main_v26 (ix2 p (Fin.natAdd 75 k)) = ix3 p (1 : Fin 2) k := funext fun a => Fin.ext (by
    have hk := k.isLt
    match a with
    | ⟨0, _⟩ => show (p.val * 150 + (75 + k.val)) / 150 = p.val; omega
    | ⟨1, _⟩ => show (p.val * 150 + (75 + k.val)) / 75 % 2 = 1; omega
    | ⟨2, _⟩ => show (p.val * 150 + (75 + k.val)) % 75 = k.val; omega)
  rw [e, v25_at]

theorem aji_left (x0 : (⟨S100000x75, .f32⟩ : BufTy).Contents (Elt Ideal)) (x3 : (⟨S1600000x2, .i32⟩ : BufTy).Contents (Elt Ideal)) (p : Fin 1600000) (k : Fin 75) :
    Read.val_main_v35 (F := Ideal) x0 x3 (ix2 p (Fin.castAdd 75 k)) = endAtom x0 x3 1 (ix2 p k) := by
  rw [Read.val_main_v35_apply]
  have e : Read.idx_main_v35 (ix2 p (Fin.castAdd 75 k)) = ix3 p (0 : Fin 2) k := funext fun a => Fin.ext (by
    have hk := k.isLt
    match a with
    | ⟨0, _⟩ => show (p.val * 150 + k.val) / 150 = p.val; omega
    | ⟨1, _⟩ => show (p.val * 150 + k.val) / 75 % 2 = 0; omega
    | ⟨2, _⟩ => show (p.val * 150 + k.val) % 75 = k.val; omega)
  rw [e, v34_at]
  rfl

theorem aji_right (x0 : (⟨S100000x75, .f32⟩ : BufTy).Contents (Elt Ideal)) (x3 : (⟨S1600000x2, .i32⟩ : BufTy).Contents (Elt Ideal)) (p : Fin 1600000) (k : Fin 75) :
    Read.val_main_v35 (F := Ideal) x0 x3 (ix2 p (Fin.natAdd 75 k)) = endAtom x0 x3 0 (ix2 p k) := by
  rw [Read.val_main_v35_apply]
  have e : Read.idx_main_v35 (ix2 p (Fin.natAdd 75 k)) = ix3 p (1 : Fin 2) k := funext fun a => Fin.ext (by
    have hk := k.isLt
    match a with
    | ⟨0, _⟩ => show (p.val * 150 + (75 + k.val)) / 150 = p.val; omega
    | ⟨1, _⟩ => show (p.val * 150 + (75 + k.val)) / 75 % 2 = 1; omega
    | ⟨2, _⟩ => show (p.val * 150 + (75 + k.val)) % 75 = k.val; omega)
  rw [e, v34_at]
  rfl

/-! ## The end atoms' layer, in both orders -/

/-- The layer on end atom 0's features beside end atom 1's. -/
theorem ref_AP_ij (x0 : (⟨S100000x75, .f32⟩ : BufTy).Contents (Elt Ideal)) (x3 : (⟨S1600000x2, .i32⟩ : BufTy).Contents (Elt Ideal)) (x10 : (⟨S150x50, .f32⟩ : BufTy).Contents (Elt Ideal)) (x11 : (⟨S50, .f32⟩ : BufTy).Contents (Elt Ideal)) (p : Fin 1600000) (h : Fin 50) :
    Read.val_main_v40 (F := Ideal) x0 x3 x10 x11 (ix2 p h)
      = relu (pre2 (endAtom x0 x3 0) (endAtom x0 x3 1) (rowsFrom 0 (by decide) x10) (rowsFrom 75 (by decide) x10)
          (rowMat x11) p h) := by
  rw [Read.val_main_v40_apply, Read.val_main_v39_apply, Read.val_main_v36_apply, bias_v38, zero_call3]
  have hz : (∑ k : Fin 150, Read.val_main_v26 (F := Ideal) x0 x3 (Read.lidx_main_v36 (ix2 p h) k)
        * x10 (Read.ridx_main_v36 (ix2 p h) k))
      = dot (K := 75 + 75) (Read.val_main_v26 (F := Ideal) x0 x3) x10 p h :=
    sum_eq_dot (K := 75 + 75) _ x10 p h (Read.lidx_main_v36 (ix2 p h)) (Read.ridx_main_v36 (ix2 p h))
      (fun k => funext fun a => Fin.ext (by
    match a with
    | ⟨0, _⟩ => rfl
    | ⟨1, _⟩ => rfl)) (fun k => funext fun a => Fin.ext (by
    match a with
    | ⟨0, _⟩ => rfl
    | ⟨1, _⟩ => rfl))
  have hs := dot_split (K1 := 75) (K2 := 75) (Read.val_main_v26 (F := Ideal) x0 x3) x10
    (endAtom x0 x3 0) (endAtom x0 x3 1) (rowsFrom 0 (by decide) x10) (rowsFrom 75 (by decide) x10) p h
    (fun k => aij_left x0 x3 p k) (fun k => aij_right x0 x3 p k)
    (fun k => rows_from 0 _ x10 k h _ (by show k.val = 0 + k.val; omega)) (fun k => rows_from 75 _ x10 k h _ rfl)
  rw [hz, hs]
  rfl

/-- The layer on end atom 1's features beside end atom 0's. -/
theorem ref_AP_ji (x0 : (⟨S100000x75, .f32⟩ : BufTy).Contents (Elt Ideal)) (x3 : (⟨S1600000x2, .i32⟩ : BufTy).Contents (Elt Ideal)) (x10 : (⟨S150x50, .f32⟩ : BufTy).Contents (Elt Ideal)) (x11 : (⟨S50, .f32⟩ : BufTy).Contents (Elt Ideal)) (p : Fin 1600000) (h : Fin 50) :
    Read.val_main_v45 (F := Ideal) x0 x3 x10 x11 (ix2 p h)
      = relu (pre2 (endAtom x0 x3 1) (endAtom x0 x3 0) (rowsFrom 0 (by decide) x10) (rowsFrom 75 (by decide) x10)
          (rowMat x11) p h) := by
  rw [Read.val_main_v45_apply, Read.val_main_v44_apply, Read.val_main_v41_apply, bias_v43, zero_call4]
  have hz : (∑ k : Fin 150, Read.val_main_v35 (F := Ideal) x0 x3 (Read.lidx_main_v41 (ix2 p h) k)
        * x10 (Read.ridx_main_v41 (ix2 p h) k))
      = dot (K := 75 + 75) (Read.val_main_v35 (F := Ideal) x0 x3) x10 p h :=
    sum_eq_dot (K := 75 + 75) _ x10 p h (Read.lidx_main_v41 (ix2 p h)) (Read.ridx_main_v41 (ix2 p h))
      (fun k => funext fun a => Fin.ext (by
    match a with
    | ⟨0, _⟩ => rfl
    | ⟨1, _⟩ => rfl)) (fun k => funext fun a => Fin.ext (by
    match a with
    | ⟨0, _⟩ => rfl
    | ⟨1, _⟩ => rfl))
  have hs := dot_split (K1 := 75) (K2 := 75) (Read.val_main_v35 (F := Ideal) x0 x3) x10
    (endAtom x0 x3 1) (endAtom x0 x3 0) (rowsFrom 0 (by decide) x10) (rowsFrom 75 (by decide) x10) p h
    (fun k => aji_left x0 x3 p k) (fun k => aji_right x0 x3 p k)
    (fun k => rows_from 0 _ x10 k h _ (by show k.val = 0 + k.val; omega)) (fun k => rows_from 75 _ x10 k h _ rfl)
  rw [hz, hs]
  rfl

/-- The symmetrized message of a pair's two end atoms. -/
theorem ref_AP (x0 : (⟨S100000x75, .f32⟩ : BufTy).Contents (Elt Ideal)) (x3 : (⟨S1600000x2, .i32⟩ : BufTy).Contents (Elt Ideal)) (x10 : (⟨S150x50, .f32⟩ : BufTy).Contents (Elt Ideal)) (x11 : (⟨S50, .f32⟩ : BufTy).Contents (Elt Ideal)) (p : Fin 1600000) (h : Fin 50) :
    Read.val_main_v46 (F := Ideal) x0 x3 x10 x11 (ix2 p h)
      = pairSym (endAtom x0 x3 0) (endAtom x0 x3 1) (rowsFrom 0 (by decide) x10) (rowsFrom 75 (by decide) x10) (rowMat x11)
          (ix2 p h) := by
  rw [Read.val_main_v46_apply, ref_AP_ij, ref_AP_ji]
  rfl

/-! ## The new pair features -/

theorem ref_pairs (x0 : (⟨S100000x75, .f32⟩ : BufTy).Contents (Elt Ideal)) (x1 : (⟨S1600000x14, .f32⟩ : BufTy).Contents (Elt Ideal)) (x3 : (⟨S1600000x2, .i32⟩ : BufTy).Contents (Elt Ideal)) (x10 : (⟨S150x50, .f32⟩ : BufTy).Contents (Elt Ideal)) (x11 : (⟨S50, .f32⟩ : BufTy).Contents (Elt Ideal)) (x12 : (⟨S14x50, .f32⟩ : BufTy).Contents (Elt Ideal)) (x13 : (⟨S50, .f32⟩ : BufTy).Contents (Elt Ideal)) (x14 : (⟨S100x50, .f32⟩ : BufTy).Contents (Elt Ideal)) (x15 : (⟨S50, .f32⟩ : BufTy).Contents (Elt Ideal)) :
    Read.val_main_v57 (F := Ideal) x0 x1 x3 x10 x11 x12 x13 x14 x15 = pairTop x0 x1 x3 x10 x11 x12 x13 x14 x15 := by
  funext i
  obtain ⟨p, h, rfl⟩ : ∃ (p : Fin 1600000) (h : Fin 50), i = ix2 p h := ⟨i 0, i 1, eq_ix2 i⟩
  rw [Read.val_main_v57_apply, Read.val_main_v56_apply, Read.val_main_v53_apply, bias_v55, zero_call6]
  have hz : (∑ k : Fin 100, Read.val_main_v52 (F := Ideal) x0 x1 x3 x10 x11 x12 x13 (Read.lidx_main_v53 (ix2 p h) k)
        * x14 (Read.ridx_main_v53 (ix2 p h) k))
      = dot (K := 50 + 50) (Read.val_main_v52 (F := Ideal) x0 x1 x3 x10 x11 x12 x13) x14 p h :=
    sum_eq_dot (K := 50 + 50) _ x14 p h (Read.lidx_main_v53 (ix2 p h)) (Read.ridx_main_v53 (ix2 p h))
      (fun k => funext fun a => Fin.ext (by
    match a with
    | ⟨0, _⟩ => rfl
    | ⟨1, _⟩ => rfl)) (fun k => funext fun a => Fin.ext (by
    match a with
    | ⟨0, _⟩ => rfl
    | ⟨1, _⟩ => rfl))
  have hx : ∀ k : Fin 50, Read.val_main_v52 (F := Ideal) x0 x1 x3 x10 x11 x12 x13 (ix2 p (Fin.castAdd 50 k))
      = pairSym (endAtom x0 x3 0) (endAtom x0 x3 1) (rowsFrom 0 (by decide) x10) (rowsFrom 75 (by decide) x10) (rowMat x11)
          (ix2 p k) := fun k =>
    (cat_left concatenates_S1600000x50_S1600000x50_S1600000x100_d1 _ _ p k).trans (ref_AP x0 x3 x10 x11 p k)
  have hy : ∀ k : Fin 50, Read.val_main_v52 (F := Ideal) x0 x1 x3 x10 x11 x12 x13 (ix2 p (Fin.natAdd 50 k))
      = dense x1 x12 (rowMat x13) (ix2 p k) := fun k =>
    (cat_right concatenates_S1600000x50_S1600000x50_S1600000x100_d1 _ _ p k).trans (ref_PP x1 x12 x13 p k)
  have hs := dot_split (K1 := 50) (K2 := 50) (Read.val_main_v52 (F := Ideal) x0 x1 x3 x10 x11 x12 x13) x14
    (pairSym (endAtom x0 x3 0) (endAtom x0 x3 1) (rowsFrom 0 (by decide) x10) (rowsFrom 75 (by decide) x10) (rowMat x11))
    (dense x1 x12 (rowMat x13)) (rowsFrom 0 (by decide) x14) (rowsFrom 50 (by decide) x14) p h hx hy
    (fun k => rows_from 0 _ x14 k h _ (by show k.val = 0 + k.val; omega)) (fun k => rows_from 50 _ x14 k h _ rfl)
  rw [hz, hs]
  rfl

end Cert.Weave.Ref

end
-- ==== Proof.RefRun.lean ====
/-
  The reference program's run, with its two results stated in the layer's mathematics: on every device the program
  ends with the new atom features of the arguments (the pair messages aggregated per atom by the program's own
  scatter-add, kept whole) and the new pair features of the arguments, the arguments unchanged.
-/
import proofs.«159579_j28982439313937_2_alg».proof.Proof.Gen.ReferenceIdeal.Run
import proofs.«159579_j28982439313937_2_alg».proof.Proof.Gen.ReferenceIdeal.Read
import proofs.«159579_j28982439313937_2_alg».proof.Proof.RefSide

noncomputable section

namespace Cert.Weave.RefRun

open Cert.ReferenceIdeal Cert.ReferenceIdeal.Gen Idealize.ShloMosaic Idealize.ShloMosaic.TcCoe Idealize.SL.Sem
  Idealize.ShloMosaic.StableHlo

/-- The aggregated pair messages: the program's scatter-add of the messages `paTop` into an array of zeros at the
    pairs' atom numbers. The scatter-add is not opened; only its update operand is named. -/
theorem agg_eq (x1 : (⟨S1600000x14, .f32⟩ : BufTy).Contents (Elt Ideal)) (x2 : (⟨S1600000, .i32⟩ : BufTy).Contents (Elt Ideal)) (x6 : (⟨S14x50, .f32⟩ : BufTy).Contents (Elt Ideal)) (x7 : (⟨S50, .f32⟩ : BufTy).Contents (Elt Ideal)) :
    Read.val_main_v12 (F := Ideal) x1 x2 x6 x7
      = (Host.scatterAdd scatter_S100000x50_S1600000x1_S1600000x50_1_0_0_1
                (broadcastInDim S100000x50 ![] bcast_S_S100000x50 (constant (F := Ideal) S_ .f32 0x00000000#32))
                (broadcastInDim S1600000x1 ![0] bcast_S1600000_S1600000x1_0 x2)
                (paTop x1 x6 x7)) := by
  rw [← Ref.ref_pa x1 x6 x7]
  rfl

/-- On every device, from any memory with zero counters: every weakly fair execution of the reference program
    terminates with the two results at the specification's terms of the arguments, and the arguments unchanged. -/
theorem run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v18)
          = atomTop (m ((c.tc : Thread nD τ).loc main_arg0))
              (Host.scatterAdd scatter_S100000x50_S1600000x1_S1600000x50_1_0_0_1
                (broadcastInDim S100000x50 ![] bcast_S_S100000x50 (constant (F := Ideal) S_ .f32 0x00000000#32))
                (broadcastInDim S1600000x1 ![0] bcast_S1600000_S1600000x1_0 (m ((c.tc : Thread nD τ).loc main_arg2)))
                (paTop (m ((c.tc : Thread nD τ).loc main_arg1)) (m ((c.tc : Thread nD τ).loc main_arg6)) (m ((c.tc : Thread nD τ).loc main_arg7))))
              (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_v57)
          = pairTop (m ((c.tc : Thread nD τ).loc main_arg0)) (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run Cert.ReferenceIdeal.defs _ _).mono (fun _ h c =>
    ⟨(h c).1.trans ((Read.val_main_v18_eq (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).trans
        ((Ref.ref_atoms (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).trans
          (congrArg (fun g => atomTop (m ((c.tc : Thread nD τ).loc main_arg0)) g (m ((c.tc : Thread nD τ).loc main_arg4)) (m ((c.tc : Thread nD τ).loc main_arg5)) (m ((c.tc : Thread nD τ).loc main_arg8)) (m ((c.tc : Thread nD τ).loc main_arg9)))
            (agg_eq (m ((c.tc : Thread nD τ).loc main_arg1)) (m ((c.tc : Thread nD τ).loc main_arg2)) (m ((c.tc : Thread nD τ).loc main_arg6)) (m ((c.tc : Thread nD τ).loc main_arg7)))))),
      (h c).2.1.trans ((Read.val_main_v57_eq (F := Ideal) (m ((c.tc : Thread nD τ).loc main_arg0)) (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).trans
        (Ref.ref_pairs (m ((c.tc : Thread nD τ).loc main_arg0)) (m ((c.tc : Thread nD τ).loc main_arg1)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))),
      (h c).2.2⟩)
    (Cert.ReferenceIdeal.Value.run (F := Ideal) m ρ)

end Cert.Weave.RefRun

end
-- ==== Proof.lean ====
/-
  The certificate of one message-passing layer on atoms and atom pairs: a kernel program of two pipelined regions
  — the pair region (every per-pair dense layer) and the atom region (every per-atom dense layer), with the row
  gathers, the weight cuts and the per-atom summation of pair messages as host operations around them — against a
  plain reference that concatenates feature stretches and multiplies once.

  Read on the extended reals, both programs compute the same two arrays. Every stage is a product with a weight
  matrix plus a bias through `max(·, 0)`; the format changes on the kernel's side are the identity; and where the
  reference multiplies a concatenation `[x | y]` by `W`, the kernel multiplies `x` by the top rows of `W` and
  `y` by the bottom rows and adds — one finite sum split in two (Proof/Spec.lean `dot_split`), which needs no
  finiteness of the inputs. The per-atom summation of pair messages is the same host operation on both sides,
  applied to the same index array, so it is kept whole; only the messages it sums are compared.

  The three frames are the generated frames of the two kernel programs and the reference's generated run with its
  results dropped; the idealization rewrote nothing, so `preserves` is trivial; `algebraic` pairs the kernel's
  run with its results named (Proof/KernelValue.lean) with the reference's run restated in the same terms
  (Proof/RefRun.lean).
-/
import proofs.«159579_j28982439313937_2_alg».proof.Defs
import proofs.«159579_j28982439313937_2_alg».proof.Proof.Gen.Kernel
import proofs.«159579_j28982439313937_2_alg».proof.Proof.Gen.Kernel.Skeleton
import proofs.«159579_j28982439313937_2_alg».proof.Proof.Gen.Kernel.Launch
import proofs.«159579_j28982439313937_2_alg».proof.Proof.Gen.Kernel.Points
import proofs.«159579_j28982439313937_2_alg».proof.Proof.Gen.Kernel.Frame
import proofs.«159579_j28982439313937_2_alg».proof.Proof.Gen.KernelIdeal
import proofs.«159579_j28982439313937_2_alg».proof.Proof.Gen.KernelIdeal.Skeleton
import proofs.«159579_j28982439313937_2_alg».proof.Proof.Gen.KernelIdeal.Launch
import proofs.«159579_j28982439313937_2_alg».proof.Proof.Gen.KernelIdeal.Points
import proofs.«159579_j28982439313937_2_alg».proof.Proof.Gen.KernelIdeal.Frame
import proofs.«159579_j28982439313937_2_alg».proof.Proof.Gen.ReferenceIdeal
import proofs.«159579_j28982439313937_2_alg».proof.Proof.Gen.ReferenceIdeal.Run
import proofs.«159579_j28982439313937_2_alg».proof.Proof.Gen.ReferenceIdeal.Read
import proofs.«159579_j28982439313937_2_alg».proof.Proof.Gen.Pre_finite_inputs
import proofs.«159579_j28982439313937_2_alg».proof.Proof.KernelValue
import proofs.«159579_j28982439313937_2_alg».proof.Proof.RefRun
import Idealize.ShloMosaic.Adequacy
import Idealize.ShloMosaic.Init

noncomputable section

namespace Cert.Proof

open Idealize.ShloMosaic Idealize.SL.Sem

namespace WeaveClaims

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the new atom features and the new pair
    features of those arguments: the kernel's run and the reference's run state the same two terms. -/
theorem algebraic : Cert.algebraic_KernelIdeal_ReferenceIdeal := by
  intro m ρ m' ρ' _ hagree
  refine ⟨_, _, Cert.Weave.KernelValue.run m ρ, ?_⟩
  refine (θ_run Cert.ReferenceIdeal.defs _ _).mono
    (fun _ h c => ⟨(h c).1.trans ?_, (h c).2.1.trans ?_, (h c).2.2⟩) (Cert.Weave.RefRun.run m' ρ')
  · rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    rfl
  · rw [(hagree c).1, (hagree c).2.1, (hagree c).2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

end WeaveClaims

theorem claim : Cert.Claim :=
  ⟨Cert.Kernel.Gen.facts, Cert.KernelIdeal.Gen.facts, Cert.ReferenceIdeal.Gen.facts, Cert.Pre_finite_inputs.Gen.facts,
    WeaveClaims.frame_k, WeaveClaims.frame_ki, WeaveClaims.frame_ri, WeaveClaims.preserves, WeaveClaims.algebraic⟩

end Cert.Proof

end
